-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S4096x64 : Shape := ⟨2, ![4096, 64]⟩
abbrev S12288x64 : Shape := ⟨2, ![12288, 64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S12288x64 : S_.BroadcastsInDim S12288x64 (![] : Fin 0 → Fin S12288x64.rank)
  reducesTo_S12288x64_S_d0_1 : S12288x64.ReducesTo [0, 1] S_

variable [Facts]

def fn {F : FTy → Type} [FloatOps F] (main_arg0 : FVec F S16384x16384 .f32) (main_arg1 : FVec F S4096x64 .f32) (main_arg2 : FVec F S12288x64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S12288x64 .f32 := Host.absf main_arg2
  let main_cst_2 : FVec F S_ .f32 := constant S_ .f32 0x7F800000#32
  let main_v10 : FVec F S12288x64 .f32 := broadcastInDim S12288x64 ![] bcast_S_S12288x64 main_cst_2
  let main_v11 : IVec S12288x64 1 := cmpf .olt main_v9 main_v10
  let main_c_3 : IVec S_ 1 := constantI S_ 1 1#1
  let main_v12 : IVec S_ 1 := (fun x v => Host.reduce IntOp.andi x v reducesTo_S12288x64_S_d0_1 h_S_) main_v11 main_c_3
  let main_v13 : IVec S_ 1 := andi main_v8 main_v12
  main_v13
-- ==== Kernel.lean ====
abbrev S16384x16384 : Shape := ⟨2, ![16384, 16384]⟩
abbrev S4096x64 : Shape := ⟨2, ![4096, 64]⟩
abbrev S12288x64 : Shape := ⟨2, ![12288, 64]⟩
abbrev S16384x64 : Shape := ⟨2, ![16384, 64]⟩
abbrev S512x2048 : Shape := ⟨2, ![512, 2048]⟩
abbrev S512x64 : Shape := ⟨2, ![512, 64]⟩
abbrev S2048x64 : Shape := ⟨2, ![2048, 64]⟩

abbrev nBuf : Space → Nat
  | .hbm => 10
  | .vmem => 24
  | .smem => 0
  | _ => 0

abbrev bufTy : (tb : Table) → Fin (tcTables nBuf tb) → BufTy
  | .hbm, ⟨0, _⟩ => ⟨S16384x16384, .f32⟩
  | .hbm, ⟨1, _⟩ => ⟨S4096x64, .f32⟩
  | .hbm, ⟨2, _⟩ => ⟨S12288x64, .f32⟩
  | .hbm, ⟨3, _⟩ => ⟨S16384x64, .f32⟩
  | .hbm, ⟨4, _⟩ => ⟨S16384x64, .f32⟩
  | .hbm, ⟨5, _⟩ => ⟨S16384x16384, .bf16⟩
  | .hbm, ⟨6, _⟩ => ⟨S16384x64, .f32⟩
  | .hbm, ⟨7, _⟩ => ⟨S16384x64, .f32⟩
  | .hbm, ⟨8, _⟩ => ⟨S4096x64, .f32⟩
  | .hbm, ⟨9, _⟩ => ⟨S12288x64, .f32⟩
  | .local _ .vmem, ⟨0, _⟩ => ⟨S512x2048, .f32⟩
  | .local _ .vmem, ⟨1, _⟩ => ⟨S512x2048, .f32⟩
  | .local _ .vmem, ⟨2, _⟩ => ⟨S16384x64, .f32⟩
  | .local _ .vmem, ⟨3, _⟩ => ⟨S512x64, .f32⟩
  | .local _ .vmem, ⟨4, _⟩ => ⟨S512x64, .f32⟩
  | .local _ .vmem, ⟨5, _⟩ => ⟨S512x2048, .bf16⟩
  | .local _ .vmem, ⟨6, _⟩ => ⟨S512x2048, .bf16⟩
  | .local _ .vmem, ⟨7, _⟩ => ⟨S512x64, .f32⟩
  | .local _ .vmem, ⟨8, _⟩ => ⟨S512x2048, .bf16⟩
  | .local _ .vmem, ⟨9, _⟩ => ⟨S512x2048, .bf16⟩
  | .local _ .vmem, ⟨10, _⟩ => ⟨S16384x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x2048, .bf16⟩
  | .local _ .vmem, ⟨15, _⟩ => ⟨S512x2048, .bf16⟩
  | .local _ .vmem, ⟨16, _⟩ => ⟨S16384x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S512x64, .f32⟩
  | .local _ .vmem, ⟨21, _⟩ => ⟨S512x64, .f32⟩
  | .local _ .vmem, ⟨22, _⟩ => ⟨S512x64, .f32⟩
  | .local _ .vmem, ⟨23, _⟩ => ⟨S512x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨2, ![32, 8], ![false, false]⟩

def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : Index := Scalar.indexCast v3
  let c0_3 : Index := 0#32
  ![v4.toNat, 0]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 8], ![false, false]⟩

def k1_off1 (i : grid1.Coords) : Fin 2 → Nat :=
  let arg1 : BitVec 32 := BitVec.ofNat 32 (i 1).val
  let c2048_i32 : BitVec 32 := 2048#32
  let v0 : BitVec 32 := Scalar.muli arg1 c2048_i32
  let v1 : Index := Scalar.indexCast v0
  let c0 : Index := 0#32
  ![v1.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![32, 8], ![false, false]⟩

def k2_off1 (i : grid2.Coords) : Fin 2 → Nat :=
  let arg1 : BitVec 32 := BitVec.ofNat 32 (i 1).val
  let c2048_i32 : BitVec 32 := 2048#32
  let v0 : BitVec 32 := Scalar.muli arg1 c2048_i32
  let v1 : Index := Scalar.indexCast v0
  let c0 : Index := 0#32
  ![v1.toNat, 0]
def k2_cond2 (i : grid2.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def k2_off2 (i : grid2.Coords) : Fin 2 → Nat :=
  let arg0 : BitVec 32 := BitVec.ofNat 32 (i 0).val
  let c512_i32 : BitVec 32 := 512#32
  let v19 : BitVec 32 := Scalar.muli arg0 c512_i32
  let v20 : Index := Scalar.indexCast v19
  let c0_8 : Index := 0#32
  ![v20.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16384x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  concatenates_S4096x64_S12288x64_S16384x64_d0 : Shape.Concatenates [S4096x64, S12288x64] S16384x64 0
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  h_S2048x64 : 0 < S2048x64.numel
  shapeCasts_S2048x64_S2048x64 : S2048x64.ShapeCasts S2048x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S512x2048_S512x2048 : S512x2048.ShapeCasts S512x2048
  slices_S16384x64_S4096x64_0_0 : S16384x64.Slices ![0, 0] S4096x64
  slices_S16384x64_S12288x64_4096_0 : S16384x64.Slices ![4096, 0] S12288x64
  dot_S512x2048_S2048x64_S512x64_1_0_0_1_n_n_wf : DotDims.WF S512x2048 S2048x64 S512x64 [1] [0] [0] [1] [] []
  hrank0 : 0 < grid0.rank
  k0_off1_inb : ∀ i : grid0.Coords, ∀ a, (k0_off1 i) a + S2048x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x16384.size a
  hwx0_0 : ∀ i : grid0.Coords, EltTy.bits .f32 = 32 ∨ (Rect.block (s := S16384x16384) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S16384x64.size a
  hwx0_2 : ∀ i : grid0.Coords, EltTy.bits .f32 = 32 ∨ (Rect.block (s := S16384x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x16384.size a
  hwx0_3 : ∀ i : grid0.Coords, EltTy.bits .bf16 = 32 ∨ (Rect.block (s := S16384x16384) S512x2048.size (cc0_transform_3 i) (hinb0_3 i)).WholeWords (EltTy.packing .bf16)
  hrank1 : 0 < grid1.rank
  k1_off1_inb : ∀ i : grid1.Coords, ∀ a, (k1_off1 i) a + S2048x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x16384.size a
  hwx1_0 : ∀ i : grid1.Coords, EltTy.bits .bf16 = 32 ∨ (Rect.block (s := S16384x16384) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S16384x64.size a
  hwx1_2 : ∀ i : grid1.Coords, EltTy.bits .f32 = 32 ∨ (Rect.block (s := S16384x64) S512x64.size (cc1_transform_2 i) (hinb1_2 i)).WholeWords (EltTy.packing .f32)
  hrank2 : 0 < grid2.rank
  k2_off1_inb : ∀ i : grid2.Coords, ∀ a, (k2_off1 i) a + S2048x64.size a ≤ S16384x64.size a
  k2_off2_inb : ∀ i : grid2.Coords, ∀ (k2_h2 : k2_cond2 i = 1#1), ∀ a, (k2_off2 i) a + S512x64.size a ≤ S16384x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S16384x16384.size a
  hwx2_0 : ∀ i : grid2.Coords, EltTy.bits .bf16 = 32 ∨ (Rect.block (s := S16384x16384) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x64.size a ≤ S16384x64.size a
  hwx2_1 : ∀ i : grid2.Coords, EltTy.bits .f32 = 32 ∨ (Rect.block (s := S16384x64) S16384x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S16384x64.size a
  hwx2_2 : ∀ i : grid2.Coords, EltTy.bits .f32 = 32 ∨ (Rect.block (s := S16384x64) S512x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S16384x64.size a
  hwx2_3 : ∀ i : grid2.Coords, EltTy.bits .f32 = 32 ∨ (Rect.block (s := S16384x64) S512x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x64.size a ≤ S16384x64.size a
  hwx2_4 : ∀ i : grid2.Coords, EltTy.bits .f32 = 32 ∨ (Rect.block (s := S16384x64) S512x64.size (cc2_transform_4 i) (hinb2_4 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_v1_1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1_1) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S16384x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S512x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1_0) S512x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S512x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S16384x16384 : Shape := ⟨2, ![16384, 16384]⟩
abbrev S4096x64 : Shape := ⟨2, ![4096, 64]⟩
abbrev S12288x64 : Shape := ⟨2, ![12288, 64]⟩
abbrev S16384x64 : Shape := ⟨2, ![16384, 64]⟩
abbrev S16384x1x64 : Shape := ⟨3, ![16384, 1, 64]⟩
abbrev S16384x4x64 : Shape := ⟨3, ![16384, 4, 64]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S4096x64, .f32⟩
  | .hbm, ⟨2, _⟩ => ⟨S12288x64, .f32⟩
  | .hbm, ⟨3, _⟩ => ⟨S16384x64, .f32⟩
  | .hbm, ⟨4, _⟩ => ⟨S16384x64, .f32⟩
  | .hbm, ⟨5, _⟩ => ⟨S16384x64, .f32⟩
  | .hbm, ⟨6, _⟩ => ⟨S16384x64, .f32⟩
  | .hbm, ⟨7, _⟩ => ⟨S16384x1x64, .f32⟩
  | .hbm, ⟨8, _⟩ => ⟨S16384x1x64, .f32⟩
  | .hbm, ⟨9, _⟩ => ⟨S16384x1x64, .f32⟩
  | .hbm, ⟨10, _⟩ => ⟨S16384x1x64, .f32⟩
  | .hbm, ⟨11, _⟩ => ⟨S16384x4x64, .f32⟩
  | .hbm, ⟨12, _⟩ => ⟨S_, .f32⟩
  | .hbm, ⟨13, _⟩ => ⟨S16384x64, .f32⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S4096x64, .f32⟩
  | .hbm, ⟨18, _⟩ => ⟨S12288x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  concatenates_S4096x64_S12288x64_S16384x64_d0 : Shape.Concatenates [S4096x64, S12288x64] S16384x64 0
  bcast_S16384x64_S16384x1x64_0_2 : S16384x64.BroadcastsInDim S16384x1x64 (![0, 2] : Fin 2 → Fin S16384x1x64.rank)
  concatenates_S16384x1x64_S16384x1x64_S16384x1x64_S16384x1x64_S16384x4x64_d1 : Shape.Concatenates [S16384x1x64, S16384x1x64, S16384x1x64, S16384x1x64] S16384x4x64 1
  reducesTo_S16384x4x64_S16384x64_d1 : S16384x4x64.ReducesTo [1] S16384x64
  h_S_ : 0 < S_.numel
  bcast_S_S16384x64 : S_.BroadcastsInDim S16384x64 (![] : Fin 0 → Fin S16384x64.rank)
  slices_S16384x64_S4096x64_0_0 : S16384x64.Slices ![0, 0] S4096x64
  slices_S16384x64_S12288x64_4096_0 : S16384x64.Slices ![4096, 0] S12288x64
  dot_S16384x16384_S16384x64_S16384x64_1_0_0_1_n_n_wf : DotDims.WF S16384x16384 S16384x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.K.R0Shared.lean ====
import proofs.«123882_g45509473468512_cont_8to1_c_438_2_alg».proof.Proof.Gen.Kernel.Launch
import proofs.«123882_g45509473468512_cont_8to1_c_438_2_alg».proof.Proof.Gen.Kernel.Skeleton
import proofs.«123882_g45509473468512_cont_8to1_c_438_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The first pass, E₁ = A · E₀, which also writes the matrix out in the narrow format: what its runs share

The grid is 32 row blocks by 8 column blocks of the matrix. At column block `k` the body multiplies the
512 × 2048 block of the matrix by rows `2048 k …` of the table and adds the product to a 512 × 64 accumulator
it keeps between points: the accumulator is reset to zero when `k = 0` and read out into the output block when
`k = 7`. Three cases of the two conditions are met: first column block, a middle one, the last one.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The body resets its accumulator: the column block is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The body reads its accumulator out: the column block is the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Before the last column block nothing is stored into the output block, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column block the output block is stored whole. -/
theorem liveAt0_2 : ∀ t : Fin cfg0.N, cond0_1 (grid0.coords t) → cfg0.idle 2 (grid0.coords t) = false := by decide +kernel

/-! ## The memrefs the body is called on -/

abbrev VO0_2 : View sig .tc .vmem S512x64 .f32 := (Memref.whole cc0_stg2_0 : Memref sig .tc .vmem S512x64 .f32).view
abbrev VO0_3 : View sig .tc .vmem S512x2048 .bf16 := (Memref.whole cc0_stg3_0 : Memref sig .tc .vmem S512x2048 .bf16).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
/-- The accumulator: a whole buffer of the kernel's own. -/
abbrev scM0_0 : Memref sig .tc .vmem S512x64 .f32 := Memref.whole cc0_scratch0
abbrev VS0_0 : View sig .tc .vmem S512x64 .f32 := scM0_0.view

/-- Every scoped buffer but this pass's accumulator and the pipeline's staging buffers, each at anything: the other
    passes' buffers, which this pass never touches. -/
abbrev But0 (c : Dev nD) : sProp 𝕄 :=
  Pipeline.scopedRestBut (Ix := Unit) (Name := ℕ) (U := UR sig nD τ) (Lvl := ℕ) (Val := Elt F) spec0 c [cc0_scratch0]

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ But0 c) :=
  Pipeline.scopedRest_split_of_list spec0 c [cc0_scratch0] (by decide) (by decide)

/-- The region's resting invariant with the accumulator taken out of the scoped rest. -/
theorem PhiA0_eq (c : Dev nD) :
    (Pipeline.ΦA spec0 c : sProp 𝕄)
      = iprop(iprop((∃ d, owns (c : Thread nD τ) scM0_0 fullShare d) ∗ But0 c) ∗ (∃ r, prngReg c r)) := by
  unfold Pipeline.ΦA; rw [scopedRest0_split]; simp only [scM0_0, owns_whole]; try rfl

end Cert.Kernel.Hand

end
-- ==== Proof.K.R0RunA.lean ====
import proofs.«123882_g45509473468512_cont_8to1_c_438_2_alg».proof.Proof.K.R0Shared

/-!
# The first pass, E₁ = A · E₀, which also writes the matrix out in the narrow format — at the first column block

The accumulator, whatever it held, is set to zero and then to zero plus the block product; the output block of the
last column block is not touched.
The narrowed matrix block is stored into its own output block, whatever that held.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun0_A (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) :
    Σ' (L3 : List (View.Piece (Elt F) S512x2048 .bf16)), { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pass1 i arg2 harg2 arg3 harg3 arg4 harg4 arg5 harg5 arg6 harg6) K } := by
  refine ⟨?_, ?_, fun xi2 E K => ?run⟩
  case run =>
    simp only [cc0__pass1_eq_skeleton]; unfold cc0__pass1_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.Hand

end
-- ==== Proof.K.R0RunB.lean ====
import proofs.«123882_g45509473468512_cont_8to1_c_438_2_alg».proof.Proof.K.R0RunA

/-!
# The first pass, E₁ = A · E₀, which also writes the matrix out in the narrow format — at a middle column block

The block product is added to the accumulator; the output block of the last column block is not touched.
The narrowed matrix block is stored into its own output block, whatever that held.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun0_B (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) :
    Σ' (L3 : List (View.Piece (Elt F) S512x2048 .bf16)), { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pass1 i arg2 harg2 arg3 harg3 arg4 harg4 arg5 harg5 arg6 harg6) K } := by
  refine ⟨?_, ?_, fun xi2 E K => ?run⟩
  case run =>
    simp only [cc0__pass1_eq_skeleton]; unfold cc0__pass1_skel
    unfold owns
    iintro ⟨⟨%f2, %hf2, H2⟩, ⟨%f3, %hf3, H3⟩, ⟨%f4, %hf4, H4⟩, ⟨%d5, %f5, -, H5⟩, ⟨%f6, %hf6, H6⟩, Hk⟩
    obtain rfl := harg2.eq_unread hf2; obtain rfl := harg3.eq_unread hf3; obtain rfl := harg4.eq_unread hf4; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.Hand

end
-- ==== Proof.K.R0RunC.lean ====
import proofs.«123882_g45509473468512_cont_8to1_c_438_2_alg».proof.Proof.K.R0RunB

/-!
# The first pass, E₁ = A · E₀, which also writes the matrix out in the narrow format — at the last column block

The block product is added to the accumulator, and the output block, whatever it held, is stored whole.
The narrowed matrix block is stored into its own output block, whatever that held.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun0_C (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) :
    Σ' (L2 : List (View.Piece (Elt F) S512x64 .f32)), Σ' (L3 : List (View.Piece (Elt F) S512x2048 .bf16)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pass1 i arg2 harg2 arg3 harg3 arg4 harg4 arg5 harg5 arg6 harg6) K } := by
  refine ⟨?_, ?_, ?_, fun E K => ?run⟩
  case run =>
    simp only [cc0__pass1_eq_skeleton]; unfold cc0__pass1_skel
    unfold owns
    iintro ⟨⟨%f2, %hf2, H2⟩, ⟨%f3, %hf3, H3⟩, ⟨%d4, %f4, -, H4⟩, ⟨%d5, %f5, -, H5⟩, ⟨%f6, %hf6, H6⟩, Hk⟩
    obtain rfl := harg2.eq_unread hf2; obtain rfl := harg3.eq_unread hf3; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    iexists _; iexact H6

end Cert.Kernel.Hand

end
-- ==== Proof.K.R0Frame.lean ====
import proofs.«123882_g45509473468512_cont_8to1_c_438_2_alg».proof.Proof.K.R0RunC

/-!
# The first pass, E₁ = A · E₀, which also writes the matrix out in the narrow format: what it leaves, point by point, and its body obligation

Point `t` of the grid is row block `t / 8`, column block `t % 8`. After the body at `t` the accumulator holds
the sum of the block products of column blocks `0 … t % 8` of row block `t / 8`; the output block is stored at the
last column block only, and written back there. This pass also stores the matrix block, narrowed to the short format, into a second output block at every point; that block is written back at every point.
Between points the accumulator is the one piece of state: the invariant before point `t + 1` holds it at what
point `t` left.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem cover0_A_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) (y : S512x2048.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S512x2048.size (by sl_kernel_rfl) y
/-- What case A leaves in output window 3's buffer: its pieces read back. -/
def out0_A_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) : Vec F S512x2048 .bf16 :=
  VO0_3.read (Elt F) (VO0_3.writes (Elt F) VO0_3.junk (kernelRun0_A c i arg2 harg2 arg3 harg3 arg4 harg4 arg5 harg5 arg6 harg6 hc0 hc1 x0 x1).1)
theorem scover0_A_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) (y : S512x64.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S512x64.size (by sl_kernel_rfl) y
/-- What case A leaves in the accumulator: its pieces read back. -/
def sout0_A_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) : Vec F S512x64 .f32 :=
  VS0_0.read (Elt F) (VS0_0.writes (Elt F) VS0_0.junk (kernelRun0_A c i arg2 harg2 arg3 harg3 arg4 harg4 arg5 harg5 arg6 harg6 hc0 hc1 x0 x1).2.1)

theorem cover0_B_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) (y : S512x2048.Idx) :
    ∃ pc ∈ (kernelRun0_B c i arg2 harg2 arg3 harg3 arg4 harg4 arg5 harg5 arg6 harg6 hc0 hc1 x0 x1 xs0).1, y ∈ pc.1.set :=
  View.cover_of_tiledL (kernelRun0_B c i arg2 harg2 arg3 harg3 arg4 harg4 arg5 harg5 arg6 harg6 hc0 hc1 x0 x1 xs0).1 S512x2048.size (by sl_kernel_rfl) y
/-- What case B leaves in output window 3's buffer: its pieces read back. -/
def out0_B_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) : Vec F S512x2048 .bf16 :=
  VO0_3.read (Elt F) (VO0_3.writes (Elt F) VO0_3.junk (kernelRun0_B c i arg2 harg2 arg3 harg3 arg4 harg4 arg5 harg5 arg6 harg6 hc0 hc1 x0 x1 xs0).1)
theorem scover0_B_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) (y : S512x64.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S512x64.size (by sl_kernel_rfl) y
/-- What case B leaves in the accumulator: its pieces read back. -/
def sout0_B_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) : Vec F S512x64 .f32 :=
  VS0_0.read (Elt F) (VS0_0.writes (Elt F) VS0_0.junk (kernelRun0_B c i arg2 harg2 arg3 harg3 arg4 harg4 arg5 harg5 arg6 harg6 hc0 hc1 x0 x1 xs0).2.1)

theorem cover0_C_2 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) (y : S512x64.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S512x64.size (by sl_kernel_rfl) y
/-- What case C leaves in output window 2's buffer: its pieces read back. -/
def out0_C_2 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) : Vec F S512x64 .f32 :=
  VO0_2.read (Elt F) (VO0_2.writes (Elt F) VO0_2.junk (kernelRun0_C c i arg2 harg2 arg3 harg3 arg4 harg4 arg5 harg5 arg6 harg6 hc0 hc1 x0 x1 xs0).1)
theorem cover0_C_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) (y : S512x2048.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S512x2048.size (by sl_kernel_rfl) y
/-- What case C leaves in output window 3's buffer: its pieces read back. -/
def out0_C_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) : Vec F S512x2048 .bf16 :=
  VO0_3.read (Elt F) (VO0_3.writes (Elt F) VO0_3.junk (kernelRun0_C c i arg2 harg2 arg3 harg3 arg4 harg4 arg5 harg5 arg6 harg6 hc0 hc1 x0 x1 xs0).2.1)
theorem scover0_C_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) (y : S512x64.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S512x64.size (by sl_kernel_rfl) y
/-- What case C leaves in the accumulator: its pieces read back. -/
def sout0_C_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) : Vec F S512x64 .f32 :=
  VS0_0.read (Elt F) (VS0_0.writes (Elt F) VS0_0.junk (kernelRun0_C c i arg2 harg2 arg3 harg3 arg4 harg4 arg5 harg5 arg6 harg6 hc0 hc1 x0 x1 xs0).2.2.1)

/-! ## Point by point -/

/-- What stands for the output block where nothing is stored into it and it is not written back. -/
def idleOut0 : Vec F S512x64 .f32 := VO0_2.read (Elt F) VO0_2.junk

/-- After a point of the first column block. -/
def stepA0 (c : Dev nD) (t : Fin cfg0.N) (h0 : t.val % 8 = 0) : Vec F S512x64 .f32 × Vec F S512x2048 .bf16 × Vec F S512x64 .f32 :=
  (idleOut0,
   out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => by have := (hcond0_1 t).mp h; omega) (iblk0 V c 0 t) (iblk0 V c 1 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => by have := (hcond0_1 t).mp h; omega) (iblk0 V c 0 t) (iblk0 V c 1 t))
/-- After a point of a middle column block, the accumulator found at `xs`. -/
def stepB0 (c : Dev nD) (t : Fin cfg0.N) (h0 : ¬t.val % 8 = 0) (h1 : ¬t.val % 8 = 7) (xs : Vec F S512x64 .f32) : Vec F S512x64 .f32 × Vec F S512x2048 .bf16 × Vec F S512x64 .f32 :=
  (idleOut0,
   out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) xs,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) xs)
/-- After a point of the last column block, the accumulator found at `xs`. -/
def stepC0 (c : Dev nD) (t : Fin cfg0.N) (h0 : ¬t.val % 8 = 0) (h1 : t.val % 8 = 7) (xs : Vec F S512x64 .f32) : Vec F S512x64 .f32 × Vec F S512x2048 .bf16 × Vec F S512x64 .f32 :=
  (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs,
   out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs)

/-- The output buffers' and the accumulator's contents after the body at position `n`, by recursion on the position. -/
def outsAt0 (c : Dev nD) : (n : ℕ) → n < cfg0.N → Vec F S512x64 .f32 × Vec F S512x2048 .bf16 × Vec F S512x64 .f32
  | 0, hn => stepA0 V c ⟨0, hn⟩ (Nat.zero_mod _)
  | n + 1, hn =>
    if h0 : (n + 1) % 8 = 0 then stepA0 V c ⟨n + 1, hn⟩ h0
    else if h1 : (n + 1) % 8 = 7 then stepC0 V c ⟨n + 1, hn⟩ h0 h1 (outsAt0 c n (Nat.lt_of_succ_lt hn)).2.2
    else stepB0 V c ⟨n + 1, hn⟩ h0 h1 (outsAt0 c n (Nat.lt_of_succ_lt hn)).2.2

theorem outsAt0_A (c : Dev nD) (t : Fin cfg0.N) (h0 : t.val % 8 = 0) : outsAt0 V c t.val t.isLt = stepA0 V c t h0 := by
  obtain ⟨n, hn⟩ := t
  cases n with
  | zero => rfl
  | succ n => exact (dif_pos h0).trans rfl
theorem outsAt0_B (c : Dev nD) (t : Fin cfg0.N) (h0 : ¬t.val % 8 = 0) (h1 : ¬t.val % 8 = 7) :
    outsAt0 V c t.val t.isLt = stepB0 V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 8 = 0) (h1 : t.val % 8 = 7) :
    outsAt0 V c t.val t.isLt = stepC0 V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- Before position `n`: at the start the resting invariant; afterwards the accumulator at what the point before left,
    the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ But0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ But0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ But0 c) ∗ (∃ r, prngReg c r)) := by
  cases n with
  | zero => exact absurd rfl hz
  | succ n => rfl

/-! ## The proof data -/

/-- The arrays as the pass finds them; after the body each input's buffer at its block and each output's at
    `outsAt0`'s component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's column block says which case it is;
    the invariant hands over the accumulator at what the point before left (at anything where the body resets it)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  by_cases h0 : t.val % 8 = 0
  · have h1 : ¬t.val % 8 = 7 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 3 t = owns (c : Thread nD τ) (ms0_3 t) fullShare ((dat0 V c).after 3 t) from by
      unfold Dat.leavesExact; rw [liveAt0_3 t], after0_3]
    rw [Dat.leavesExact_idle (dat0 V c) 2 t (idleAt0_2 t (fun h => h1 ((hcond0_1 t).mp h))) (noFlush0_2 t (fun h => h1 ((hcond0_1 t).mp h)))]
    rw [outsAt0_A V c t h0]
    unfold stepA0 out0_A_3 sout0_A_0; (try dsimp only)
    by_cases hz : t.val = 0
    · rw [PhiS0_castSucc V c t, PhiS0_zero V c _ _ hz, PhiA0_eq]
      iintro ⟨⟨⟨HS0, HB⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_A_0 c _ _ _ _ _ _ _ _ _ _ _ _ _ _ _)
          iexact HB
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
    · rw [PhiS0_castSucc V c t, PhiS0_pos V c _ _ hz]
      iintro ⟨⟨⟨HS0, HB⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_A_0 c _ _ _ _ _ _ _ _ _ _ _ _ _ _ _)
          iexact HB
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
  · have hz : t.val ≠ 0 := fun h => h0 (by rw [h])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 3 t = owns (c : Thread nD τ) (ms0_3 t) fullShare ((dat0 V c).after 3 t) from by
        unfold Dat.leavesExact; rw [liveAt0_3 t], after0_3]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold stepC0 out0_C_2 out0_C_3 sout0_C_0; (try dsimp only)
      rw [PhiS0_castSucc V c t, PhiS0_pos V c _ _ hz]
      iintro ⟨⟨⟨HS0, HB⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_C_0 c _ _ _ _ _ _ _ _ _ _ _ _ _ _ _ _)
          iexact HB
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold stepB0 out0_B_3 sout0_B_0; (try dsimp only)
      rw [PhiS0_castSucc V c t, PhiS0_pos V c _ _ hz]
      iintro ⟨⟨⟨HS0, HB⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_B_0 c _ _ _ _ _ _ _ _ _ _ _ _ _ _ _ _)
          iexact HB
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_B_3 c _ _ _ _ _ _ _ _ _ _ _ _ _ _ _ _)

/-- The body obligation at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the resting one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HB⟩, Hg⟩
  isplitl [HS0 HB]
  · isplitl [HS0]
    · iexists _; iexact HS0
    iexact HB
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end Cert.Kernel.Hand

end
-- ==== Proof.K.R1Shared.lean ====
import proofs.«123882_g45509473468512_cont_8to1_c_438_2_alg».proof.Proof.Gen.Kernel.Launch
import proofs.«123882_g45509473468512_cont_8to1_c_438_2_alg».proof.Proof.Gen.Kernel.Skeleton
import proofs.«123882_g45509473468512_cont_8to1_c_438_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The second pass, E₂ = A · E₁: what its runs share

The grid is 32 row blocks by 8 column blocks of the matrix. At column block `k` the body multiplies the
512 × 2048 block of the matrix by rows `2048 k …` of the table and adds the product to a 512 × 64 accumulator
it keeps between points: the accumulator is reset to zero when `k = 0` and read out into the output block when
`k = 7`. Three cases of the two conditions are met: first column block, a middle one, the last one.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The body resets its accumulator: the column block is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The body reads its accumulator out: the column block is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
/-- Before the last column block nothing is stored into the output block, and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last column block the output block is stored whole. -/
theorem liveAt1_2 : ∀ t : Fin cfg1.N, cond1_1 (grid1.coords t) → cfg1.idle 2 (grid1.coords t) = false := by decide +kernel

/-! ## The memrefs the body is called on -/

abbrev VO1_2 : View sig .tc .vmem S512x64 .f32 := (Memref.whole cc1_stg2_0 : Memref sig .tc .vmem S512x64 .f32).view
abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
/-- The accumulator: a whole buffer of the kernel's own. -/
abbrev scM1_0 : Memref sig .tc .vmem S512x64 .f32 := Memref.whole cc1_scratch0
abbrev VS1_0 : View sig .tc .vmem S512x64 .f32 := scM1_0.view

/-- Every scoped buffer but this pass's accumulator and the pipeline's staging buffers, each at anything: the other
    passes' buffers, which this pass never touches. -/
abbrev But1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ But1 c) :=
  Pipeline.scopedRest_split_of_list spec1 c [cc1_scratch0] (by decide) (by decide)

/-- The region's resting invariant with the accumulator taken out of the scoped rest. -/
theorem PhiA1_eq (c : Dev nD) :
    (Pipeline.ΦA spec1 c : sProp 𝕄)
      = iprop(iprop((∃ d, owns (c : Thread nD τ) scM1_0 fullShare d) ∗ But1 c) ∗ (∃ r, prngReg c r)) := by
  unfold Pipeline.ΦA; rw [scopedRest1_split]; simp only [scM1_0, owns_whole]; try rfl

end Cert.Kernel.Hand

end
-- ==== Proof.K.R1RunA.lean ====
import proofs.«123882_g45509473468512_cont_8to1_c_438_2_alg».proof.Proof.K.R1Shared

/-!
# The second pass, E₂ = A · E₁ — at the first column block

The accumulator, whatever it held, is set to zero and then to zero plus the block product; the output block of the
last column block is not touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun1_A (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : cond1_0 i) (hc1 : ¬cond1_1 i)
    (x0 : Vec F S512x2048 .bf16) (x1 : Vec F S16384x64 .f32) :
    { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pass2 i arg2 harg2 arg3 harg3 arg4 harg4 arg5 harg5) K } := by
  refine ⟨?_, fun xi2 E K => ?run⟩
  case run =>
    simp only [cc1__pass2_eq_skeleton]; unfold cc1__pass2_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.Kernel.Hand

end
-- ==== Proof.K.R1RunB.lean ====
import proofs.«123882_g45509473468512_cont_8to1_c_438_2_alg».proof.Proof.K.R1RunA

/-!
# The second pass, E₂ = A · E₁ — at a middle column block

The block product is added to the accumulator; the output block of the last column block is not touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun1_B (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : ¬cond1_1 i)
    (x0 : Vec F S512x2048 .bf16) (x1 : Vec F S16384x64 .f32) (xs0 : Vec F S512x64 .f32) :
    { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pass2 i arg2 harg2 arg3 harg3 arg4 harg4 arg5 harg5) K } := by
  refine ⟨?_, fun xi2 E K => ?run⟩
  case run =>
    simp only [cc1__pass2_eq_skeleton]; unfold cc1__pass2_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.Kernel.Hand

end
-- ==== Proof.K.R1RunC.lean ====
import proofs.«123882_g45509473468512_cont_8to1_c_438_2_alg».proof.Proof.K.R1RunB

/-!
# The second pass, E₂ = A · E₁ — at the last column block

The block product is added to the accumulator, and the output block, whatever it held, is stored whole.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun1_C (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) :
    Σ' (L2 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pass2 i arg2 harg2 arg3 harg3 arg4 harg4 arg5 harg5) K } := by
  refine ⟨?_, ?_, fun E K => ?run⟩
  case run =>
    simp only [cc1__pass2_eq_skeleton]; unfold cc1__pass2_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

end Cert.Kernel.Hand

end
-- ==== Proof.K.R1Frame.lean ====
import proofs.«123882_g45509473468512_cont_8to1_c_438_2_alg».proof.Proof.K.R1RunC

/-!
# The second pass, E₂ = A · E₁: what it leaves, point by point, and its body obligation

Point `t` of the grid is row block `t / 8`, column block `t % 8`. After the body at `t` the accumulator holds
the sum of the block products of column blocks `0 … t % 8` of row block `t / 8`; the output block is stored at the
last column block only, and written back there. At the last column block the accumulator itself is what is stored into the output block.
Between points the accumulator is the one piece of state: the invariant before point `t + 1` holds it at what
point `t` left.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : cond1_0 i) (hc1 : ¬cond1_1 i)
    (x0 : Vec F S512x2048 .bf16) (x1 : Vec F S16384x64 .f32) (y : S512x64.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S512x64.size (by sl_kernel_rfl) y
/-- What case A leaves in the accumulator: its pieces read back. -/
def sout1_A_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : cond1_0 i) (hc1 : ¬cond1_1 i)
    (x0 : Vec F S512x2048 .bf16) (x1 : Vec F S16384x64 .f32) : Vec F S512x64 .f32 :=
  VS1_0.read (Elt F) (VS1_0.writes (Elt F) VS1_0.junk (kernelRun1_A c i arg2 harg2 arg3 harg3 arg4 harg4 arg5 harg5 hc0 hc1 x0 x1).1)

theorem scover1_B_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : ¬cond1_1 i)
    (x0 : Vec F S512x2048 .bf16) (x1 : Vec F S16384x64 .f32) (xs0 : Vec F S512x64 .f32) (y : S512x64.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S512x64.size (by sl_kernel_rfl) y
/-- What case B leaves in the accumulator: its pieces read back. -/
def sout1_B_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : ¬cond1_1 i)
    (x0 : Vec F S512x2048 .bf16) (x1 : Vec F S16384x64 .f32) (xs0 : Vec F S512x64 .f32) : Vec F S512x64 .f32 :=
  VS1_0.read (Elt F) (VS1_0.writes (Elt F) VS1_0.junk (kernelRun1_B c i arg2 harg2 arg3 harg3 arg4 harg4 arg5 harg5 hc0 hc1 x0 x1 xs0).1)

theorem cover1_C_2 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) (y : S512x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S512x64.size (by sl_kernel_rfl) y
/-- What case C leaves in output window 2's buffer: its pieces read back. -/
def out1_C_2 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) : Vec F S512x64 .f32 :=
  VO1_2.read (Elt F) (VO1_2.writes (Elt F) VO1_2.junk (kernelRun1_C c i arg2 harg2 arg3 harg3 arg4 harg4 arg5 harg5 hc0 hc1 x0 x1 xs0).1)
theorem scover1_C_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) (y : S512x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S512x64.size (by sl_kernel_rfl) y
/-- What case C leaves in the accumulator: its pieces read back. -/
def sout1_C_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) : Vec F S512x64 .f32 :=
  VS1_0.read (Elt F) (VS1_0.writes (Elt F) VS1_0.junk (kernelRun1_C c i arg2 harg2 arg3 harg3 arg4 harg4 arg5 harg5 hc0 hc1 x0 x1 xs0).2.1)

/-! ## Point by point -/

/-- What stands for the output block where nothing is stored into it and it is not written back. -/
def idleOut1 : Vec F S512x64 .f32 := VO1_2.read (Elt F) VO1_2.junk

/-- After a point of the first column block. -/
def stepA1 (c : Dev nD) (t : Fin cfg1.N) (h0 : t.val % 8 = 0) : Vec F S512x64 .f32 × Vec F S512x64 .f32 :=
  (idleOut1,
   sout1_A_0 c (grid1.coords t) (ms1_0 t) (hs1_0 t) (ms1_1 t) (hs1_1 t) (ms1_2 t) (hs1_2 t) scM1_0 (Memref.isWhole_whole _) ((hcond1_0 t).mpr h0) (fun h => by have := (hcond1_1 t).mp h; omega) (iblk1 V c 0 t) (iblk1 V c 1 t))
/-- After a point of a middle column block, the accumulator found at `xs`. -/
def stepB1 (c : Dev nD) (t : Fin cfg1.N) (h0 : ¬t.val % 8 = 0) (h1 : ¬t.val % 8 = 7) (xs : Vec F S512x64 .f32) : Vec F S512x64 .f32 × Vec F S512x64 .f32 :=
  (idleOut1,
   sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs)
/-- After a point of the last column block, the accumulator found at `xs`. -/
def stepC1 (c : Dev nD) (t : Fin cfg1.N) (h0 : ¬t.val % 8 = 0) (h1 : t.val % 8 = 7) (xs : Vec F S512x64 .f32) : Vec F S512x64 .f32 × Vec F S512x64 .f32 :=
  (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs,
   sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs)

/-- The output buffers' and the accumulator's contents after the body at position `n`, by recursion on the position. -/
def outsAt1 (c : Dev nD) : (n : ℕ) → n < cfg1.N → Vec F S512x64 .f32 × Vec F S512x64 .f32
  | 0, hn => stepA1 V c ⟨0, hn⟩ (Nat.zero_mod _)
  | n + 1, hn =>
    if h0 : (n + 1) % 8 = 0 then stepA1 V c ⟨n + 1, hn⟩ h0
    else if h1 : (n + 1) % 8 = 7 then stepC1 V c ⟨n + 1, hn⟩ h0 h1 (outsAt1 c n (Nat.lt_of_succ_lt hn)).2
    else stepB1 V c ⟨n + 1, hn⟩ h0 h1 (outsAt1 c n (Nat.lt_of_succ_lt hn)).2

theorem outsAt1_A (c : Dev nD) (t : Fin cfg1.N) (h0 : t.val % 8 = 0) : outsAt1 V c t.val t.isLt = stepA1 V c t h0 := by
  obtain ⟨n, hn⟩ := t
  cases n with
  | zero => rfl
  | succ n => exact (dif_pos h0).trans rfl
theorem outsAt1_B (c : Dev nD) (t : Fin cfg1.N) (h0 : ¬t.val % 8 = 0) (h1 : ¬t.val % 8 = 7) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 8 = 0) (h1 : t.val % 8 = 7) :
    outsAt1 V c t.val t.isLt = stepC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points -/

/-- Before position `n`: at the start the resting invariant; afterwards the accumulator at what the point before left,
    the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ But1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ But1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ But1 c) ∗ (∃ r, prngReg c r)) := by
  cases n with
  | zero => exact absurd rfl hz
  | succ n => rfl

/-! ## The proof data -/

/-- The arrays as the pass finds them; after the body each input's buffer at its block and each output's at
    `outsAt1`'s component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's column block says which case it is;
    the invariant hands over the accumulator at what the point before left (at anything where the body resets it)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 8 = 0
  · have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t (fun h => h1 ((hcond1_1 t).mp h))) (noFlush1_2 t (fun h => h1 ((hcond1_1 t).mp h)))]
    rw [outsAt1_A V c t h0]
    unfold stepA1 sout1_A_0; (try dsimp only)
    by_cases hz : t.val = 0
    · rw [PhiS1_castSucc V c t, PhiS1_zero V c _ _ hz, PhiA1_eq]
      iintro ⟨⟨⟨HS0, HB⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_A_0 c _ _ _ _ _ _ _ _ _ _ _ _ _)
          iexact HB
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HB⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_A_0 c _ _ _ _ _ _ _ _ _ _ _ _ _)
          iexact HB
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold stepC1 out1_C_2 sout1_C_0; (try dsimp only)
      rw [PhiS1_castSucc V c t, PhiS1_pos V c _ _ hz]
      iintro ⟨⟨⟨HS0, HB⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_C_0 c _ _ _ _ _ _ _ _ _ _ _ _ _ _)
          iexact HB
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold stepB1 sout1_B_0; (try dsimp only)
      rw [PhiS1_castSucc V c t, PhiS1_pos V c _ _ hz]
      iintro ⟨⟨⟨HS0, HB⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_B_0 c _ _ _ _ _ _ _ _ _ _ _ _ _ _)
          iexact HB
        iexact Hg
      isplitl [Ho]; · iexact Ho
      isplitl [H0]; · iexact H0
      isplitl [H1]; · iexact H1
      iexists _; iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- The resting invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HB⟩, Hg⟩
  isplitl [HS0 HB]
  · isplitl [HS0]
    · iexists _; iexact HS0
    iexact HB
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.Kernel.Hand

end
-- ==== Proof.K.R2Shared.lean ====
import proofs.«123882_g45509473468512_cont_8to1_c_438_2_alg».proof.Proof.Gen.Kernel.Launch
import proofs.«123882_g45509473468512_cont_8to1_c_438_2_alg».proof.Proof.Gen.Kernel.Skeleton
import proofs.«123882_g45509473468512_cont_8to1_c_438_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The third pass, the mean of E₀, E₁, E₂ and A · E₂: what its runs share

The grid is 32 row blocks by 8 column blocks of the matrix. At column block `k` the body multiplies the
512 × 2048 block of the matrix by rows `2048 k …` of the table and adds the product to a 512 × 64 accumulator
it keeps between points: the accumulator is reset to zero when `k = 0` and read out into the output block when
`k = 7`. Three cases of the two conditions are met: first column block, a middle one, the last one.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The body resets its accumulator: the column block is the first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The body reads its accumulator out: the column block is the last. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are live -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last column block nothing is stored into the output block, and it is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last column block the output block is stored whole. -/
theorem liveAt2_4 : ∀ t : Fin cfg2.N, cond2_1 (grid2.coords t) → cfg2.idle 4 (grid2.coords t) = false := by decide +kernel

/-! ## The memrefs the body is called on -/

abbrev VO2_4 : View sig .tc .vmem S512x64 .f32 := (Memref.whole cc2_stg4_0 : Memref sig .tc .vmem S512x64 .f32).view
abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S16384x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x64 .f32 := win2_4.stage (cfg2.slots t 4)
abbrev hs2_4 (t : Fin cfg2.N) : (ms2_4 t).IsWhole := hstage2_4 ((cfg2.slots t 4).cast nbuf2_4)
/-- The accumulator: a whole buffer of the kernel's own. -/
abbrev scM2_0 : Memref sig .tc .vmem S512x64 .f32 := Memref.whole cc2_scratch0
abbrev VS2_0 : View sig .tc .vmem S512x64 .f32 := scM2_0.view

/-- Every scoped buffer but this pass's accumulator and the pipeline's staging buffers, each at anything: the other
    passes' buffers, which this pass never touches. -/
abbrev But2 (c : Dev nD) : sProp 𝕄 :=
  Pipeline.scopedRestBut (Ix := Unit) (Name := ℕ) (U := UR sig nD τ) (Lvl := ℕ) (Val := Elt F) spec2 c [cc2_scratch0]

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ But2 c) :=
  Pipeline.scopedRest_split_of_list spec2 c [cc2_scratch0] (by decide) (by decide)

/-- The region's resting invariant with the accumulator taken out of the scoped rest. -/
theorem PhiA2_eq (c : Dev nD) :
    (Pipeline.ΦA spec2 c : sProp 𝕄)
      = iprop(iprop((∃ d, owns (c : Thread nD τ) scM2_0 fullShare d) ∗ But2 c) ∗ (∃ r, prngReg c r)) := by
  unfold Pipeline.ΦA; rw [scopedRest2_split]; simp only [scM2_0, owns_whole]; try rfl

end Cert.Kernel.Hand

end
-- ==== Proof.K.R2RunA.lean ====
import proofs.«123882_g45509473468512_cont_8to1_c_438_2_alg».proof.Proof.K.R2Shared

/-!
# The third pass, the mean of E₀, E₁, E₂ and A · E₂ — at the first column block

The accumulator, whatever it held, is set to zero and then to zero plus the block product; the output block of the
last column block is not touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun2_A (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x2048 .bf16) (x1 : Vec F S16384x64 .f32) (x2 : Vec F S512x64 .f32) (x3 : Vec F S512x64 .f32) :
    { LS0 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pass3 i arg2 harg2 arg3 harg3 arg4 harg4 arg5 harg5 arg6 harg6 arg7 harg7) K } := by
  refine ⟨?_, fun xi4 E K => ?run⟩
  case run =>
    simp only [cc2__pass3_eq_skeleton]; unfold cc2__pass3_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf2; obtain rfl := harg3.eq_unread hf3; obtain rfl := harg4.eq_unread hf4; obtain rfl := harg5.eq_unread hf5; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.Kernel.Hand

end
-- ==== Proof.K.R2RunB.lean ====
import proofs.«123882_g45509473468512_cont_8to1_c_438_2_alg».proof.Proof.K.R2RunA

/-!
# The third pass, the mean of E₀, E₁, E₂ and A · E₂ — at a middle column block

The block product is added to the accumulator; the output block of the last column block is not touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun2_B (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x2048 .bf16) (x1 : Vec F S16384x64 .f32) (x2 : Vec F S512x64 .f32) (x3 : Vec F S512x64 .f32) (xs0 : Vec F S512x64 .f32) :
    { LS0 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pass3 i arg2 harg2 arg3 harg3 arg4 harg4 arg5 harg5 arg6 harg6 arg7 harg7) K } := by
  refine ⟨?_, fun xi4 E K => ?run⟩
  case run =>
    simp only [cc2__pass3_eq_skeleton]; unfold cc2__pass3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.Kernel.Hand

end
-- ==== Proof.K.R2RunC.lean ====
import proofs.«123882_g45509473468512_cont_8to1_c_438_2_alg».proof.Proof.K.R2RunB

/-!
# The third pass, the mean of E₀, E₁, E₂ and A · E₂ — at the last column block

The block product is added to the accumulator, and the output block, whatever it held, is stored whole.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun2_C (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) :
    Σ' (L4 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__pass3 i arg2 harg2 arg3 harg3 arg4 harg4 arg5 harg5 arg6 harg6 arg7 harg7) K } := by
  refine ⟨?_, ?_, fun E K => ?run⟩
  case run =>
    simp only [cc2__pass3_eq_skeleton]; unfold cc2__pass3_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf2; obtain rfl := harg3.eq_unread hf3; obtain rfl := harg4.eq_unread hf4; obtain rfl := harg5.eq_unread hf5; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.Kernel.Hand

end
-- ==== Proof.K.R2Frame.lean ====
import proofs.«123882_g45509473468512_cont_8to1_c_438_2_alg».proof.Proof.K.R2RunC

/-!
# The third pass, the mean of E₀, E₁, E₂ and A · E₂: what it leaves, point by point, and its body obligation

Point `t` of the grid is row block `t / 8`, column block `t % 8`. After the body at `t` the accumulator holds
the sum of the block products of column blocks `0 … t % 8` of row block `t / 8`; the output block is stored at the
last column block only, and written back there. At the last column block what is stored into the output block is the mean of four: the three table blocks of the row block plus the accumulator, times a quarter.
Between points the accumulator is the one piece of state: the invariant before point `t + 1` holds it at what
point `t` left.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

theorem scover2_A_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x2048 .bf16) (x1 : Vec F S16384x64 .f32) (x2 : Vec F S512x64 .f32) (x3 : Vec F S512x64 .f32) (y : S512x64.Idx) :
    ∃ pc ∈ (kernelRun2_A c i arg2 harg2 arg3 harg3 arg4 harg4 arg5 harg5 arg6 harg6 arg7 harg7 hc0 hc1 x0 x1 x2 x3).1, y ∈ pc.1.set :=
  View.cover_of_tiledL (kernelRun2_A c i arg2 harg2 arg3 harg3 arg4 harg4 arg5 harg5 arg6 harg6 arg7 harg7 hc0 hc1 x0 x1 x2 x3).1 S512x64.size (by sl_kernel_rfl) y
/-- What case A leaves in the accumulator: its pieces read back. -/
def sout2_A_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x2048 .bf16) (x1 : Vec F S16384x64 .f32) (x2 : Vec F S512x64 .f32) (x3 : Vec F S512x64 .f32) : Vec F S512x64 .f32 :=
  VS2_0.read (Elt F) (VS2_0.writes (Elt F) VS2_0.junk (kernelRun2_A c i arg2 harg2 arg3 harg3 arg4 harg4 arg5 harg5 arg6 harg6 arg7 harg7 hc0 hc1 x0 x1 x2 x3).1)

theorem scover2_B_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x2048 .bf16) (x1 : Vec F S16384x64 .f32) (x2 : Vec F S512x64 .f32) (x3 : Vec F S512x64 .f32) (xs0 : Vec F S512x64 .f32) (y : S512x64.Idx) :
    ∃ pc ∈ (kernelRun2_B c i arg2 harg2 arg3 harg3 arg4 harg4 arg5 harg5 arg6 harg6 arg7 harg7 hc0 hc1 x0 x1 x2 x3 xs0).1, y ∈ pc.1.set :=
  View.cover_of_tiledL (kernelRun2_B c i arg2 harg2 arg3 harg3 arg4 harg4 arg5 harg5 arg6 harg6 arg7 harg7 hc0 hc1 x0 x1 x2 x3 xs0).1 S512x64.size (by sl_kernel_rfl) y
/-- What case B leaves in the accumulator: its pieces read back. -/
def sout2_B_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x2048 .bf16) (x1 : Vec F S16384x64 .f32) (x2 : Vec F S512x64 .f32) (x3 : Vec F S512x64 .f32) (xs0 : Vec F S512x64 .f32) : Vec F S512x64 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).1)

theorem cover2_C_4 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) (y : S512x64.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S512x64.size (by sl_kernel_rfl) y
/-- What case C leaves in output window 4's buffer: its pieces read back. -/
def out2_C_4 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) : Vec F S512x64 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)
theorem scover2_C_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) (y : S512x64.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S512x64.size (by sl_kernel_rfl) y
/-- What case C leaves in the accumulator: its pieces read back. -/
def sout2_C_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) : Vec F S512x64 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-! ## Point by point -/

/-- What stands for the output block where nothing is stored into it and it is not written back. -/
def idleOut2 : Vec F S512x64 .f32 := VO2_4.read (Elt F) VO2_4.junk

/-- After a point of the first column block. -/
def stepA2 (c : Dev nD) (t : Fin cfg2.N) (h0 : t.val % 8 = 0) : Vec F S512x64 .f32 × Vec F S512x64 .f32 :=
  (idleOut2,
   sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => by have := (hcond2_1 t).mp h; omega) (iblk2 V c 0 t) (iblk2 V c 1 t) (iblk2 V c 2 t) (iblk2 V c 3 t))
/-- After a point of a middle column block, the accumulator found at `xs`. -/
def stepB2 (c : Dev nD) (t : Fin cfg2.N) (h0 : ¬t.val % 8 = 0) (h1 : ¬t.val % 8 = 7) (xs : Vec F S512x64 .f32) : Vec F S512x64 .f32 × Vec F S512x64 .f32 :=
  (idleOut2,
   sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) xs)
/-- After a point of the last column block, the accumulator found at `xs`. -/
def stepC2 (c : Dev nD) (t : Fin cfg2.N) (h0 : ¬t.val % 8 = 0) (h1 : t.val % 8 = 7) (xs : Vec F S512x64 .f32) : Vec F S512x64 .f32 × Vec F S512x64 .f32 :=
  (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) xs,
   sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) xs)

/-- The output buffers' and the accumulator's contents after the body at position `n`, by recursion on the position. -/
def outsAt2 (c : Dev nD) : (n : ℕ) → n < cfg2.N → Vec F S512x64 .f32 × Vec F S512x64 .f32
  | 0, hn => stepA2 V c ⟨0, hn⟩ (Nat.zero_mod _)
  | n + 1, hn =>
    if h0 : (n + 1) % 8 = 0 then stepA2 V c ⟨n + 1, hn⟩ h0
    else if h1 : (n + 1) % 8 = 7 then stepC2 V c ⟨n + 1, hn⟩ h0 h1 (outsAt2 c n (Nat.lt_of_succ_lt hn)).2
    else stepB2 V c ⟨n + 1, hn⟩ h0 h1 (outsAt2 c n (Nat.lt_of_succ_lt hn)).2

theorem outsAt2_A (c : Dev nD) (t : Fin cfg2.N) (h0 : t.val % 8 = 0) : outsAt2 V c t.val t.isLt = stepA2 V c t h0 := by
  obtain ⟨n, hn⟩ := t
  cases n with
  | zero => rfl
  | succ n => exact (dif_pos h0).trans rfl
theorem outsAt2_B (c : Dev nD) (t : Fin cfg2.N) (h0 : ¬t.val % 8 = 0) (h1 : ¬t.val % 8 = 7) :
    outsAt2 V c t.val t.isLt = stepB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt2_C (c : Dev nD) (t : Fin cfg2.N) (h0 : ¬t.val % 8 = 0) (h1 : t.val % 8 = 7) :
    outsAt2 V c t.val t.isLt = stepC2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points -/

/-- Before position `n`: at the start the resting invariant; afterwards the accumulator at what the point before left,
    the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ But2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ But2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ But2 c) ∗ (∃ r, prngReg c r)) := by
  cases n with
  | zero => exact absurd rfl hz
  | succ n => rfl

/-! ## The proof data -/

/-- The arrays as the pass finds them; after the body each input's buffer at its block and each output's at
    `outsAt2`'s component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the point's column block says which case it is;
    the invariant hands over the accumulator at what the point before left (at anything where the body resets it)
    and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  by_cases h0 : t.val % 8 = 0
  · have h1 : ¬t.val % 8 = 7 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [Dat.leavesExact_idle (dat2 V c) 4 t (idleAt2_4 t (fun h => h1 ((hcond2_1 t).mp h))) (noFlush2_4 t (fun h => h1 ((hcond2_1 t).mp h)))]
    rw [outsAt2_A V c t h0]
    unfold stepA2 sout2_A_0; (try dsimp only)
    by_cases hz : t.val = 0
    · rw [PhiS2_castSucc V c t, PhiS2_zero V c _ _ hz, PhiA2_eq]
      iintro ⟨⟨⟨HS0, HB⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, HB⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold stepC2 out2_C_4 sout2_C_0; (try dsimp only)
      rw [PhiS2_castSucc V c t, PhiS2_pos V c _ _ hz]
      iintro ⟨⟨⟨HS0, HB⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover2_C_0 c _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold stepB2 sout2_B_0; (try dsimp only)
      rw [PhiS2_castSucc V c t, PhiS2_pos V c _ _ hz]
      iintro ⟨⟨⟨HS0, HB⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover2_B_0 c _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation2 (c : Dev nD) : BodyObligation (dat2 (F := F) V c) (defs₀ (F := F)) Variants.none () Set.univ := fun t => by
  rw [bigSep_W2, bigSep_W2]
  exact sound_body2 V c t

/-- The resting invariant is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the resting one back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HB⟩, Hg⟩
  isplitl [HS0 HB]
  · isplitl [HS0]
    · iexists _; iexact HS0
    iexact HB
  iexact Hg

/-- The same after the last point. -/
theorem hout2 (c : Dev nD) : (dat2 V c).Φ (Fin.last cfg2.N) ⊢ Pipeline.ΦA spec2 c :=
  Phi_out2 V c _ (by rw [Fin.val_last]; have : cfg2.N = 256 := N_2; omega)

end Cert.Kernel.Hand

end
-- ==== Proof.K.Run.lean ====
import proofs.«123882_g45509473468512_cont_8to1_c_438_2_alg».proof.Proof.K.R0Frame
import proofs.«123882_g45509473468512_cont_8to1_c_438_2_alg».proof.Proof.K.R1Frame
import proofs.«123882_g45509473468512_cont_8to1_c_438_2_alg».proof.Proof.K.R2Frame
import proofs.«123882_g45509473468512_cont_8to1_c_438_2_alg».proof.Proof.Gen.Kernel.Regions
import Idealize.ShloMosaic.Lib.Pipeline.RegionsLoop

/-!
# The whole program as five segments

The stacking of the two tables on the host, the three passes, and the two cuts of the result on the host. Between
two segments every unscoped buffer of the core is held at a named valuation: `W0` at launch, `W1` after the
stacking, `W2`, `W3`, `W4` after the passes (each pass's arrays at what its pipeline leaves, every other buffer
as it was), `W5` after the cuts. The run ends with every unscoped buffer at `W5`; the arguments, the results and
every intermediate array are read off that.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers between segments -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At pass 1's exit: its arrays at what the pipeline leaves (an input as entered, an output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At pass 2's exit: its arrays at what the pipeline leaves (an input as entered, an output's write-backs
    folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At pass 3's exit: its arrays at what the pipeline leaves (an input as entered, an output's write-backs
    folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

abbrev W5 : Dev nD → Valuation τ sig (Elt F) := fun c => StableHlo.after hostOps3 (W4 m c)

/-! ## The proof data and the thread state -/

abbrev adm : (p : Fin 3) → (pcfgs (F := F) p).Adm := fun p => (cfgs p).toPCfg_adm
/-- Each pass's proof data at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m c) ∗ ∃ r, prngReg c r)

/-! ## The passes as segments -/

/-- The generator register and the scoped rest (whatever rides between them) make pass 1's resting invariant, -/
theorem toPhiA0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- and it gives them back. -/
theorem ofPhiA0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- The generator register and the scoped rest (whatever rides between them) make pass 2's resting invariant, -/
theorem toPhiA1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and it gives them back. -/
theorem ofPhiA1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-- The generator register and the scoped rest (whatever rides between them) make pass 3's resting invariant, -/
theorem toPhiA2 (c : Dev nD) (P : sProp 𝕄) :
    iprop((∃ r, prngReg c r) ∗ P ∗ Pipeline.scopedRest (Ix := Unit) (Name := ℕ) (U := UR sig nD τ) (Lvl := ℕ) (Val := Elt F) spec2 c)
      ⊢ (Pipeline.ΦA spec2 c : sProp 𝕄) := by
  unfold Pipeline.ΦA
  iintro ⟨Hp, -, Hr⟩
  isplitl [Hr]; · iexact Hr
  iexact Hp
/-- and it gives them back. -/
theorem ofPhiA2 (c : Dev nD) :
    (Pipeline.ΦA spec2 c : sProp 𝕄)
      ⊢ iprop((∃ r, prngReg c r) ∗ BI.emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

set_option backward.isDefEq.respectTransparency.types false in
/-- Pass 1 as a segment: entered from every unscoped buffer at `W1`, left at `W2`. Its arrays are split
    out of the unscoped buffers and put back at the pass's final contents; the generator register goes into the
    pass's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA0 c _).trans (hin0 (V1 m) c)
  hout c := by
    rw [Pipeline.ownSems0_none]
    exact (hout0 (V1 m) c).trans (ofPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment: entered from every unscoped buffer at `W2`, left at `W3`. Its arrays are split
    out of the unscoped buffers and put back at the pass's final contents; the generator register goes into the
    pass's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c _).trans (hin1 (V2 m) c)
  hout c := by
    rw [Pipeline.ownSems0_none]
    exact (hout1 (V2 m) c).trans (ofPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 as a segment: entered from every unscoped buffer at `W3`, left at `W4`. Its arrays are split
    out of the unscoped buffers and put back at the pass's final contents; the generator register goes into the
    pass's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA2 c _).trans (hin2 (V3 m) c)
  hout c := by
    rw [Pipeline.ownSems0_none]
    exact (hout2 (V3 m) c).trans (ofPhiA2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer of every core at `W5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      (show iprop(StableHlo.held (c : Thread nD τ) (Pipeline.ucRefs τ sig) (W5 m c) ∗ R c)
          ⊢ iprop(Tₙ m c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped reference of the core is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Ends.lean ====
import proofs.«123882_g45509473468512_cont_8to1_c_438_2_alg».proof.Proof.K.Run

/-!
# The arguments at the end

No host operation writes an argument and no pass's pipeline changes one: the matrix is an input window of the
first pass, which leaves it as entered; the two tables are windows of no pass. So the last valuation holds each
argument as launched, and the run's post is the frame.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The stacking writes only its result. -/
theorem W1_keep (c : Dev nD) (r : Ref sig .tc) (h : r ∉ hostOps0_W) : W1 m c r = W0 m c r :=
  StableHlo.after_of_writes_sub hostOps0 _ hostOps0_writes h
/-- The two cuts write only their results. -/
theorem W5_keep (c : Dev nD) (r : Ref sig .tc) (h : r ∉ hostOps3_W) : W5 m c r = W4 m c r :=
  StableHlo.after_of_writes_sub hostOps3 _ hostOps3_writes h

/-- The matrix: an input window of the first pass, a window of no other. -/
theorem W5_main_arg0 (c : Dev nD) : W5 m c main_arg0 = m ((c : Thread nD τ).loc main_arg0) :=
  (W5_keep m c main_arg0 (by decide)).trans <| (W4_of_ne m c main_arg0 (by decide)).trans <| (W3_of_ne m c main_arg0 (by decide)).trans <|
    ((W2_arr m c 0).trans (((dat0 (V1 m) c).arrAt_in 0 rfl _).trans (A_eq0 (V1 m) c 0))).trans <| (W1_keep m c main_arg0 (by decide)).trans rfl
/-- The users' table: a window of no pass. -/
theorem W5_main_arg1 (c : Dev nD) : W5 m c main_arg1 = m ((c : Thread nD τ).loc main_arg1) :=
  (W5_keep m c main_arg1 (by decide)).trans <| (W4_of_ne m c main_arg1 (by decide)).trans <| (W3_of_ne m c main_arg1 (by decide)).trans <|
    (W2_of_ne m c main_arg1 (by decide)).trans <| (W1_keep m c main_arg1 (by decide)).trans rfl
/-- The items' table: a window of no pass. -/
theorem W5_main_arg2 (c : Dev nD) : W5 m c main_arg2 = m ((c : Thread nD τ).loc main_arg2) :=
  (W5_keep m c main_arg2 (by decide)).trans <| (W4_of_ne m c main_arg2 (by decide)).trans <| (W3_of_ne m c main_arg2 (by decide)).trans <|
    (W2_of_ne m c main_arg2 (by decide)).trans <| (W1_keep m c main_arg2 (by decide)).trans rfl

/-- THE FRAME: the program runs to the end, nothing faulting, and its three arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.Kernel.Hand

end
-- ==== Proof.KI.R0Shared.lean ====
import proofs.«123882_g45509473468512_cont_8to1_c_438_2_alg».proof.Proof.Gen.KernelIdeal.Launch
import proofs.«123882_g45509473468512_cont_8to1_c_438_2_alg».proof.Proof.Gen.KernelIdeal.Skeleton
import proofs.«123882_g45509473468512_cont_8to1_c_438_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The first pass, E₁ = A · E₀, which also writes the matrix out in the narrow format: what its runs share

The grid is 32 row blocks by 8 column blocks of the matrix. At column block `k` the body multiplies the
512 × 2048 block of the matrix by rows `2048 k …` of the table and adds the product to a 512 × 64 accumulator
it keeps between points: the accumulator is reset to zero when `k = 0` and read out into the output block when
`k = 7`. Three cases of the two conditions are met: first column block, a middle one, the last one.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The body resets its accumulator: the column block is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The body reads its accumulator out: the column block is the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Before the last column block nothing is stored into the output block, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column block the output block is stored whole. -/
theorem liveAt0_2 : ∀ t : Fin cfg0.N, cond0_1 (grid0.coords t) → cfg0.idle 2 (grid0.coords t) = false := by decide +kernel

/-! ## The memrefs the body is called on -/

abbrev VO0_2 : View sig .tc .vmem S512x64 .f32 := (Memref.whole cc0_stg2_0 : Memref sig .tc .vmem S512x64 .f32).view
abbrev VO0_3 : View sig .tc .vmem S512x2048 .bf16 := (Memref.whole cc0_stg3_0 : Memref sig .tc .vmem S512x2048 .bf16).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
/-- The accumulator: a whole buffer of the kernel's own. -/
abbrev scM0_0 : Memref sig .tc .vmem S512x64 .f32 := Memref.whole cc0_scratch0
abbrev VS0_0 : View sig .tc .vmem S512x64 .f32 := scM0_0.view

/-- Every scoped buffer but this pass's accumulator and the pipeline's staging buffers, each at anything: the other
    passes' buffers, which this pass never touches. -/
abbrev But0 (c : Dev nD) : sProp 𝕄 :=
  Pipeline.scopedRestBut (Ix := Unit) (Name := ℕ) (U := UR sig nD τ) (Lvl := ℕ) (Val := Elt F) spec0 c [cc0_scratch0]

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ But0 c) :=
  Pipeline.scopedRest_split_of_list spec0 c [cc0_scratch0] (by decide) (by decide)

/-- The region's resting invariant with the accumulator taken out of the scoped rest. -/
theorem PhiA0_eq (c : Dev nD) :
    (Pipeline.ΦA spec0 c : sProp 𝕄)
      = iprop(iprop((∃ d, owns (c : Thread nD τ) scM0_0 fullShare d) ∗ But0 c) ∗ (∃ r, prngReg c r)) := by
  unfold Pipeline.ΦA; rw [scopedRest0_split]; simp only [scM0_0, owns_whole]; try rfl

end Cert.KernelIdeal.Hand

end
-- ==== Proof.KI.R0RunA.lean ====
import proofs.«123882_g45509473468512_cont_8to1_c_438_2_alg».proof.Proof.KI.R0Shared

/-!
# The first pass, E₁ = A · E₀, which also writes the matrix out in the narrow format — at the first column block

The accumulator, whatever it held, is set to zero and then to zero plus the block product; the output block of the
last column block is not touched.
The narrowed matrix block is stored into its own output block, whatever that held.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun0_A (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) :
    Σ' (L3 : List (View.Piece (Elt F) S512x2048 .bf16)), { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pass1 i arg2 harg2 arg3 harg3 arg4 harg4 arg5 harg5 arg6 harg6) K } := by
  refine ⟨?_, ?_, fun xi2 E K => ?run⟩
  case run =>
    simp only [cc0__pass1_eq_skeleton]; unfold cc0__pass1_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand

end
-- ==== Proof.KI.R0RunB.lean ====
import proofs.«123882_g45509473468512_cont_8to1_c_438_2_alg».proof.Proof.KI.R0RunA

/-!
# The first pass, E₁ = A · E₀, which also writes the matrix out in the narrow format — at a middle column block

The block product is added to the accumulator; the output block of the last column block is not touched.
The narrowed matrix block is stored into its own output block, whatever that held.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun0_B (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) :
    Σ' (L3 : List (View.Piece (Elt F) S512x2048 .bf16)), { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pass1 i arg2 harg2 arg3 harg3 arg4 harg4 arg5 harg5 arg6 harg6) K } := by
  refine ⟨?_, ?_, fun xi2 E K => ?run⟩
  case run =>
    simp only [cc0__pass1_eq_skeleton]; unfold cc0__pass1_skel
    unfold owns
    iintro ⟨⟨%f2, %hf2, H2⟩, ⟨%f3, %hf3, H3⟩, ⟨%f4, %hf4, H4⟩, ⟨%d5, %f5, -, H5⟩, ⟨%f6, %hf6, H6⟩, Hk⟩
    obtain rfl := harg2.eq_unread hf2; obtain rfl := harg3.eq_unread hf3; obtain rfl := harg4.eq_unread hf4; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand

end
-- ==== Proof.KI.R0RunC.lean ====
import proofs.«123882_g45509473468512_cont_8to1_c_438_2_alg».proof.Proof.KI.R0RunB

/-!
# The first pass, E₁ = A · E₀, which also writes the matrix out in the narrow format — at the last column block

The block product is added to the accumulator, and the output block, whatever it held, is stored whole.
The narrowed matrix block is stored into its own output block, whatever that held.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun0_C (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) :
    Σ' (L2 : List (View.Piece (Elt F) S512x64 .f32)), Σ' (L3 : List (View.Piece (Elt F) S512x2048 .bf16)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pass1 i arg2 harg2 arg3 harg3 arg4 harg4 arg5 harg5 arg6 harg6) K } := by
  refine ⟨?_, ?_, ?_, fun E K => ?run⟩
  case run =>
    simp only [cc0__pass1_eq_skeleton]; unfold cc0__pass1_skel
    unfold owns
    iintro ⟨⟨%f2, %hf2, H2⟩, ⟨%f3, %hf3, H3⟩, ⟨%d4, %f4, -, H4⟩, ⟨%d5, %f5, -, H5⟩, ⟨%f6, %hf6, H6⟩, Hk⟩
    obtain rfl := harg2.eq_unread hf2; obtain rfl := harg3.eq_unread hf3; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    iexists _; iexact H6

end Cert.KernelIdeal.Hand

end
-- ==== Proof.KI.R0Frame.lean ====
import proofs.«123882_g45509473468512_cont_8to1_c_438_2_alg».proof.Proof.KI.R0RunC

/-!
# The first pass, E₁ = A · E₀, which also writes the matrix out in the narrow format: what it leaves, point by point, and its body obligation

Point `t` of the grid is row block `t / 8`, column block `t % 8`. After the body at `t` the accumulator holds
the sum of the block products of column blocks `0 … t % 8` of row block `t / 8`; the output block is stored at the
last column block only, and written back there. This pass also stores the matrix block, narrowed to the short format, into a second output block at every point; that block is written back at every point.
Between points the accumulator is the one piece of state: the invariant before point `t + 1` holds it at what
point `t` left.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem cover0_A_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) (y : S512x2048.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S512x2048.size (by sl_kernel_rfl) y
/-- What case A leaves in output window 3's buffer: its pieces read back. -/
def out0_A_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) : Vec F S512x2048 .bf16 :=
  VO0_3.read (Elt F) (VO0_3.writes (Elt F) VO0_3.junk (kernelRun0_A c i arg2 harg2 arg3 harg3 arg4 harg4 arg5 harg5 arg6 harg6 hc0 hc1 x0 x1).1)
theorem scover0_A_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) (y : S512x64.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S512x64.size (by sl_kernel_rfl) y
/-- What case A leaves in the accumulator: its pieces read back. -/
def sout0_A_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) : Vec F S512x64 .f32 :=
  VS0_0.read (Elt F) (VS0_0.writes (Elt F) VS0_0.junk (kernelRun0_A c i arg2 harg2 arg3 harg3 arg4 harg4 arg5 harg5 arg6 harg6 hc0 hc1 x0 x1).2.1)

theorem cover0_B_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) (y : S512x2048.Idx) :
    ∃ pc ∈ (kernelRun0_B c i arg2 harg2 arg3 harg3 arg4 harg4 arg5 harg5 arg6 harg6 hc0 hc1 x0 x1 xs0).1, y ∈ pc.1.set :=
  View.cover_of_tiledL (kernelRun0_B c i arg2 harg2 arg3 harg3 arg4 harg4 arg5 harg5 arg6 harg6 hc0 hc1 x0 x1 xs0).1 S512x2048.size (by sl_kernel_rfl) y
/-- What case B leaves in output window 3's buffer: its pieces read back. -/
def out0_B_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) : Vec F S512x2048 .bf16 :=
  VO0_3.read (Elt F) (VO0_3.writes (Elt F) VO0_3.junk (kernelRun0_B c i arg2 harg2 arg3 harg3 arg4 harg4 arg5 harg5 arg6 harg6 hc0 hc1 x0 x1 xs0).1)
theorem scover0_B_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) (y : S512x64.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S512x64.size (by sl_kernel_rfl) y
/-- What case B leaves in the accumulator: its pieces read back. -/
def sout0_B_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) : Vec F S512x64 .f32 :=
  VS0_0.read (Elt F) (VS0_0.writes (Elt F) VS0_0.junk (kernelRun0_B c i arg2 harg2 arg3 harg3 arg4 harg4 arg5 harg5 arg6 harg6 hc0 hc1 x0 x1 xs0).2.1)

theorem cover0_C_2 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) (y : S512x64.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S512x64.size (by sl_kernel_rfl) y
/-- What case C leaves in output window 2's buffer: its pieces read back. -/
def out0_C_2 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) : Vec F S512x64 .f32 :=
  VO0_2.read (Elt F) (VO0_2.writes (Elt F) VO0_2.junk (kernelRun0_C c i arg2 harg2 arg3 harg3 arg4 harg4 arg5 harg5 arg6 harg6 hc0 hc1 x0 x1 xs0).1)
theorem cover0_C_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) (y : S512x2048.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S512x2048.size (by sl_kernel_rfl) y
/-- What case C leaves in output window 3's buffer: its pieces read back. -/
def out0_C_3 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) : Vec F S512x2048 .bf16 :=
  VO0_3.read (Elt F) (VO0_3.writes (Elt F) VO0_3.junk (kernelRun0_C c i arg2 harg2 arg3 harg3 arg4 harg4 arg5 harg5 arg6 harg6 hc0 hc1 x0 x1 xs0).2.1)
theorem scover0_C_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) (y : S512x64.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S512x64.size (by sl_kernel_rfl) y
/-- What case C leaves in the accumulator: its pieces read back. -/
def sout0_C_0 (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) : Vec F S512x64 .f32 :=
  VS0_0.read (Elt F) (VS0_0.writes (Elt F) VS0_0.junk (kernelRun0_C c i arg2 harg2 arg3 harg3 arg4 harg4 arg5 harg5 arg6 harg6 hc0 hc1 x0 x1 xs0).2.2.1)

/-! ## Point by point -/

/-- What stands for the output block where nothing is stored into it and it is not written back. -/
def idleOut0 : Vec F S512x64 .f32 := VO0_2.read (Elt F) VO0_2.junk

/-- After a point of the first column block. -/
def stepA0 (c : Dev nD) (t : Fin cfg0.N) (h0 : t.val % 8 = 0) : Vec F S512x64 .f32 × Vec F S512x2048 .bf16 × Vec F S512x64 .f32 :=
  (idleOut0,
   out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => by have := (hcond0_1 t).mp h; omega) (iblk0 V c 0 t) (iblk0 V c 1 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => by have := (hcond0_1 t).mp h; omega) (iblk0 V c 0 t) (iblk0 V c 1 t))
/-- After a point of a middle column block, the accumulator found at `xs`. -/
def stepB0 (c : Dev nD) (t : Fin cfg0.N) (h0 : ¬t.val % 8 = 0) (h1 : ¬t.val % 8 = 7) (xs : Vec F S512x64 .f32) : Vec F S512x64 .f32 × Vec F S512x2048 .bf16 × Vec F S512x64 .f32 :=
  (idleOut0,
   out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) xs,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) xs)
/-- After a point of the last column block, the accumulator found at `xs`. -/
def stepC0 (c : Dev nD) (t : Fin cfg0.N) (h0 : ¬t.val % 8 = 0) (h1 : t.val % 8 = 7) (xs : Vec F S512x64 .f32) : Vec F S512x64 .f32 × Vec F S512x2048 .bf16 × Vec F S512x64 .f32 :=
  (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs,
   out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs)

/-- The output buffers' and the accumulator's contents after the body at position `n`, by recursion on the position. -/
def outsAt0 (c : Dev nD) : (n : ℕ) → n < cfg0.N → Vec F S512x64 .f32 × Vec F S512x2048 .bf16 × Vec F S512x64 .f32
  | 0, hn => stepA0 V c ⟨0, hn⟩ (Nat.zero_mod _)
  | n + 1, hn =>
    if h0 : (n + 1) % 8 = 0 then stepA0 V c ⟨n + 1, hn⟩ h0
    else if h1 : (n + 1) % 8 = 7 then stepC0 V c ⟨n + 1, hn⟩ h0 h1 (outsAt0 c n (Nat.lt_of_succ_lt hn)).2.2
    else stepB0 V c ⟨n + 1, hn⟩ h0 h1 (outsAt0 c n (Nat.lt_of_succ_lt hn)).2.2

theorem outsAt0_A (c : Dev nD) (t : Fin cfg0.N) (h0 : t.val % 8 = 0) : outsAt0 V c t.val t.isLt = stepA0 V c t h0 := by
  obtain ⟨n, hn⟩ := t
  cases n with
  | zero => rfl
  | succ n => exact (dif_pos h0).trans rfl
theorem outsAt0_B (c : Dev nD) (t : Fin cfg0.N) (h0 : ¬t.val % 8 = 0) (h1 : ¬t.val % 8 = 7) :
    outsAt0 V c t.val t.isLt = stepB0 V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 8 = 0) (h1 : t.val % 8 = 7) :
    outsAt0 V c t.val t.isLt = stepC0 V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- Before position `n`: at the start the resting invariant; afterwards the accumulator at what the point before left,
    the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ But0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ But0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ But0 c) ∗ (∃ r, prngReg c r)) := by
  cases n with
  | zero => exact absurd rfl hz
  | succ n => rfl

/-! ## The proof data -/

/-- The arrays as the pass finds them; after the body each input's buffer at its block and each output's at
    `outsAt0`'s component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's column block says which case it is;
    the invariant hands over the accumulator at what the point before left (at anything where the body resets it)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  by_cases h0 : t.val % 8 = 0
  · have h1 : ¬t.val % 8 = 7 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 3 t = owns (c : Thread nD τ) (ms0_3 t) fullShare ((dat0 V c).after 3 t) from by
      unfold Dat.leavesExact; rw [liveAt0_3 t], after0_3]
    rw [Dat.leavesExact_idle (dat0 V c) 2 t (idleAt0_2 t (fun h => h1 ((hcond0_1 t).mp h))) (noFlush0_2 t (fun h => h1 ((hcond0_1 t).mp h)))]
    rw [outsAt0_A V c t h0]
    unfold stepA0 out0_A_3 sout0_A_0; (try dsimp only)
    by_cases hz : t.val = 0
    · rw [PhiS0_castSucc V c t, PhiS0_zero V c _ _ hz, PhiA0_eq]
      iintro ⟨⟨⟨HS0, HB⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_A_0 c _ _ _ _ _ _ _ _ _ _ _ _ _ _ _)
          iexact HB
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
    · rw [PhiS0_castSucc V c t, PhiS0_pos V c _ _ hz]
      iintro ⟨⟨⟨HS0, HB⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_A_0 c _ _ _ _ _ _ _ _ _ _ _ _ _ _ _)
          iexact HB
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
  · have hz : t.val ≠ 0 := fun h => h0 (by rw [h])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 3 t = owns (c : Thread nD τ) (ms0_3 t) fullShare ((dat0 V c).after 3 t) from by
        unfold Dat.leavesExact; rw [liveAt0_3 t], after0_3]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold stepC0 out0_C_2 out0_C_3 sout0_C_0; (try dsimp only)
      rw [PhiS0_castSucc V c t, PhiS0_pos V c _ _ hz]
      iintro ⟨⟨⟨HS0, HB⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_C_0 c _ _ _ _ _ _ _ _ _ _ _ _ _ _ _ _)
          iexact HB
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold stepB0 out0_B_3 sout0_B_0; (try dsimp only)
      rw [PhiS0_castSucc V c t, PhiS0_pos V c _ _ hz]
      iintro ⟨⟨⟨HS0, HB⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_B_0 c _ _ _ _ _ _ _ _ _ _ _ _ _ _ _ _)
          iexact HB
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_B_3 c _ _ _ _ _ _ _ _ _ _ _ _ _ _ _ _)

/-- The body obligation at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the resting one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HB⟩, Hg⟩
  isplitl [HS0 HB]
  · isplitl [HS0]
    · iexists _; iexact HS0
    iexact HB
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end Cert.KernelIdeal.Hand

end
-- ==== Proof.KI.R1Shared.lean ====
import proofs.«123882_g45509473468512_cont_8to1_c_438_2_alg».proof.Proof.Gen.KernelIdeal.Launch
import proofs.«123882_g45509473468512_cont_8to1_c_438_2_alg».proof.Proof.Gen.KernelIdeal.Skeleton
import proofs.«123882_g45509473468512_cont_8to1_c_438_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The second pass, E₂ = A · E₁: what its runs share

The grid is 32 row blocks by 8 column blocks of the matrix. At column block `k` the body multiplies the
512 × 2048 block of the matrix by rows `2048 k …` of the table and adds the product to a 512 × 64 accumulator
it keeps between points: the accumulator is reset to zero when `k = 0` and read out into the output block when
`k = 7`. Three cases of the two conditions are met: first column block, a middle one, the last one.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The body resets its accumulator: the column block is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The body reads its accumulator out: the column block is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
/-- Before the last column block nothing is stored into the output block, and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last column block the output block is stored whole. -/
theorem liveAt1_2 : ∀ t : Fin cfg1.N, cond1_1 (grid1.coords t) → cfg1.idle 2 (grid1.coords t) = false := by decide +kernel

/-! ## The memrefs the body is called on -/

abbrev VO1_2 : View sig .tc .vmem S512x64 .f32 := (Memref.whole cc1_stg2_0 : Memref sig .tc .vmem S512x64 .f32).view
abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
/-- The accumulator: a whole buffer of the kernel's own. -/
abbrev scM1_0 : Memref sig .tc .vmem S512x64 .f32 := Memref.whole cc1_scratch0
abbrev VS1_0 : View sig .tc .vmem S512x64 .f32 := scM1_0.view

/-- Every scoped buffer but this pass's accumulator and the pipeline's staging buffers, each at anything: the other
    passes' buffers, which this pass never touches. -/
abbrev But1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ But1 c) :=
  Pipeline.scopedRest_split_of_list spec1 c [cc1_scratch0] (by decide) (by decide)

/-- The region's resting invariant with the accumulator taken out of the scoped rest. -/
theorem PhiA1_eq (c : Dev nD) :
    (Pipeline.ΦA spec1 c : sProp 𝕄)
      = iprop(iprop((∃ d, owns (c : Thread nD τ) scM1_0 fullShare d) ∗ But1 c) ∗ (∃ r, prngReg c r)) := by
  unfold Pipeline.ΦA; rw [scopedRest1_split]; simp only [scM1_0, owns_whole]; try rfl

end Cert.KernelIdeal.Hand

end
-- ==== Proof.KI.R1RunA.lean ====
import proofs.«123882_g45509473468512_cont_8to1_c_438_2_alg».proof.Proof.KI.R1Shared

/-!
# The second pass, E₂ = A · E₁ — at the first column block

The accumulator, whatever it held, is set to zero and then to zero plus the block product; the output block of the
last column block is not touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun1_A (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : cond1_0 i) (hc1 : ¬cond1_1 i)
    (x0 : Vec F S512x2048 .bf16) (x1 : Vec F S16384x64 .f32) :
    { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pass2 i arg2 harg2 arg3 harg3 arg4 harg4 arg5 harg5) K } := by
  refine ⟨?_, fun xi2 E K => ?run⟩
  case run =>
    simp only [cc1__pass2_eq_skeleton]; unfold cc1__pass2_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.KernelIdeal.Hand

end
-- ==== Proof.KI.R1RunB.lean ====
import proofs.«123882_g45509473468512_cont_8to1_c_438_2_alg».proof.Proof.KI.R1RunA

/-!
# The second pass, E₂ = A · E₁ — at a middle column block

The block product is added to the accumulator; the output block of the last column block is not touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun1_B (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : ¬cond1_1 i)
    (x0 : Vec F S512x2048 .bf16) (x1 : Vec F S16384x64 .f32) (xs0 : Vec F S512x64 .f32) :
    { LS0 : List (View.Piece (Elt F) S512x64 .f32) //
      ∀ (xi2 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pass2 i arg2 harg2 arg3 harg3 arg4 harg4 arg5 harg5) K } := by
  refine ⟨?_, fun xi2 E K => ?run⟩
  case run =>
    simp only [cc1__pass2_eq_skeleton]; unfold cc1__pass2_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.KernelIdeal.Hand

end
-- ==== Proof.KI.R1RunC.lean ====
import proofs.«123882_g45509473468512_cont_8to1_c_438_2_alg».proof.Proof.KI.R1RunB

/-!
# The second pass, E₂ = A · E₁ — at the last column block

The block product is added to the accumulator, and the output block, whatever it held, is stored whole.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun1_C (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) :
    Σ' (L2 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pass2 i arg2 harg2 arg3 harg3 arg4 harg4 arg5 harg5) K } := by
  refine ⟨?_, ?_, fun E K => ?run⟩
  case run =>
    simp only [cc1__pass2_eq_skeleton]; unfold cc1__pass2_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

end Cert.KernelIdeal.Hand

end
-- ==== Proof.KI.R1Frame.lean ====
import proofs.«123882_g45509473468512_cont_8to1_c_438_2_alg».proof.Proof.KI.R1RunC

/-!
# The second pass, E₂ = A · E₁: what it leaves, point by point, and its body obligation

Point `t` of the grid is row block `t / 8`, column block `t % 8`. After the body at `t` the accumulator holds
the sum of the block products of column blocks `0 … t % 8` of row block `t / 8`; the output block is stored at the
last column block only, and written back there. At the last column block the accumulator itself is what is stored into the output block.
Between points the accumulator is the one piece of state: the invariant before point `t + 1` holds it at what
point `t` left.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : cond1_0 i) (hc1 : ¬cond1_1 i)
    (x0 : Vec F S512x2048 .bf16) (x1 : Vec F S16384x64 .f32) (y : S512x64.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S512x64.size (by sl_kernel_rfl) y
/-- What case A leaves in the accumulator: its pieces read back. -/
def sout1_A_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : cond1_0 i) (hc1 : ¬cond1_1 i)
    (x0 : Vec F S512x2048 .bf16) (x1 : Vec F S16384x64 .f32) : Vec F S512x64 .f32 :=
  VS1_0.read (Elt F) (VS1_0.writes (Elt F) VS1_0.junk (kernelRun1_A c i arg2 harg2 arg3 harg3 arg4 harg4 arg5 harg5 hc0 hc1 x0 x1).1)

theorem scover1_B_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : ¬cond1_1 i)
    (x0 : Vec F S512x2048 .bf16) (x1 : Vec F S16384x64 .f32) (xs0 : Vec F S512x64 .f32) (y : S512x64.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S512x64.size (by sl_kernel_rfl) y
/-- What case B leaves in the accumulator: its pieces read back. -/
def sout1_B_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : ¬cond1_1 i)
    (x0 : Vec F S512x2048 .bf16) (x1 : Vec F S16384x64 .f32) (xs0 : Vec F S512x64 .f32) : Vec F S512x64 .f32 :=
  VS1_0.read (Elt F) (VS1_0.writes (Elt F) VS1_0.junk (kernelRun1_B c i arg2 harg2 arg3 harg3 arg4 harg4 arg5 harg5 hc0 hc1 x0 x1 xs0).1)

theorem cover1_C_2 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) (y : S512x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S512x64.size (by sl_kernel_rfl) y
/-- What case C leaves in output window 2's buffer: its pieces read back. -/
def out1_C_2 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) : Vec F S512x64 .f32 :=
  VO1_2.read (Elt F) (VO1_2.writes (Elt F) VO1_2.junk (kernelRun1_C c i arg2 harg2 arg3 harg3 arg4 harg4 arg5 harg5 hc0 hc1 x0 x1 xs0).1)
theorem scover1_C_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) (y : S512x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S512x64.size (by sl_kernel_rfl) y
/-- What case C leaves in the accumulator: its pieces read back. -/
def sout1_C_0 (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) : Vec F S512x64 .f32 :=
  VS1_0.read (Elt F) (VS1_0.writes (Elt F) VS1_0.junk (kernelRun1_C c i arg2 harg2 arg3 harg3 arg4 harg4 arg5 harg5 hc0 hc1 x0 x1 xs0).2.1)

/-! ## Point by point -/

/-- What stands for the output block where nothing is stored into it and it is not written back. -/
def idleOut1 : Vec F S512x64 .f32 := VO1_2.read (Elt F) VO1_2.junk

/-- After a point of the first column block. -/
def stepA1 (c : Dev nD) (t : Fin cfg1.N) (h0 : t.val % 8 = 0) : Vec F S512x64 .f32 × Vec F S512x64 .f32 :=
  (idleOut1,
   sout1_A_0 c (grid1.coords t) (ms1_0 t) (hs1_0 t) (ms1_1 t) (hs1_1 t) (ms1_2 t) (hs1_2 t) scM1_0 (Memref.isWhole_whole _) ((hcond1_0 t).mpr h0) (fun h => by have := (hcond1_1 t).mp h; omega) (iblk1 V c 0 t) (iblk1 V c 1 t))
/-- After a point of a middle column block, the accumulator found at `xs`. -/
def stepB1 (c : Dev nD) (t : Fin cfg1.N) (h0 : ¬t.val % 8 = 0) (h1 : ¬t.val % 8 = 7) (xs : Vec F S512x64 .f32) : Vec F S512x64 .f32 × Vec F S512x64 .f32 :=
  (idleOut1,
   sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs)
/-- After a point of the last column block, the accumulator found at `xs`. -/
def stepC1 (c : Dev nD) (t : Fin cfg1.N) (h0 : ¬t.val % 8 = 0) (h1 : t.val % 8 = 7) (xs : Vec F S512x64 .f32) : Vec F S512x64 .f32 × Vec F S512x64 .f32 :=
  (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs,
   sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs)

/-- The output buffers' and the accumulator's contents after the body at position `n`, by recursion on the position. -/
def outsAt1 (c : Dev nD) : (n : ℕ) → n < cfg1.N → Vec F S512x64 .f32 × Vec F S512x64 .f32
  | 0, hn => stepA1 V c ⟨0, hn⟩ (Nat.zero_mod _)
  | n + 1, hn =>
    if h0 : (n + 1) % 8 = 0 then stepA1 V c ⟨n + 1, hn⟩ h0
    else if h1 : (n + 1) % 8 = 7 then stepC1 V c ⟨n + 1, hn⟩ h0 h1 (outsAt1 c n (Nat.lt_of_succ_lt hn)).2
    else stepB1 V c ⟨n + 1, hn⟩ h0 h1 (outsAt1 c n (Nat.lt_of_succ_lt hn)).2

theorem outsAt1_A (c : Dev nD) (t : Fin cfg1.N) (h0 : t.val % 8 = 0) : outsAt1 V c t.val t.isLt = stepA1 V c t h0 := by
  obtain ⟨n, hn⟩ := t
  cases n with
  | zero => rfl
  | succ n => exact (dif_pos h0).trans rfl
theorem outsAt1_B (c : Dev nD) (t : Fin cfg1.N) (h0 : ¬t.val % 8 = 0) (h1 : ¬t.val % 8 = 7) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 8 = 0) (h1 : t.val % 8 = 7) :
    outsAt1 V c t.val t.isLt = stepC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points -/

/-- Before position `n`: at the start the resting invariant; afterwards the accumulator at what the point before left,
    the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ But1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ But1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ But1 c) ∗ (∃ r, prngReg c r)) := by
  cases n with
  | zero => exact absurd rfl hz
  | succ n => rfl

/-! ## The proof data -/

/-- The arrays as the pass finds them; after the body each input's buffer at its block and each output's at
    `outsAt1`'s component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's column block says which case it is;
    the invariant hands over the accumulator at what the point before left (at anything where the body resets it)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 8 = 0
  · have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t (fun h => h1 ((hcond1_1 t).mp h))) (noFlush1_2 t (fun h => h1 ((hcond1_1 t).mp h)))]
    rw [outsAt1_A V c t h0]
    unfold stepA1 sout1_A_0; (try dsimp only)
    by_cases hz : t.val = 0
    · rw [PhiS1_castSucc V c t, PhiS1_zero V c _ _ hz, PhiA1_eq]
      iintro ⟨⟨⟨HS0, HB⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_A_0 c _ _ _ _ _ _ _ _ _ _ _ _ _)
          iexact HB
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HB⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_A_0 c _ _ _ _ _ _ _ _ _ _ _ _ _)
          iexact HB
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold stepC1 out1_C_2 sout1_C_0; (try dsimp only)
      rw [PhiS1_castSucc V c t, PhiS1_pos V c _ _ hz]
      iintro ⟨⟨⟨HS0, HB⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_C_0 c _ _ _ _ _ _ _ _ _ _ _ _ _ _)
          iexact HB
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold stepB1 sout1_B_0; (try dsimp only)
      rw [PhiS1_castSucc V c t, PhiS1_pos V c _ _ hz]
      iintro ⟨⟨⟨HS0, HB⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_B_0 c _ _ _ _ _ _ _ _ _ _ _ _ _ _)
          iexact HB
        iexact Hg
      isplitl [Ho]; · iexact Ho
      isplitl [H0]; · iexact H0
      isplitl [H1]; · iexact H1
      iexists _; iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- The resting invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HB⟩, Hg⟩
  isplitl [HS0 HB]
  · isplitl [HS0]
    · iexists _; iexact HS0
    iexact HB
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Hand

end
-- ==== Proof.KI.R2Shared.lean ====
import proofs.«123882_g45509473468512_cont_8to1_c_438_2_alg».proof.Proof.Gen.KernelIdeal.Launch
import proofs.«123882_g45509473468512_cont_8to1_c_438_2_alg».proof.Proof.Gen.KernelIdeal.Skeleton
import proofs.«123882_g45509473468512_cont_8to1_c_438_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The third pass, the mean of E₀, E₁, E₂ and A · E₂: what its runs share

The grid is 32 row blocks by 8 column blocks of the matrix. At column block `k` the body multiplies the
512 × 2048 block of the matrix by rows `2048 k …` of the table and adds the product to a 512 × 64 accumulator
it keeps between points: the accumulator is reset to zero when `k = 0` and read out into the output block when
`k = 7`. Three cases of the two conditions are met: first column block, a middle one, the last one.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The body resets its accumulator: the column block is the first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The body reads its accumulator out: the column block is the last. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are live -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last column block nothing is stored into the output block, and it is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last column block the output block is stored whole. -/
theorem liveAt2_4 : ∀ t : Fin cfg2.N, cond2_1 (grid2.coords t) → cfg2.idle 4 (grid2.coords t) = false := by decide +kernel

/-! ## The memrefs the body is called on -/

abbrev VO2_4 : View sig .tc .vmem S512x64 .f32 := (Memref.whole cc2_stg4_0 : Memref sig .tc .vmem S512x64 .f32).view
abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S16384x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x64 .f32 := win2_4.stage (cfg2.slots t 4)
abbrev hs2_4 (t : Fin cfg2.N) : (ms2_4 t).IsWhole := hstage2_4 ((cfg2.slots t 4).cast nbuf2_4)
/-- The accumulator: a whole buffer of the kernel's own. -/
abbrev scM2_0 : Memref sig .tc .vmem S512x64 .f32 := Memref.whole cc2_scratch0
abbrev VS2_0 : View sig .tc .vmem S512x64 .f32 := scM2_0.view

/-- Every scoped buffer but this pass's accumulator and the pipeline's staging buffers, each at anything: the other
    passes' buffers, which this pass never touches. -/
abbrev But2 (c : Dev nD) : sProp 𝕄 :=
  Pipeline.scopedRestBut (Ix := Unit) (Name := ℕ) (U := UR sig nD τ) (Lvl := ℕ) (Val := Elt F) spec2 c [cc2_scratch0]

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ But2 c) :=
  Pipeline.scopedRest_split_of_list spec2 c [cc2_scratch0] (by decide) (by decide)

/-- The region's resting invariant with the accumulator taken out of the scoped rest. -/
theorem PhiA2_eq (c : Dev nD) :
    (Pipeline.ΦA spec2 c : sProp 𝕄)
      = iprop(iprop((∃ d, owns (c : Thread nD τ) scM2_0 fullShare d) ∗ But2 c) ∗ (∃ r, prngReg c r)) := by
  unfold Pipeline.ΦA; rw [scopedRest2_split]; simp only [scM2_0, owns_whole]; try rfl

end Cert.KernelIdeal.Hand

end
-- ==== Proof.KI.R2RunA.lean ====
import proofs.«123882_g45509473468512_cont_8to1_c_438_2_alg».proof.Proof.KI.R2Shared

/-!
# The third pass, the mean of E₀, E₁, E₂ and A · E₂ — at the first column block

The accumulator, whatever it held, is set to zero and then to zero plus the block product; the output block of the
last column block is not touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun2_A (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x2048 .bf16) (x1 : Vec F S16384x64 .f32) (x2 : Vec F S512x64 .f32) (x3 : Vec F S512x64 .f32) :
    { LS0 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pass3 i arg2 harg2 arg3 harg3 arg4 harg4 arg5 harg5 arg6 harg6 arg7 harg7) K } := by
  refine ⟨?_, fun xi4 E K => ?run⟩
  case run =>
    simp only [cc2__pass3_eq_skeleton]; unfold cc2__pass3_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf2; obtain rfl := harg3.eq_unread hf3; obtain rfl := harg4.eq_unread hf4; obtain rfl := harg5.eq_unread hf5; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.KernelIdeal.Hand

end
-- ==== Proof.KI.R2RunB.lean ====
import proofs.«123882_g45509473468512_cont_8to1_c_438_2_alg».proof.Proof.KI.R2RunA

/-!
# The third pass, the mean of E₀, E₁, E₂ and A · E₂ — at a middle column block

The block product is added to the accumulator; the output block of the last column block is not touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun2_B (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x2048 .bf16) (x1 : Vec F S16384x64 .f32) (x2 : Vec F S512x64 .f32) (x3 : Vec F S512x64 .f32) (xs0 : Vec F S512x64 .f32) :
    { LS0 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pass3 i arg2 harg2 arg3 harg3 arg4 harg4 arg5 harg5 arg6 harg6 arg7 harg7) K } := by
  refine ⟨?_, fun xi4 E K => ?run⟩
  case run =>
    simp only [cc2__pass3_eq_skeleton]; unfold cc2__pass3_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.KernelIdeal.Hand

end
-- ==== Proof.KI.R2RunC.lean ====
import proofs.«123882_g45509473468512_cont_8to1_c_438_2_alg».proof.Proof.KI.R2RunB

/-!
# The third pass, the mean of E₀, E₁, E₂ and A · E₂ — at the last column block

The block product is added to the accumulator, and the output block, whatever it held, is stored whole.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation, every buffer it stores
    into holding the listed pieces written. -/
noncomputable def kernelRun2_C (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) :
    Σ' (L4 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__pass3 i arg2 harg2 arg3 harg3 arg4 harg4 arg5 harg5 arg6 harg6 arg7 harg7) K } := by
  refine ⟨?_, ?_, fun E K => ?run⟩
  case run =>
    simp only [cc2__pass3_eq_skeleton]; unfold cc2__pass3_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf2; obtain rfl := harg3.eq_unread hf3; obtain rfl := harg4.eq_unread hf4; obtain rfl := harg5.eq_unread hf5; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.KernelIdeal.Hand

end
-- ==== Proof.KI.R2Frame.lean ====
import proofs.«123882_g45509473468512_cont_8to1_c_438_2_alg».proof.Proof.KI.R2RunC

/-!
# The third pass, the mean of E₀, E₁, E₂ and A · E₂: what it leaves, point by point, and its body obligation

Point `t` of the grid is row block `t / 8`, column block `t % 8`. After the body at `t` the accumulator holds
the sum of the block products of column blocks `0 … t % 8` of row block `t / 8`; the output block is stored at the
last column block only, and written back there. At the last column block what is stored into the output block is the mean of four: the three table blocks of the row block plus the accumulator, times a quarter.
Between points the accumulator is the one piece of state: the invariant before point `t + 1` holds it at what
point `t` left.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

theorem scover2_A_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x2048 .bf16) (x1 : Vec F S16384x64 .f32) (x2 : Vec F S512x64 .f32) (x3 : Vec F S512x64 .f32) (y : S512x64.Idx) :
    ∃ pc ∈ (kernelRun2_A c i arg2 harg2 arg3 harg3 arg4 harg4 arg5 harg5 arg6 harg6 arg7 harg7 hc0 hc1 x0 x1 x2 x3).1, y ∈ pc.1.set :=
  View.cover_of_tiledL (kernelRun2_A c i arg2 harg2 arg3 harg3 arg4 harg4 arg5 harg5 arg6 harg6 arg7 harg7 hc0 hc1 x0 x1 x2 x3).1 S512x64.size (by sl_kernel_rfl) y
/-- What case A leaves in the accumulator: its pieces read back. -/
def sout2_A_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x2048 .bf16) (x1 : Vec F S16384x64 .f32) (x2 : Vec F S512x64 .f32) (x3 : Vec F S512x64 .f32) : Vec F S512x64 .f32 :=
  VS2_0.read (Elt F) (VS2_0.writes (Elt F) VS2_0.junk (kernelRun2_A c i arg2 harg2 arg3 harg3 arg4 harg4 arg5 harg5 arg6 harg6 arg7 harg7 hc0 hc1 x0 x1 x2 x3).1)

theorem scover2_B_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x2048 .bf16) (x1 : Vec F S16384x64 .f32) (x2 : Vec F S512x64 .f32) (x3 : Vec F S512x64 .f32) (xs0 : Vec F S512x64 .f32) (y : S512x64.Idx) :
    ∃ pc ∈ (kernelRun2_B c i arg2 harg2 arg3 harg3 arg4 harg4 arg5 harg5 arg6 harg6 arg7 harg7 hc0 hc1 x0 x1 x2 x3 xs0).1, y ∈ pc.1.set :=
  View.cover_of_tiledL (kernelRun2_B c i arg2 harg2 arg3 harg3 arg4 harg4 arg5 harg5 arg6 harg6 arg7 harg7 hc0 hc1 x0 x1 x2 x3 xs0).1 S512x64.size (by sl_kernel_rfl) y
/-- What case B leaves in the accumulator: its pieces read back. -/
def sout2_B_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x2048 .bf16) (x1 : Vec F S16384x64 .f32) (x2 : Vec F S512x64 .f32) (x3 : Vec F S512x64 .f32) (xs0 : Vec F S512x64 .f32) : Vec F S512x64 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).1)

theorem cover2_C_4 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) (y : S512x64.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S512x64.size (by sl_kernel_rfl) y
/-- What case C leaves in output window 4's buffer: its pieces read back. -/
def out2_C_4 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) : Vec F S512x64 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)
theorem scover2_C_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) (y : S512x64.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S512x64.size (by sl_kernel_rfl) y
/-- What case C leaves in the accumulator: its pieces read back. -/
def sout2_C_0 (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) : Vec F S512x64 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-! ## Point by point -/

/-- What stands for the output block where nothing is stored into it and it is not written back. -/
def idleOut2 : Vec F S512x64 .f32 := VO2_4.read (Elt F) VO2_4.junk

/-- After a point of the first column block. -/
def stepA2 (c : Dev nD) (t : Fin cfg2.N) (h0 : t.val % 8 = 0) : Vec F S512x64 .f32 × Vec F S512x64 .f32 :=
  (idleOut2,
   sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => by have := (hcond2_1 t).mp h; omega) (iblk2 V c 0 t) (iblk2 V c 1 t) (iblk2 V c 2 t) (iblk2 V c 3 t))
/-- After a point of a middle column block, the accumulator found at `xs`. -/
def stepB2 (c : Dev nD) (t : Fin cfg2.N) (h0 : ¬t.val % 8 = 0) (h1 : ¬t.val % 8 = 7) (xs : Vec F S512x64 .f32) : Vec F S512x64 .f32 × Vec F S512x64 .f32 :=
  (idleOut2,
   sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) xs)
/-- After a point of the last column block, the accumulator found at `xs`. -/
def stepC2 (c : Dev nD) (t : Fin cfg2.N) (h0 : ¬t.val % 8 = 0) (h1 : t.val % 8 = 7) (xs : Vec F S512x64 .f32) : Vec F S512x64 .f32 × Vec F S512x64 .f32 :=
  (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) xs,
   sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) xs)

/-- The output buffers' and the accumulator's contents after the body at position `n`, by recursion on the position. -/
def outsAt2 (c : Dev nD) : (n : ℕ) → n < cfg2.N → Vec F S512x64 .f32 × Vec F S512x64 .f32
  | 0, hn => stepA2 V c ⟨0, hn⟩ (Nat.zero_mod _)
  | n + 1, hn =>
    if h0 : (n + 1) % 8 = 0 then stepA2 V c ⟨n + 1, hn⟩ h0
    else if h1 : (n + 1) % 8 = 7 then stepC2 V c ⟨n + 1, hn⟩ h0 h1 (outsAt2 c n (Nat.lt_of_succ_lt hn)).2
    else stepB2 V c ⟨n + 1, hn⟩ h0 h1 (outsAt2 c n (Nat.lt_of_succ_lt hn)).2

theorem outsAt2_A (c : Dev nD) (t : Fin cfg2.N) (h0 : t.val % 8 = 0) : outsAt2 V c t.val t.isLt = stepA2 V c t h0 := by
  obtain ⟨n, hn⟩ := t
  cases n with
  | zero => rfl
  | succ n => exact (dif_pos h0).trans rfl
theorem outsAt2_B (c : Dev nD) (t : Fin cfg2.N) (h0 : ¬t.val % 8 = 0) (h1 : ¬t.val % 8 = 7) :
    outsAt2 V c t.val t.isLt = stepB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt2_C (c : Dev nD) (t : Fin cfg2.N) (h0 : ¬t.val % 8 = 0) (h1 : t.val % 8 = 7) :
    outsAt2 V c t.val t.isLt = stepC2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points -/

/-- Before position `n`: at the start the resting invariant; afterwards the accumulator at what the point before left,
    the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ But2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ But2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ But2 c) ∗ (∃ r, prngReg c r)) := by
  cases n with
  | zero => exact absurd rfl hz
  | succ n => rfl

/-! ## The proof data -/

/-- The arrays as the pass finds them; after the body each input's buffer at its block and each output's at
    `outsAt2`'s component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the point's column block says which case it is;
    the invariant hands over the accumulator at what the point before left (at anything where the body resets it)
    and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  by_cases h0 : t.val % 8 = 0
  · have h1 : ¬t.val % 8 = 7 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [Dat.leavesExact_idle (dat2 V c) 4 t (idleAt2_4 t (fun h => h1 ((hcond2_1 t).mp h))) (noFlush2_4 t (fun h => h1 ((hcond2_1 t).mp h)))]
    rw [outsAt2_A V c t h0]
    unfold stepA2 sout2_A_0; (try dsimp only)
    by_cases hz : t.val = 0
    · rw [PhiS2_castSucc V c t, PhiS2_zero V c _ _ hz, PhiA2_eq]
      iintro ⟨⟨⟨HS0, HB⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, HB⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold stepC2 out2_C_4 sout2_C_0; (try dsimp only)
      rw [PhiS2_castSucc V c t, PhiS2_pos V c _ _ hz]
      iintro ⟨⟨⟨HS0, HB⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover2_C_0 c _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold stepB2 sout2_B_0; (try dsimp only)
      rw [PhiS2_castSucc V c t, PhiS2_pos V c _ _ hz]
      iintro ⟨⟨⟨HS0, HB⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover2_B_0 c _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation2 (c : Dev nD) : BodyObligation (dat2 (F := F) V c) (defs₀ (F := F)) Variants.none () Set.univ := fun t => by
  rw [bigSep_W2, bigSep_W2]
  exact sound_body2 V c t

/-- The resting invariant is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the resting one back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HB⟩, Hg⟩
  isplitl [HS0 HB]
  · isplitl [HS0]
    · iexists _; iexact HS0
    iexact HB
  iexact Hg

/-- The same after the last point. -/
theorem hout2 (c : Dev nD) : (dat2 V c).Φ (Fin.last cfg2.N) ⊢ Pipeline.ΦA spec2 c :=
  Phi_out2 V c _ (by rw [Fin.val_last]; have : cfg2.N = 256 := N_2; omega)

end Cert.KernelIdeal.Hand

end
-- ==== Proof.KI.Run.lean ====
import proofs.«123882_g45509473468512_cont_8to1_c_438_2_alg».proof.Proof.KI.R0Frame
import proofs.«123882_g45509473468512_cont_8to1_c_438_2_alg».proof.Proof.KI.R1Frame
import proofs.«123882_g45509473468512_cont_8to1_c_438_2_alg».proof.Proof.KI.R2Frame
import proofs.«123882_g45509473468512_cont_8to1_c_438_2_alg».proof.Proof.Gen.KernelIdeal.Regions
import Idealize.ShloMosaic.Lib.Pipeline.RegionsLoop

/-!
# The whole program as five segments

The stacking of the two tables on the host, the three passes, and the two cuts of the result on the host. Between
two segments every unscoped buffer of the core is held at a named valuation: `W0` at launch, `W1` after the
stacking, `W2`, `W3`, `W4` after the passes (each pass's arrays at what its pipeline leaves, every other buffer
as it was), `W5` after the cuts. The run ends with every unscoped buffer at `W5`; the arguments, the results and
every intermediate array are read off that.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers between segments -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At pass 1's exit: its arrays at what the pipeline leaves (an input as entered, an output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At pass 2's exit: its arrays at what the pipeline leaves (an input as entered, an output's write-backs
    folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At pass 3's exit: its arrays at what the pipeline leaves (an input as entered, an output's write-backs
    folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

abbrev W5 : Dev nD → Valuation τ sig (Elt F) := fun c => StableHlo.after hostOps3 (W4 m c)

/-! ## The proof data and the thread state -/

abbrev adm : (p : Fin 3) → (pcfgs (F := F) p).Adm := fun p => (cfgs p).toPCfg_adm
/-- Each pass's proof data at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m c) ∗ ∃ r, prngReg c r)

/-! ## The passes as segments -/

/-- The generator register and the scoped rest (whatever rides between them) make pass 1's resting invariant, -/
theorem toPhiA0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- and it gives them back. -/
theorem ofPhiA0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- The generator register and the scoped rest (whatever rides between them) make pass 2's resting invariant, -/
theorem toPhiA1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and it gives them back. -/
theorem ofPhiA1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-- The generator register and the scoped rest (whatever rides between them) make pass 3's resting invariant, -/
theorem toPhiA2 (c : Dev nD) (P : sProp 𝕄) :
    iprop((∃ r, prngReg c r) ∗ P ∗ Pipeline.scopedRest (Ix := Unit) (Name := ℕ) (U := UR sig nD τ) (Lvl := ℕ) (Val := Elt F) spec2 c)
      ⊢ (Pipeline.ΦA spec2 c : sProp 𝕄) := by
  unfold Pipeline.ΦA
  iintro ⟨Hp, -, Hr⟩
  isplitl [Hr]; · iexact Hr
  iexact Hp
/-- and it gives them back. -/
theorem ofPhiA2 (c : Dev nD) :
    (Pipeline.ΦA spec2 c : sProp 𝕄)
      ⊢ iprop((∃ r, prngReg c r) ∗ BI.emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

set_option backward.isDefEq.respectTransparency.types false in
/-- Pass 1 as a segment: entered from every unscoped buffer at `W1`, left at `W2`. Its arrays are split
    out of the unscoped buffers and put back at the pass's final contents; the generator register goes into the
    pass's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA0 c _).trans (hin0 (V1 m) c)
  hout c := by
    rw [Pipeline.ownSems0_none]
    exact (hout0 (V1 m) c).trans (ofPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment: entered from every unscoped buffer at `W2`, left at `W3`. Its arrays are split
    out of the unscoped buffers and put back at the pass's final contents; the generator register goes into the
    pass's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c _).trans (hin1 (V2 m) c)
  hout c := by
    rw [Pipeline.ownSems0_none]
    exact (hout1 (V2 m) c).trans (ofPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 as a segment: entered from every unscoped buffer at `W3`, left at `W4`. Its arrays are split
    out of the unscoped buffers and put back at the pass's final contents; the generator register goes into the
    pass's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA2 c _).trans (hin2 (V3 m) c)
  hout c := by
    rw [Pipeline.ownSems0_none]
    exact (hout2 (V3 m) c).trans (ofPhiA2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer of every core at `W5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      (show iprop(StableHlo.held (c : Thread nD τ) (Pipeline.ucRefs τ sig) (W5 m c) ∗ R c)
          ⊢ iprop(Tₙ m c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped reference of the core is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Ends.lean ====
import proofs.«123882_g45509473468512_cont_8to1_c_438_2_alg».proof.Proof.KI.Run

/-!
# The arguments at the end

No host operation writes an argument and no pass's pipeline changes one: the matrix is an input window of the
first pass, which leaves it as entered; the two tables are windows of no pass. So the last valuation holds each
argument as launched, and the run's post is the frame.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The stacking writes only its result. -/
theorem W1_keep (c : Dev nD) (r : Ref sig .tc) (h : r ∉ hostOps0_W) : W1 m c r = W0 m c r :=
  StableHlo.after_of_writes_sub hostOps0 _ hostOps0_writes h
/-- The two cuts write only their results. -/
theorem W5_keep (c : Dev nD) (r : Ref sig .tc) (h : r ∉ hostOps3_W) : W5 m c r = W4 m c r :=
  StableHlo.after_of_writes_sub hostOps3 _ hostOps3_writes h

/-- The matrix: an input window of the first pass, a window of no other. -/
theorem W5_main_arg0 (c : Dev nD) : W5 m c main_arg0 = m ((c : Thread nD τ).loc main_arg0) :=
  (W5_keep m c main_arg0 (by decide)).trans <| (W4_of_ne m c main_arg0 (by decide)).trans <| (W3_of_ne m c main_arg0 (by decide)).trans <|
    ((W2_arr m c 0).trans (((dat0 (V1 m) c).arrAt_in 0 rfl _).trans (A_eq0 (V1 m) c 0))).trans <| (W1_keep m c main_arg0 (by decide)).trans rfl
/-- The users' table: a window of no pass. -/
theorem W5_main_arg1 (c : Dev nD) : W5 m c main_arg1 = m ((c : Thread nD τ).loc main_arg1) :=
  (W5_keep m c main_arg1 (by decide)).trans <| (W4_of_ne m c main_arg1 (by decide)).trans <| (W3_of_ne m c main_arg1 (by decide)).trans <|
    (W2_of_ne m c main_arg1 (by decide)).trans <| (W1_keep m c main_arg1 (by decide)).trans rfl
/-- The items' table: a window of no pass. -/
theorem W5_main_arg2 (c : Dev nD) : W5 m c main_arg2 = m ((c : Thread nD τ).loc main_arg2) :=
  (W5_keep m c main_arg2 (by decide)).trans <| (W4_of_ne m c main_arg2 (by decide)).trans <| (W3_of_ne m c main_arg2 (by decide)).trans <|
    (W2_of_ne m c main_arg2 (by decide)).trans <| (W1_keep m c main_arg2 (by decide)).trans rfl

/-- THE FRAME: the program runs to the end, nothing faulting, and its three arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.KernelIdeal.Hand

end
-- ==== Proof.Spec.lean ====
import Idealize.ShloMosaic.PureOps.Ideal
import Idealize.ShloMosaic.Lib.ValueIdx

/-!
# Three rounds of graph propagation and the mean of the four stages

For a square matrix `a` (16384 × 16384) and two embedding tables, users (4096 × 64) over items (12288 × 64):
the tables are stacked into one table `e₀` of 16384 rows; each round multiplies by the matrix,
`e₁ = a · e₀`, `e₂ = a · e₁`, `e₃ = a · e₂`; the result is the entrywise mean `(e₀ + e₁ + e₂ + e₃) · ¼`, cut back into
the users' rows and the items' rows. Everything is over the extended reals, entry by entry.
-/

noncomputable section

namespace Cert.Proof.Spec

open Idealize.ShloMosaic Idealize.ShloMosaic.ValueIdx

/-- A matrix of extended reals with `r` rows and `c` columns, indexed as the programs index their arrays. -/
abbrev Mat (r c : Nat) : Type := (⟨2, ![r, c]⟩ : Shape).Idx → EReal

/-- The users' rows on top of the items' rows. -/
def stack (u : Mat 4096 64) (v : Mat 12288 64) : Mat 16384 64 := fun i =>
  if h : (i 0).val < 4096 then u (ix2 ⟨(i 0).val, h⟩ (i 1))
  else v (ix2 ⟨(i 0).val - 4096, by have := idx2_lt0 i; omega⟩ (i 1))

/-- One round: the matrix product `a · e`, entry `(r, c)` the sum over `k` of `a (r, k) · e (k, c)`. -/
def step (a : Mat 16384 16384) (e : Mat 16384 64) : Mat 16384 64 := fun i =>
  ∑ k : Fin 16384, a (ix2 (i 0) k) * e (ix2 k (i 1))

/-- The stacked table and the three rounds. -/
def e0 (u : Mat 4096 64) (v : Mat 12288 64) : Mat 16384 64 := stack u v
def e1 (a : Mat 16384 16384) (u : Mat 4096 64) (v : Mat 12288 64) : Mat 16384 64 := step a (e0 u v)
def e2 (a : Mat 16384 16384) (u : Mat 4096 64) (v : Mat 12288 64) : Mat 16384 64 := step a (e1 a u v)
def e3 (a : Mat 16384 16384) (u : Mat 4096 64) (v : Mat 12288 64) : Mat 16384 64 := step a (e2 a u v)

/-- The mean of the four stages. -/
def mean (a : Mat 16384 16384) (u : Mat 4096 64) (v : Mat 12288 64) : Mat 16384 64 := fun i =>
  (e0 u v i + e1 a u v i + e2 a u v i + e3 a u v i) * ((1 / 4 : ℝ) : EReal)

/-- The users' rows of the mean. -/
def outU (a : Mat 16384 16384) (u : Mat 4096 64) (v : Mat 12288 64) : Mat 4096 64 := fun i =>
  mean a u v (ix2 ⟨(i 0).val, by have := idx2_lt0 i; omega⟩ (i 1))

/-- The items' rows of the mean. -/
def outI (a : Mat 16384 16384) (u : Mat 4096 64) (v : Mat 12288 64) : Mat 12288 64 := fun i =>
  mean a u v (ix2 ⟨(i 0).val + 4096, by have := idx2_lt0 i; omega⟩ (i 1))

end Cert.Proof.Spec

end
-- ==== Proof.KI.HostEnds.lean ====
import proofs.«123882_g45509473468512_cont_8to1_c_438_2_alg».proof.Proof.Gen.KernelIdeal.Launch
import proofs.«123882_g45509473468512_cont_8to1_c_438_2_alg».proof.Proof.Spec
import Idealize.ShloMosaic.Lib.Pipeline.Value
import Idealize.ShloMosaic.Lib.StableHlo.Run
import Idealize.ShloMosaic.Lib.ValueIdx

/-!
# The host operations around the three passes, read at an index

Before the passes the two tables are stacked: a row below 4096 of the stacked table is the users' row, a row from
4096 on is the items' row 4096 earlier. After the passes the result is cut: the first output is its rows
`0 … 4095`, the second its rows `4096 … 16383`.
-/

noncomputable section

namespace Cert.KernelIdeal.HandValue

open Cert.KernelIdeal Cert.KernelIdeal.Gen Cert.Proof
open Idealize.ShloMosaic Idealize.ShloMosaic.TcCoe Idealize.SL.Sem Idealize.ShloMosaic.StableHlo
open Idealize.ShloMosaic.ValueIdx

variable (W : Valuation τ sig (Elt Ideal))

/-- The stacking's result is the stacked table of the two arguments. -/
theorem stack_after :
    (StableHlo.after (hostOps0 (F := Ideal)) W (Proc.devRef .tc main_v0) : S16384x64.Idx → EReal)
      = Spec.stack (W (Proc.devRef .tc main_arg1)) (W (Proc.devRef .tc main_arg2)) := by
  have e : (StableHlo.after (hostOps0 (F := Ideal)) W (Proc.devRef .tc main_v0) : S16384x64.Idx → EReal)
      = concatenate S16384x64 0 [⟨S4096x64, W (Proc.devRef .tc main_arg1)⟩, ⟨S12288x64, W (Proc.devRef .tc main_arg2)⟩]
          concatenates_S4096x64_S12288x64_S16384x64_d0 := by
    after_results
  rw [e]
  funext i
  unfold Spec.stack
  by_cases h : (i 0).val < 4096
  · rw [dif_pos h]
    exact concatenate_pair_apply_left (t := S16384x64) (s₁ := S4096x64) (s₂ := S12288x64) 0 _ _ _ i rfl
      (ix2 ⟨(i 0).val, h⟩ (i 1)) (fun b => by match b with | ⟨0, _⟩ => rfl | ⟨1, _⟩ => rfl)
  · rw [dif_neg h]
    exact concatenate_pair_apply_right (t := S16384x64) (s₁ := S4096x64) (s₂ := S12288x64) 0 _ _ _ i rfl rfl
      (ix2 ⟨(i 0).val - 4096, by have := idx2_lt0 i; omega⟩ (i 1))
      (fun b hb => by match b with | ⟨0, _⟩ => exact absurd rfl hb | ⟨1, _⟩ => rfl)
      (by show (i 0).val - 4096 + 4096 = (i 0).val; omega)

/-- The first cut: rows `0 … 4095` of the passes' result. -/
theorem cutU_after (i : S4096x64.Idx) :
    (StableHlo.after (hostOps3 (F := Ideal)) W (Proc.devRef .tc main_v4) : S4096x64.Idx → EReal) i
      = (W (Proc.devRef .tc main_v3) : S16384x64.Idx → EReal) (ix2 ⟨(i 0).val, by have := idx2_lt0 i; omega⟩ (i 1)) := by
  have e : (StableHlo.after (hostOps3 (F := Ideal)) W (Proc.devRef .tc main_v4) : S4096x64.Idx → EReal)
      = extractStridedSlice S4096x64 ![0, 0] (W (Proc.devRef .tc main_v3)) slices_S16384x64_S4096x64_0_0 := by
    after_results
  rw [e]
  exact extractStridedSlice_apply (s := S16384x64) (t := S4096x64) ![0, 0] (W (Proc.devRef .tc main_v3) : S16384x64.Idx → EReal)
    slices_S16384x64_S4096x64_0_0 i (ix2 ⟨(i 0).val, by have := idx2_lt0 i; omega⟩ (i 1)) (fun a => match a with
    | ⟨0, _⟩ => by show (i 0).val = 0 + (i 0).val; omega
    | ⟨1, _⟩ => by show (i 1).val = 0 + (i 1).val; omega)

/-- The second cut: rows `4096 … 16383` of the passes' result. -/
theorem cutI_after (i : S12288x64.Idx) :
    (StableHlo.after (hostOps3 (F := Ideal)) W (Proc.devRef .tc main_v5) : S12288x64.Idx → EReal) i
      = (W (Proc.devRef .tc main_v3) : S16384x64.Idx → EReal) (ix2 ⟨(i 0).val + 4096, by have := idx2_lt0 i; omega⟩ (i 1)) := by
  have e : (StableHlo.after (hostOps3 (F := Ideal)) W (Proc.devRef .tc main_v5) : S12288x64.Idx → EReal)
      = extractStridedSlice S12288x64 ![4096, 0] (W (Proc.devRef .tc main_v3)) slices_S16384x64_S12288x64_4096_0 := by
    after_results
  rw [e]
  exact extractStridedSlice_apply (s := S16384x64) (t := S12288x64) ![4096, 0] (W (Proc.devRef .tc main_v3) : S16384x64.Idx → EReal)
    slices_S16384x64_S12288x64_4096_0 i (ix2 ⟨(i 0).val + 4096, by have := idx2_lt0 i; omega⟩ (i 1)) (fun a => match a with
    | ⟨0, _⟩ => by show (i 0).val + 4096 = 4096 + (i 0).val; omega
    | ⟨1, _⟩ => by show (i 1).val = 0 + (i 1).val; omega)

end Cert.KernelIdeal.HandValue

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.LibBlockRuns.lean ====
/-
  Accumulating a blocked sum. A sum over n = K · B indices, cut into K consecutive blocks of B indices, can be
  accumulated block by block: `block K B h f j` is the sum of block j (zero past the last block), and the blocks
  `0, …, K − 1` accumulated in order reach the whole sum — in any commutative additive monoid, for any K and B.
  (A running total that adds one block's sum per step holds, after step j, the sum of blocks `0 … j`, and after the
  last step the whole sum.)
-/
import proofs.«123882_g45509473468512_cont_8to1_c_438_2_alg».proof.Proof.LibBlockSumGen
import Mathlib.Algebra.BigOperators.Fin
import Mathlib.Algebra.BigOperators.Intervals

open scoped BigOperators

namespace Cert.LibBlockRuns

open Cert.LibBlockSumGen

/-- Block `j` of a sum over `n = K · B` indices: the sum of the `B` terms at the indices `B·j, …, B·j + B − 1`, and zero
    when `j` is past the last block. -/
def block {M : Type*} [AddCommMonoid M] {n : ℕ} (K B : ℕ) (h : n = K * B) (f : Fin n → M) (j : ℕ) : M :=
  if hj : j < K then ∑ l : Fin B, f ⟨B * j + l.val, h ▸ block_index_lt (⟨j, hj⟩ : Fin K) l⟩ else 0

/-- A block inside the range is its `B` terms. -/
theorem block_of_lt {M : Type*} [AddCommMonoid M] {n : ℕ} (K B : ℕ) (h : n = K * B) (f : Fin n → M) (j : ℕ) (hj : j < K) :
    block K B h f j = ∑ l : Fin B, f ⟨B * j + l.val, h ▸ block_index_lt (⟨j, hj⟩ : Fin K) l⟩ :=
  dif_pos hj

/-- The blocks `0, …, j` accumulated are the blocks `0, …, j − 1` accumulated, plus block `j`. -/
theorem sum_range_succ_block {M : Type*} [AddCommMonoid M] {n : ℕ} (K B : ℕ) (h : n = K * B) (f : Fin n → M) (j : ℕ) :
    ∑ i ∈ Finset.range (j + 1), block K B h f i = ∑ i ∈ Finset.range j, block K B h f i + block K B h f j :=
  Finset.sum_range_succ _ _

/-- All `K` blocks accumulated are the whole sum. -/
theorem sum_range_block {M : Type*} [AddCommMonoid M] {n K B : ℕ} (h : n = K * B) (f : Fin n → M) :
    ∑ j ∈ Finset.range K, block K B h f j = ∑ p : Fin n, f p := by
  rw [sum_blocks h f, Finset.sum_range]
  exact Finset.sum_congr rfl fun k _ => dif_pos k.isLt

end Cert.LibBlockRuns
-- ==== Proof.Algebra.lean ====
import proofs.«123882_g45509473468512_cont_8to1_c_438_2_alg».proof.Proof.Spec
import proofs.«123882_g45509473468512_cont_8to1_c_438_2_alg».proof.Proof.LibBlockRuns
import Idealize.ShloMosaic.PureOps.Ideal.Laws

/-!
# The arithmetic both programs share

* the two float constants the programs spell, as the extended reals they denote: the word of `0.25` is the real
  `1/4`, the word of `4.0` the real `4`; dividing by `4` is multiplying by `1/4` on every extended real;
* a contraction over 16384 indices accumulated in eight consecutive blocks of 2048 — a running total that starts at
  zero plus the first block's sum and adds one block's sum per step — ends at the whole sum (addition of extended
  reals is commutative and associative, so no finiteness is needed);
* the mean of four stages, written as either program groups it.
-/

noncomputable section

namespace Cert.Proof.Algebra

open Idealize.ShloMosaic
open scoped BigOperators
open Cert.LibBlockSumGen Cert.LibBlockRuns

/-! ## The constants -/

/-- The word `0x3E800000` (the float `0.25`) denotes the real `1/4`. -/
theorem quarter : Ideal.ofBits .f32 0x3E800000#32 = ((1 / 4 : ℝ) : EReal) := by
  simp [Ideal.ofBits, Ideal.ieee, -EReal.coe_mul]; norm_num

/-- The word `0x40800000` (the float `4.0`) denotes the real `4`. -/
theorem four : Ideal.ofBits .f32 0x40800000#32 = ((4 : ℝ) : EReal) := by
  simp [Ideal.ofBits, Ideal.ieee, -EReal.coe_mul]; norm_num

/-- The zero word denotes `0`. -/
theorem zero_word : Ideal.ofBits .f32 0x00000000#32 = 0 := Ideal.ofBits_zero_f32

/-- Dividing by the float `4.0` is multiplying by `1/4`, on every extended real. -/
theorem div_four (x : EReal) : Ideal.div x (Ideal.ofBits .f32 0x40800000#32) = x * ((1 / 4 : ℝ) : EReal) := by
  rw [four]; exact Ideal.div_coe (by norm_num : (4 : ℝ) ≠ 0) x

/-- Dividing by the float `4.0` is multiplying by the float `0.25`. -/
theorem div_four_eq_mul_quarter (x : EReal) :
    Ideal.div x (Ideal.ofBits .f32 0x40800000#32) = x * Ideal.ofBits .f32 0x3E800000#32 := by
  rw [div_four, quarter]

/-! ## A blocked contraction accumulated block by block -/

/-- A running total over the `K` blocks of a sum over `n = K · B` indices: if it starts at block `0`'s sum and each
    step adds the next block's sum, then after step `j` it holds the blocks `0 … j` accumulated. -/
theorem running_total {M : Type*} [AddCommMonoid M] {n K B : ℕ} (h : n = K * B) (f : Fin n → M) (S : ℕ → M)
    (h0 : S 0 = block K B h f 0)
    (hs : ∀ j, j + 1 < K → S (j + 1) = S j + block K B h f (j + 1)) :
    ∀ j, j < K → S j = ∑ i ∈ Finset.range (j + 1), block K B h f i := by
  intro j
  induction j with
  | zero => intro _; rw [h0, Finset.sum_range_one]
  | succ j ih =>
    intro hj
    rw [hs j hj, ih (by omega)]
    exact (sum_range_succ_block K B h f (j + 1)).symm

/-- After the last step the running total is the whole sum. -/
theorem running_total_last {M : Type*} [AddCommMonoid M] {n K B : ℕ} (h : n = K * B) (f : Fin n → M) (S : ℕ → M)
    (h0 : S 0 = block K B h f 0)
    (hs : ∀ j, j + 1 < K → S (j + 1) = S j + block K B h f (j + 1)) (j : ℕ) (hj : j + 1 = K) :
    S j = ∑ p : Fin n, f p := by
  rw [running_total h f S h0 hs j (by omega), hj, sum_range_block h f]

/-- Index `q` of block `j` (of eight blocks of 2048) is below 16384. -/
theorem idx_lt (j : ℕ) (hj : j < 8) (q : Fin 2048) : 2048 * j + q.val < 16384 := by
  have := q.isLt; omega

/-- The contraction over 16384 indices accumulated in eight blocks of 2048, the running total starting at `0` plus
    the first block's sum: after the eighth block it is the whole sum. -/
theorem acc_blocks (f : Fin 16384 → EReal) (S : ℕ → EReal)
    (h0 : S 0 = 0 + ∑ q : Fin 2048, f ⟨q.val, by have := q.isLt; omega⟩)
    (hs : ∀ j, (hj : j + 1 < 8) → S (j + 1) = S j + ∑ q : Fin 2048, f ⟨2048 * (j + 1) + q.val, idx_lt (j + 1) hj q⟩) :
    S 7 = ∑ k : Fin 16384, f k := by
  refine running_total_last (K := 8) (B := 2048) rfl f S ?_ ?_ 7 rfl
  · rw [h0, zero_add, block_of_lt 8 2048 rfl f 0 (by norm_num)]
    exact Finset.sum_congr rfl fun q _ => congrArg f (Fin.ext (by simp))
  · intro j hj
    rw [hs j hj, block_of_lt 8 2048 rfl f (j + 1) hj]

/-- The same, the running total starting at the zero WORD plus the first block's sum. -/
theorem acc_blocks_word (f : Fin 16384 → EReal) (S : ℕ → EReal)
    (h0 : S 0 = Ideal.ofBits .f32 0x00000000#32 + ∑ q : Fin 2048, f ⟨q.val, by have := q.isLt; omega⟩)
    (hs : ∀ j, (hj : j + 1 < 8) → S (j + 1) = S j + ∑ q : Fin 2048, f ⟨2048 * (j + 1) + q.val, idx_lt (j + 1) hj q⟩) :
    S 7 = ∑ k : Fin 16384, f k :=
  acc_blocks f S (by rw [h0, zero_word]) hs

/-- The eight block sums added up in order from zero are the whole sum (no running total named). -/
theorem eight_blocks (f : Fin 16384 → EReal) :
    ∑ j : Fin 8, ∑ q : Fin 2048, f ⟨2048 * j.val + q.val, idx_lt j.val j.isLt q⟩ = ∑ k : Fin 16384, f k :=
  (sum_blocks (K := 8) (B := 2048) rfl f).symm

/-! ## The mean of the four stages -/

/-- Four terms summed from zero in order, as the reference's reduction does, are their plain sum. -/
theorem sum_four (g : Fin 4 → EReal) : 0 + ∑ k : Fin 4, g k = g 0 + g 1 + g 2 + g 3 := by
  rw [zero_add, Fin.sum_univ_four]

/-- The kernel's grouping of the mean, `((a + b) + c + d)` times the float `0.25`, is the specification's. -/
theorem mean_kernel (a b c d : EReal) :
    ((a + b) + c + d) * Ideal.ofBits .f32 0x3E800000#32 = (a + b + c + d) * ((1 / 4 : ℝ) : EReal) := by
  rw [quarter]

/-- The reference's mean, the four stages summed from the zero word and divided by the float `4.0`, is the
    specification's. -/
theorem mean_reference (a b c d : EReal) :
    Ideal.div (Ideal.ofBits .f32 0x00000000#32 + (a + b + c + d)) (Ideal.ofBits .f32 0x40800000#32)
      = (a + b + c + d) * ((1 / 4 : ℝ) : EReal) := by
  rw [zero_word, zero_add, div_four]

/-- The specification's mean at an index, unfolded to its four stages. -/
theorem mean_apply (a : Spec.Mat 16384 16384) (u : Spec.Mat 4096 64) (v : Spec.Mat 12288 64)
    (i : (⟨2, ![16384, 64]⟩ : Shape).Idx) :
    Spec.mean a u v i = (Spec.e0 u v i + Spec.e1 a u v i + Spec.e2 a u v i + Spec.e3 a u v i) * ((1 / 4 : ℝ) : EReal) := rfl

end Cert.Proof.Algebra

end
-- ==== Proof.KI.Payloads.lean ====
import proofs.«123882_g45509473468512_cont_8to1_c_438_2_alg».proof.Proof.Gen.KernelIdeal.Skeleton
import proofs.«123882_g45509473468512_cont_8to1_c_438_2_alg».proof.Proof.Spec
import proofs.«123882_g45509473468512_cont_8to1_c_438_2_alg».proof.Proof.Algebra
import Idealize.ShloMosaic.Lib.ValueIdx
import Idealize.ShloMosaic.PureOps.Ideal.Laws
import Idealize.ShloMosaic.Lib.Pipeline.Value
import Idealize.ShloMosaic.Lib.ValueLayout

/-!
# What the three passes store, entry by entry

Each pass works on a block of 512 rows of the result and a block of 2048 indices of the contraction. Over the extended
reals, where changing a float's format is the identity and a reshape to the same shape reads the same entry:

* the value stored when a row block is first met is zero everywhere;
* the value stored after each block of the contraction is the running total as loaded, plus, at entry `(p, q)`, the sum
  over the block's 2048 indices `k` of `a (p, k) · e (k, q)` — the product into a zero accumulator is exactly that sum;
* the first pass also stores its block of the matrix in the narrower format: entry for entry the block itself;
* the last pass stores `((e₀ + e₁) + e₂ + e₃) · ¼` entrywise, `¼` spelt as the float `0.25`.
-/

noncomputable section

namespace Cert.KernelIdeal.HandValue

open Cert.KernelIdeal Cert.KernelIdeal.Gen
open Idealize.ShloMosaic Idealize.ShloMosaic.ValueIdx
open scoped BigOperators

/-! ## The product of a 512 × 2048 block with a 2048 × 64 block -/

theorem lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

theorem lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q

theorem rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q

theorem rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The product into a zero accumulator, at entry `(p, q)`: the sum over the 2048 contracted indices `k` of the left
    block at `(p, k)` times the right block at `(k, q)`. -/
theorem matmul_zero_apply {φ₁ φ₂ : FTy} (l : FVec Ideal S512x2048 φ₁) (r : FVec Ideal S2048x64 φ₂) (p : Fin 512) (q : Fin 64) :
    matmul (F := Ideal) dot_S512x2048_S2048x64_S512x64_1_0_0_1_n_n none l r (constant (F := Ideal) S512x64 .f32 0x00000000#32) (ix2 p q)
      = ∑ k : Fin 2048, l (ix2 p k) * r (ix2 k q) := by
  refine (Ideal.matmul_constant_zero_apply dot_S512x2048_S2048x64_S512x64_1_0_0_1_n_n none l r (ix2 p q)).trans ?_
  rw [← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p q)
      ((ValueIdx.contrEquiv1 dot_S512x2048_S2048x64_S512x64_1_0_0_1_n_n 2048 rfl rfl).symm k) = ix2 p k :=
    funext fun a => Fin.ext (by
      match a with
      | ⟨0, _⟩ => exact lhs_0 _ _
      | ⟨1, _⟩ => exact (lhs_1 _ _).trans hk)
  have er : dot_S512x2048_S2048x64_S512x64_1_0_0_1_n_n.rhsIdx (ix2 p q)
      ((ValueIdx.contrEquiv1 dot_S512x2048_S2048x64_S512x64_1_0_0_1_n_n 2048 rfl rfl).symm k) = ix2 k q :=
    funext fun a => Fin.ext (by
      match a with
      | ⟨0, _⟩ => exact (rhs_0 _ _).trans hk
      | ⟨1, _⟩ => exact rhs_1 _ _)
  rw [el, er]

/-! ## The reset: zero everywhere -/

/-- The first pass's reset value is the zero word at every entry. -/
theorem reset0_apply (p : Fin 512) (q : Fin 64) : k0_pay2 (F := Ideal) (ix2 p q) = Ideal.ofBits .f32 0x00000000#32 :=
  congrFun (shapeCast_self (broadcast S512x64 (Ideal.ofBits .f32 0x00000000#32)) shapeCasts_S512x64_S512x64) (ix2 p q)

/-- The second pass's reset value is the zero word at every entry. -/
theorem reset1_apply (p : Fin 512) (q : Fin 64) : k1_pay1 (F := Ideal) (ix2 p q) = Ideal.ofBits .f32 0x00000000#32 :=
  congrFun (shapeCast_self (broadcast S512x64 (Ideal.ofBits .f32 0x00000000#32)) shapeCasts_S512x64_S512x64) (ix2 p q)

/-- The third pass's reset value is the zero word at every entry. -/
theorem reset2_apply (p : Fin 512) (q : Fin 64) : k2_pay1 (F := Ideal) (ix2 p q) = Ideal.ofBits .f32 0x00000000#32 :=
  congrFun (shapeCast_self (broadcast S512x64 (Ideal.ofBits .f32 0x00000000#32)) shapeCasts_S512x64_S512x64) (ix2 p q)

/-- The reset values are zero. -/
theorem reset0_zero (p : Fin 512) (q : Fin 64) : k0_pay2 (F := Ideal) (ix2 p q) = (0 : EReal) :=
  (reset0_apply p q).trans Cert.Proof.Algebra.zero_word
theorem reset1_zero (p : Fin 512) (q : Fin 64) : k1_pay1 (F := Ideal) (ix2 p q) = (0 : EReal) :=
  (reset1_apply p q).trans Cert.Proof.Algebra.zero_word
theorem reset2_zero (p : Fin 512) (q : Fin 64) : k2_pay1 (F := Ideal) (ix2 p q) = (0 : EReal) :=
  (reset2_apply p q).trans Cert.Proof.Algebra.zero_word

/-! ## The first pass's copy of its matrix block -/

/-- The block of the matrix stored in the narrower format is, entry for entry, the block. -/
theorem narrowed_apply (v0 : FVec Ideal S512x2048 .f32) (p : Fin 512) (k : Fin 2048) :
    k0_pay1 (F := Ideal) v0 (ix2 p k) = v0 (ix2 p k) := rfl

/-- As a whole block. -/
theorem narrowed_eq (v0 : FVec Ideal S512x2048 .f32) : k0_pay1 (F := Ideal) v0 = v0 := rfl

/-! ## One block of the contraction added to the running total -/

/-- First pass: the running total as loaded plus the block's partial product, the matrix block read in full precision. -/
theorem accumulate0_apply (v0 : FVec Ideal S512x2048 .f32) (v5 : FVec Ideal S2048x64 .f32) (v12 : FVec Ideal S512x64 .f32)
    (p : Fin 512) (q : Fin 64) :
    k0_pay3 (F := Ideal) v0 v5 v12 (ix2 p q) = v12 (ix2 p q) + ∑ k : Fin 2048, v0 (ix2 p k) * v5 (ix2 k q) := by
  show shapeCast S512x64 (addf v12 (matmul (F := Ideal) dot_S512x2048_S2048x64_S512x64_1_0_0_1_n_n none
      (truncf .bf16 v0 bitsLt_bf16_f32) (truncf .bf16 (shapeCast S2048x64 v5 shapeCasts_S2048x64_S2048x64) bitsLt_bf16_f32)
      (constant (F := Ideal) S512x64 .f32 0x00000000#32))) shapeCasts_S512x64_S512x64 (ix2 p q) = _
  rw [shapeCast_self, shapeCast_self]
  refine congrArg (v12 (ix2 p q) + ·) ((matmul_zero_apply _ _ p q).trans ?_)
  rfl

/-- Second pass: the running total as loaded plus the block's partial product, the matrix block in the narrower format. -/
theorem accumulate1_apply (v2 : FVec Ideal S2048x64 .f32) (v5 : FVec Ideal S512x2048 .bf16) (v11 : FVec Ideal S512x64 .f32)
    (p : Fin 512) (q : Fin 64) :
    k1_pay2 (F := Ideal) v2 v5 v11 (ix2 p q) = v11 (ix2 p q) + ∑ k : Fin 2048, v5 (ix2 p k) * v2 (ix2 k q) := by
  show shapeCast S512x64 (addf v11 (matmul (F := Ideal) dot_S512x2048_S2048x64_S512x64_1_0_0_1_n_n none
      (shapeCast S512x2048 v5 shapeCasts_S512x2048_S512x2048) (truncf .bf16 (shapeCast S2048x64 v2 shapeCasts_S2048x64_S2048x64) bitsLt_bf16_f32)
      (constant (F := Ideal) S512x64 .f32 0x00000000#32))) shapeCasts_S512x64_S512x64 (ix2 p q) = _
  rw [shapeCast_self, shapeCast_self, shapeCast_self]
  refine congrArg (v11 (ix2 p q) + ·) ((matmul_zero_apply _ _ p q).trans ?_)
  rfl

/-- Third pass: the same. -/
theorem accumulate2_apply (v2 : FVec Ideal S2048x64 .f32) (v5 : FVec Ideal S512x2048 .bf16) (v11 : FVec Ideal S512x64 .f32)
    (p : Fin 512) (q : Fin 64) :
    k2_pay2 (F := Ideal) v2 v5 v11 (ix2 p q) = v11 (ix2 p q) + ∑ k : Fin 2048, v5 (ix2 p k) * v2 (ix2 k q) := by
  show shapeCast S512x64 (addf v11 (matmul (F := Ideal) dot_S512x2048_S2048x64_S512x64_1_0_0_1_n_n none
      (shapeCast S512x2048 v5 shapeCasts_S512x2048_S512x2048) (truncf .bf16 (shapeCast S2048x64 v2 shapeCasts_S2048x64_S2048x64) bitsLt_bf16_f32)
      (constant (F := Ideal) S512x64 .f32 0x00000000#32))) shapeCasts_S512x64_S512x64 (ix2 p q) = _
  rw [shapeCast_self, shapeCast_self, shapeCast_self]
  refine congrArg (v11 (ix2 p q) + ·) ((matmul_zero_apply _ _ p q).trans ?_)
  rfl

/-! ## The mean of the four stages -/

/-- Third pass's result: the four stages added as `((e₀ + e₁) + e₂) + e₃`, times the float `0.25`. Here `v23`, `v25`,
    `v21` are the stages `e₀`, `e₁`, `e₂` as loaded and `v29` the finished running total `e₃`. -/
theorem mean_payload_apply (v21 v23 v25 v29 : FVec Ideal S512x64 .f32) (p : Fin 512) (q : Fin 64) :
    k2_pay3 (F := Ideal) v21 v23 v25 v29 (ix2 p q)
      = (v23 (ix2 p q) + v25 (ix2 p q) + v21 (ix2 p q) + v29 (ix2 p q)) * Ideal.ofBits .f32 0x3E800000#32 := by
  show mulf (addf (addf (addf (shapeCast S512x64 v23 shapeCasts_S512x64_S512x64) (shapeCast S512x64 v25 shapeCasts_S512x64_S512x64))
      (shapeCast S512x64 v21 shapeCasts_S512x64_S512x64)) v29) (broadcast S512x64 (Ideal.ofBits .f32 0x3E800000#32)) (ix2 p q) = _
  rw [shapeCast_self, shapeCast_self, shapeCast_self]
  rfl

/-- The same with the float `0.25` read as the real `1/4`. -/
theorem mean_payload_quarter (v21 v23 v25 v29 : FVec Ideal S512x64 .f32) (p : Fin 512) (q : Fin 64) :
    k2_pay3 (F := Ideal) v21 v23 v25 v29 (ix2 p q)
      = (v23 (ix2 p q) + v25 (ix2 p q) + v21 (ix2 p q) + v29 (ix2 p q)) * ((1 / 4 : ℝ) : EReal) := by
  rw [mean_payload_apply, Cert.Proof.Algebra.quarter]

end Cert.KernelIdeal.HandValue

end
-- ==== Proof.KI.R1Value.lean ====
import proofs.«123882_g45509473468512_cont_8to1_c_438_2_alg».proof.Proof.KI.R1Frame
import proofs.«123882_g45509473468512_cont_8to1_c_438_2_alg».proof.Proof.KI.Payloads
import proofs.«123882_g45509473468512_cont_8to1_c_438_2_alg».proof.Proof.Spec
import proofs.«123882_g45509473468512_cont_8to1_c_438_2_alg».proof.Proof.Algebra
import Idealize.ShloMosaic.Lib.Pipeline.Value
import Idealize.ShloMosaic.Lib.Tactic

/-!
# The second pass computes one round: its result array is the matrix times the table

Point `t` of the grid is row block `t / 8` and column block `t % 8`. The running total after point `t`, at entry
`(p, q)` of the row block, is the sum of the first `t % 8 + 1` blocks (of 2048 indices each) of the contraction
`∑ k, a (512 · (t / 8) + p, k) · e (k, q)`; after the eighth block it is the whole contraction, and that is what the
last column block's point stores into the result's rows `512 · (t / 8) …`. The 32 row blocks tile the result.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Proof
open scoped BigOperators

theorem hz2 : (![0, 0] : Fin 2 → Nat) = fun _ => 0 := funext fun a => by fin_cases a <;> rfl

/-! ## What each case leaves, as the body's arithmetic of what it loaded -/

section Pieces
variable {F : FTy → Type} [FloatOps F]

/-- The 2048 rows of the table the body loads at a point: those of the point's column block. -/
abbrev rows1 (i : grid1.Coords) (x1 : Vec F S16384x64 .f32) : Vec F S2048x64 .f32 :=
  View.ld x1 (Rect.unit (s := S16384x64) (k1_off1 i) S2048x64.size (k1_off1_inb i))

/-- A middle column block: the running total found plus the block product. -/
theorem soutB1_eq (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : ¬cond1_1 i)
    (x0 : Vec F S512x2048 .bf16) (x1 : Vec F S16384x64 .f32) (xs0 : Vec F S512x64 .f32) :
    sout1_B_0 c i arg2 harg2 arg3 harg3 arg4 harg4 arg5 harg5 hc0 hc1 x0 x1 xs0 = k1_pay2 (rows1 i x1) x0 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  rw [View.canon_unit_zero hz2]
  simp only [View.readAt_eq_ld, harg2.read_unread, harg3.read_unread, harg5.read_unread, View.ld_unit_zero (S := S512x2048) hz2,
    View.ld_unit_zero (S := S512x64) hz2]

/-- The first column block: zero plus the block product. -/
theorem soutA1_eq (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : cond1_0 i) (hc1 : ¬cond1_1 i)
    (x0 : Vec F S512x2048 .bf16) (x1 : Vec F S16384x64 .f32) :
    sout1_A_0 c i arg2 harg2 arg3 harg3 arg4 harg4 arg5 harg5 hc0 hc1 x0 x1 = k1_pay2 (rows1 i x1) x0 k1_pay1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S512x64) hz2, View.readCov_unit_zero (S := S512x64) _ hz2]
  simp only [View.readAt_eq_ld, harg2.read_unread, harg3.read_unread, View.ld_unit_zero (S := S512x2048) hz2]
  rfl

/-- The last column block: the running total found plus the block product … -/
theorem soutC1_eq (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) :
    sout1_C_0 c i arg2 harg2 arg3 harg3 arg4 harg4 arg5 harg5 hc0 hc1 x0 x1 xs0 = k1_pay2 (rows1 i x1) x0 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz2]
  simp only [View.readAt_eq_ld, harg2.read_unread, harg3.read_unread, harg5.read_unread, View.ld_unit_zero (S := S512x2048) hz2,
    View.ld_unit_zero (S := S512x64) hz2]
  rfl

/-- … and the same value stored into the output block. -/
theorem outC1_eq (c : Dev nD) (i : grid1.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (hc0 : ¬cond1_0 i) (hc1 : cond1_1 i)
    (x0 : Vec F S512x2048 .bf16) (x1 : Vec F S16384x64 .f32) (xs0 : Vec F S512x64 .f32) :
    out1_C_2 c i arg2 harg2 arg3 harg3 arg4 harg4 arg5 harg5 hc0 hc1 x0 x1 xs0 = k1_pay2 (rows1 i x1) x0 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz2, View.readCov_unit_zero (S := S512x64) _ hz2]
  simp only [View.readAt_eq_ld, harg2.read_unread, harg3.read_unread, harg5.read_unread, View.ld_unit_zero (S := S512x2048) hz2,
    View.ld_unit_zero (S := S512x64) hz2]
  rfl

end Pieces

/-! ## The blocks the body reads, as entries of the arrays the pass finds -/

/-- The printed index maps, decided once over the grid: the matrix block is block `(t / 8, t % 8)`, the table is
    read whole, the output block is row block `t / 8`, and the body's row offset into the table is `2048 · (t % 8)`. -/
theorem idx_facts1 : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0
    ∧ k1_off1 (grid1.coords t) (0 : Fin 2) = 2048 * (t.val % 8) ∧ k1_off1 (grid1.coords t) (1 : Fin 2) = 0 :=
  (by decide +kernel : ∀ t : Fin grid1.N, _)

section Values
variable (V : (c : Dev nD) → (b : Ref sig .tc) → Buf (Elt Ideal) ((c : Thread nD τ).loc b)) (c : Dev nD)

/-- The matrix as the pass finds it. -/
abbrev matA : Spec.Mat 16384 16384 := V c main_v1_1
/-- The table as the pass finds it. -/
abbrev tabE : Spec.Mat 16384 64 := V c main_v1_0

theorem row_lt (n : ℕ) (hn : n < cfg1.N) (p : Fin 512) : 512 * (n / 8) + p.val < 16384 := by
  have hN : cfg1.N = 256 := N_1
  have := p.isLt; omega

/-- Entry `(p, k)` of the matrix block at point `t`: the matrix at row `512 · (t / 8) + p`, column `2048 · (t % 8) + k`. -/
theorem iblk1_0_apply (t : Fin cfg1.N) (p : Fin 512) (k : Fin 2048) (j : (⟨2, ![16384, 16384]⟩ : Shape).Idx)
    (hj0 : (j 0).val = 512 * (t.val / 8) + p.val) (hj1 : (j 1).val = 2048 * (t.val % 8) + k.val) :
    (iblk1 V c 0 t : Vec Ideal S512x2048 .bf16) (ix2 p k) = matA V c j := by
  obtain ⟨e0, e1, -⟩ := idx_facts1 t
  unfold iblk1
  rw [View.read_apply]
  show V c main_v1_1 _ = V c main_v1_1 j
  congr 1
  funext a
  apply Fin.ext
  match a with
  | ⟨0, _⟩ => show win1_0.index t 0 * 512 + 1 * p.val = (j 0).val; rw [e0, hj0]; omega
  | ⟨1, _⟩ => show win1_0.index t 1 * 2048 + 1 * k.val = (j 1).val; rw [e1, hj1]; omega

/-- The table's block at any point is the table. -/
theorem iblk1_1_apply (t : Fin cfg1.N) (j : (⟨2, ![16384, 64]⟩ : Shape).Idx) :
    (iblk1 V c 1 t : Vec Ideal S16384x64 .f32) j = tabE V c j := by
  obtain ⟨-, -, e2, e3, -⟩ := idx_facts1 t
  unfold iblk1
  rw [View.read_apply]
  show V c main_v1_0 _ = V c main_v1_0 j
  congr 1
  funext a
  apply Fin.ext
  match a with
  | ⟨0, _⟩ => show win1_1.index t 0 * 16384 + 1 * (j 0).val = (j 0).val; rw [e2]; omega
  | ⟨1, _⟩ => show win1_1.index t 1 * 64 + 1 * (j 1).val = (j 1).val; rw [e3]; omega

/-- Row `k` of the 2048 rows the body loads at point `t` is row `2048 · (t % 8) + k` of the table. -/
theorem rows1_apply (t : Fin cfg1.N) (k : Fin 2048) (q : Fin 64) (j : (⟨2, ![16384, 64]⟩ : Shape).Idx)
    (hj0 : (j 0).val = 2048 * (t.val % 8) + k.val) (hj1 : (j 1).val = q.val) :
    rows1 (grid1.coords t) (iblk1 V c 1 t : Vec Ideal S16384x64 .f32) (ix2 k q) = tabE V c j := by
  obtain ⟨-, -, -, -, -, -, e6, e7⟩ := idx_facts1 t
  show (iblk1 V c 1 t : Vec Ideal S16384x64 .f32) _ = _
  rw [iblk1_1_apply]
  congr 1
  funext a
  apply Fin.ext
  match a with
  | ⟨0, _⟩ => show k1_off1 (grid1.coords t) 0 + 1 * k.val = (j 0).val; rw [e6, hj0]; omega
  | ⟨1, _⟩ => show k1_off1 (grid1.coords t) 1 + 1 * q.val = (j 1).val; rw [e7, hj1]; omega

/-! ## The running total -/

/-- The terms of the contraction for row `r` of the matrix and column `q` of the table. -/
def term (a : Spec.Mat 16384 16384) (e : Spec.Mat 16384 64) (r : Fin 16384) (q : Fin 64) : Fin 16384 → EReal :=
  fun k => a (ix2 r k) * e (ix2 k q)

/-- One round's entry `(r, q)` is the sum of those terms. -/
theorem step_eq_sum (a : Spec.Mat 16384 16384) (e : Spec.Mat 16384 64) (r : Fin 16384) (q : Fin 64) :
    Spec.step a e (ix2 r q) = ∑ k : Fin 16384, term a e r q k := rfl

open Cert.LibBlockRuns in
/-- What the body stores at point `t`, from the running total `xs` it found: at entry `(p, q)`, `xs` there plus block
    `t % 8` of the contraction for row `512 · (t / 8) + p`. -/
theorem step1_apply (t : Fin cfg1.N) (xs : Vec Ideal S512x64 .f32) (p : Fin 512) (q : Fin 64) :
    k1_pay2 (F := Ideal) (rows1 (grid1.coords t) (iblk1 V c 1 t)) (iblk1 V c 0 t) xs (ix2 p q)
      = xs (ix2 p q) + block 8 2048 rfl (term (matA V c) (tabE V c) ⟨512 * (t.val / 8) + p.val, row_lt t.val t.isLt p⟩ q) (t.val % 8) := by
  have hlt : t.val % 8 < 8 := Nat.mod_lt _ (by norm_num)
  refine (accumulate1_apply (rows1 (grid1.coords t) (iblk1 V c 1 t)) (iblk1 V c 0 t) xs p q).trans ?_
  rw [block_of_lt 8 2048 rfl _ (t.val % 8) hlt]
  refine congrArg (xs (ix2 p q) + ·) (Finset.sum_congr rfl fun k _ => ?_)
  unfold term
  rw [iblk1_0_apply V c t p k (ix2 ⟨512 * (t.val / 8) + p.val, row_lt t.val t.isLt p⟩ ⟨2048 * (t.val % 8) + k.val, Cert.LibBlockSumGen.block_index_lt (⟨t.val % 8, hlt⟩ : Fin 8) k⟩) rfl rfl,
    rows1_apply V c t k q (ix2 ⟨2048 * (t.val % 8) + k.val, Cert.LibBlockSumGen.block_index_lt (⟨t.val % 8, hlt⟩ : Fin 8) k⟩ q) rfl rfl]

end Values

section Totals
variable (V : (c : Dev nD) → (b : Ref sig .tc) → Buf (Elt Ideal) ((c : Thread nD τ).loc b)) (c : Dev nD)

open Cert.LibBlockRuns Cert.LibBlockSumGen

/-- The running total after point `t`, at entry `(p, q)`: zero at the first column block, else what the point before
    left, plus block `t % 8` of the contraction for row `r = 512 · (t / 8) + p`. -/
theorem acc1_step (t : Fin cfg1.N) (p : Fin 512) (q : Fin 64) (r : Fin 16384) (hr : r.val = 512 * (t.val / 8) + p.val) :
    ((outsAt1 (F := Ideal) V c t.val t.isLt).2 : Vec Ideal S512x64 .f32) (ix2 p q)
      = (if t.val % 8 = 0 then (0 : EReal)
          else ((outsAt1 (F := Ideal) V c (t.val - 1) (Nat.lt_of_le_of_lt (Nat.sub_le _ _) t.isLt)).2 : Vec Ideal S512x64 .f32) (ix2 p q))
        + block 8 2048 rfl (term (matA V c) (tabE V c) r q) (t.val % 8) := by
  obtain rfl : r = ⟨512 * (t.val / 8) + p.val, row_lt t.val t.isLt p⟩ := Fin.ext hr
  by_cases h0 : t.val % 8 = 0
  · rw [if_pos h0, outsAt1_A V c t h0]
    unfold stepA1
    dsimp only
    rw [soutA1_eq]
    refine (step1_apply V c t (k1_pay1 (F := Ideal)) p q).trans ?_
    rw [reset1_zero]
  · rw [if_neg h0]
    by_cases h1 : t.val % 8 = 7
    · rw [outsAt1_C V c t h0 h1]
      unfold stepC1
      dsimp only
      rw [soutC1_eq]
      exact step1_apply V c t _ p q
    · rw [outsAt1_B V c t h0 h1]
      unfold stepB1
      dsimp only
      rw [soutB1_eq]
      exact step1_apply V c t _ p q

/-- After point `n` the running total at entry `(p, q)` is the first `n % 8 + 1` blocks of the contraction for row
    `512 · (n / 8) + p`, accumulated in order. -/
theorem acc1_eq : ∀ (n : ℕ) (hn : n < cfg1.N) (p : Fin 512) (q : Fin 64) (r : Fin 16384), r.val = 512 * (n / 8) + p.val →
    ((outsAt1 (F := Ideal) V c n hn).2 : Vec Ideal S512x64 .f32) (ix2 p q)
      = ∑ i ∈ Finset.range (n % 8 + 1), block 8 2048 rfl (term (matA V c) (tabE V c) r q) i := by
  intro n
  induction n with
  | zero =>
    intro hn p q r hr
    refine (acc1_step V c ⟨0, hn⟩ p q r hr).trans ?_
    dsimp only
    rw [if_pos (Nat.zero_mod 8), zero_add, Nat.zero_mod, Finset.sum_range_one]
  | succ n ih =>
    intro hn p q r hr
    refine (acc1_step V c ⟨n + 1, hn⟩ p q r hr).trans ?_
    dsimp only
    by_cases h0 : (n + 1) % 8 = 0
    · rw [if_pos h0, zero_add, h0, Finset.sum_range_one]
    · have e1 : (n + 1) % 8 = n % 8 + 1 := by omega
      have e2 : (n + 1) / 8 = n / 8 := by omega
      rw [if_neg h0]
      rw [show ((outsAt1 (F := Ideal) V c (n + 1 - 1) (Nat.lt_of_le_of_lt (Nat.sub_le _ _) hn)).2 : Vec Ideal S512x64 .f32) (ix2 p q)
          = _ from ih (Nat.lt_of_succ_lt hn) p q r (by rw [hr, e2])]
      rw [e1, Finset.sum_range_succ _ (n % 8 + 1)]

/-- At the last column block the value stored into the output block, at entry `(p, q)`, is the whole contraction:
    one round's entry at row `r = 512 · (t / 8) + p`. -/
theorem out1_eq (t : Fin cfg1.N) (h1 : t.val % 8 = 7) (p : Fin 512) (q : Fin 64) (r : Fin 16384)
    (hr : r.val = 512 * (t.val / 8) + p.val) :
    ((outsAt1 (F := Ideal) V c t.val t.isLt).1 : Vec Ideal S512x64 .f32) (ix2 p q) = Spec.step (matA V c) (tabE V c) (ix2 r q) := by
  have h0 : ¬t.val % 8 = 0 := by omega
  have hp6 : (t.val - 1) % 8 = 6 := by omega
  have hpd : (t.val - 1) / 8 = t.val / 8 := by omega
  obtain rfl : r = ⟨512 * (t.val / 8) + p.val, row_lt t.val t.isLt p⟩ := Fin.ext hr
  rw [outsAt1_C V c t h0 h1]
  unfold stepC1
  dsimp only
  rw [outC1_eq]
  refine (step1_apply V c t _ p q).trans ?_
  rw [acc1_eq V c (t.val - 1) _ p q ⟨512 * (t.val / 8) + p.val, row_lt t.val t.isLt p⟩ (by rw [hpd]), hp6, h1, step_eq_sum,
    ← sum_range_block (K := 8) (B := 2048) rfl]
  exact (Finset.sum_range_succ _ 7).symm

/-! ## The result array -/

/-- What a flushing point writes back is its block of one round of the matrix on the table. -/
theorem flushed1_eq (t : Fin cfg1.N) (hf : (cfg1.win 2).flush t = true) :
    (dat1 (F := Ideal) V c).flushed 2 t = ((cfg1.win 2).blk t).view.read (Elt Ideal) (Spec.step (matA V c) (tabE V c)) := by
  have h1 : t.val % 8 = 7 := (flush1_2 t).mp hf
  obtain ⟨-, -, -, -, e4, e5, -⟩ := idx_facts1 t
  have key : ∀ (p : Fin 512) (q : Fin 64), ((outsAt1 (F := Ideal) V c t.val t.isLt).1 : Vec Ideal S512x64 .f32) (ix2 p q)
      = Spec.step (matA V c) (tabE V c) (ix2 ⟨512 * (t.val / 8) + p.val, row_lt t.val t.isLt p⟩ q) :=
    fun p q => out1_eq V c t h1 p q _ rfl
  generalize Spec.step (matA V c) (tabE V c) = G at key ⊢
  show (cfg1.win 2).cut (grid1.coords t) ((dat1 V c).after 2 t) = _
  rw [after1_2]
  funext j
  obtain ⟨p, q, rfl⟩ : ∃ (p : Fin 512) (q : Fin 64), j = ix2 p q := ⟨j 0, j 1, eq_ix2 j⟩
  rw [View.read_apply]
  refine (key p q).trans (congrArg G (funext fun a => Fin.ext ?_))
  match a with
  | ⟨0, _⟩ => show 512 * (t.val / 8) + p.val = win1_2.index t 0 * 512 + 1 * p.val; rw [e4]; omega
  | ⟨1, _⟩ => show q.val = win1_2.index t 1 * 64 + 1 * q.val; rw [e5]; omega

/-- Every row of the result lies in the block of its row block's last point. -/
theorem cover1 (i : (⟨2, ![16384, 64]⟩ : Shape).Idx) :
    ∃ t : Fin cfg1.N, (cfg1.win 2).flush t = true ∧ i ∈ ((cfg1.win 2).blk t).view.set := by
  have hN : cfg1.N = 256 := N_1
  have hi0 : (i 0).val < 16384 := idx2_lt0 i
  have hi1 : (i 1).val < 64 := idx2_lt1 i
  have htN : 8 * ((i 0).val / 512) + 7 < cfg1.N := by omega
  refine ⟨⟨8 * ((i 0).val / 512) + 7, htN⟩, (flush1_2 _).mpr (by show (8 * ((i 0).val / 512) + 7) % 8 = 7; omega), ?_⟩
  obtain ⟨-, -, -, -, e4, e5, -⟩ := idx_facts1 ⟨8 * ((i 0).val / 512) + 7, htN⟩
  have e4' : win1_2.index ⟨8 * ((i 0).val / 512) + 7, htN⟩ 0 = (i 0).val / 512 := by rw [e4]; show (8 * ((i 0).val / 512) + 7) / 8 = _; omega
  show i ∈ ((View.whole main_v2).slice (win1_2.rect ⟨8 * ((i 0).val / 512) + 7, htN⟩)).set
  rw [View.set_slice_whole, Rect.mem_set_unit]
  intro a
  match a with
  | ⟨0, _⟩ =>
    show win1_2.index ⟨8 * ((i 0).val / 512) + 7, htN⟩ 0 * 512 ≤ (i 0).val ∧ (i 0).val < win1_2.index ⟨8 * ((i 0).val / 512) + 7, htN⟩ 0 * 512 + 512
    rw [e4']; omega
  | ⟨1, _⟩ =>
    show win1_2.index ⟨8 * ((i 0).val / 512) + 7, htN⟩ 1 * 64 ≤ (i 1).val ∧ (i 1).val < win1_2.index ⟨8 * ((i 0).val / 512) + 7, htN⟩ 1 * 64 + 64
    rw [e5]; omega

/-- The pass's result array ends holding one round: the matrix as the pass finds it times the table as it finds it. -/
theorem final1 : (dat1 (F := Ideal) V c).arrAt 2 cfg1.N = Spec.step (V c main_v1_1) (V c main_v1_0) :=
  (dat1 (F := Ideal) V c).arrAt_eq_of_cover 2 (Spec.step (matA V c) (tabE V c)) (flushed1_eq V c) (cover1)

end Totals

end Cert.KernelIdeal.HandValue

end
-- ==== Proof.KI.R0Value.lean ====
import proofs.«123882_g45509473468512_cont_8to1_c_438_2_alg».proof.Proof.KI.R0Frame
import proofs.«123882_g45509473468512_cont_8to1_c_438_2_alg».proof.Proof.KI.R1Value
import proofs.«123882_g45509473468512_cont_8to1_c_438_2_alg».proof.Proof.KI.Payloads
import proofs.«123882_g45509473468512_cont_8to1_c_438_2_alg».proof.Proof.Spec
import proofs.«123882_g45509473468512_cont_8to1_c_438_2_alg».proof.Proof.Algebra
import Idealize.ShloMosaic.Lib.Pipeline.Value
import Idealize.ShloMosaic.Lib.Tactic

/-!
# The first pass computes the first round and a copy of the matrix

Point `t` of the grid is row block `t / 8` and column block `t % 8`. At every point the body stores its 512 × 2048 block of
the matrix, narrowed to the shorter float format, into the copy's block `(t / 8, t % 8)`: over the extended reals the
narrowing is the identity, so the copy ends equal to the matrix, entry for entry. As in the later passes the running
total after point `t` is, at entry `(p, q)`, the first `t % 8 + 1` blocks of the contraction
`∑ k, a (512 · (t / 8) + p, k) · e₀ (k, q)`, and the last column block's point stores the whole contraction into the
result's rows `512 · (t / 8) …`.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Proof
open scoped BigOperators

/-! ## What each case leaves, as the body's arithmetic of what it loaded -/

section Pieces
variable {F : FTy → Type} [FloatOps F]

/-- The 2048 rows of the table the body loads at a point: those of the point's column block. -/
abbrev rows0 (i : grid0.Coords) (x1 : Vec F S16384x64 .f32) : Vec F S2048x64 .f32 :=
  View.ld x1 (Rect.unit (s := S16384x64) (k0_off1 i) S2048x64.size (k0_off1_inb i))

/-! The narrowed copy of the matrix block, stored at every point. -/

theorem narA0_eq (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) :
    out0_A_3 c i arg2 harg2 arg3 harg3 arg4 harg4 arg5 harg5 arg6 harg6 hc0 hc1 x0 x1 = k0_pay1 x0 := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_unit_zero hz2]
  simp only [View.readAt_eq_ld, harg2.read_unread, View.ld_unit_zero (S := S512x2048) hz2]

theorem narB0_eq (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) :
    out0_B_3 c i arg2 harg2 arg3 harg3 arg4 harg4 arg5 harg5 arg6 harg6 hc0 hc1 x0 x1 xs0 = k0_pay1 x0 := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, View.ld_unit_zero (S := S512x2048) hz2]

theorem narC0_eq (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) :
    out0_C_3 c i arg2 harg2 arg3 harg3 arg4 harg4 arg5 harg5 arg6 harg6 hc0 hc1 x0 x1 xs0 = k0_pay1 x0 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, View.ld_unit_zero (S := S512x2048) hz2]

/-! The running total: zero plus the block product at the first column block, what was found plus the block product
    afterwards; at the last column block the same value is stored into the output block. -/

theorem soutA0_eq (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : cond0_0 i) (hc1 : ¬cond0_1 i)
    (x0 : Vec F S512x2048 .f32) (x1 : Vec F S16384x64 .f32) :
    sout0_A_0 c i arg2 harg2 arg3 harg3 arg4 harg4 arg5 harg5 arg6 harg6 hc0 hc1 x0 x1 = k0_pay3 x0 (rows0 i x1) k0_pay2 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x64) hz2, View.readCov_unit_zero (S := S512x64) _ hz2]
  simp only [View.readAt_eq_ld, harg2.read_unread, harg3.read_unread, View.ld_unit_zero (S := S512x2048) hz2]
  rfl

theorem soutB0_eq (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : ¬cond0_1 i)
    (x0 : Vec F S512x2048 .f32) (x1 : Vec F S16384x64 .f32) (xs0 : Vec F S512x64 .f32) :
    sout0_B_0 c i arg2 harg2 arg3 harg3 arg4 harg4 arg5 harg5 arg6 harg6 hc0 hc1 x0 x1 xs0 = k0_pay3 x0 (rows0 i x1) xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S512x2048) hz2,
    View.ld_unit_zero (S := S512x64) hz2]
  rfl

theorem soutC0_eq (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) :
    sout0_C_0 c i arg2 harg2 arg3 harg3 arg4 harg4 arg5 harg5 arg6 harg6 hc0 hc1 x0 x1 xs0 = k0_pay3 x0 (rows0 i x1) xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S512x2048) hz2,
    View.ld_unit_zero (S := S512x64) hz2]
  rfl

theorem outC0_eq (c : Dev nD) (i : grid0.Coords) (arg2 : Memref sig .tc .vmem S512x2048 .f32) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x2048 .bf16) (harg5 : arg5.IsWhole) (arg6 : Memref sig .tc .vmem S512x64 .f32) (harg6 : arg6.IsWhole) (hc0 : ¬cond0_0 i) (hc1 : cond0_1 i)
    (x0 : Vec F S512x2048 .f32) (x1 : Vec F S16384x64 .f32) (xs0 : Vec F S512x64 .f32) :
    out0_C_2 c i arg2 harg2 arg3 harg3 arg4 harg4 arg5 harg5 arg6 harg6 hc0 hc1 x0 x1 xs0 = k0_pay3 x0 (rows0 i x1) xs0 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz2, View.readCov_unit_zero (S := S512x64) _ hz2]
  simp only [View.readAt_eq_ld, harg2.read_unread, harg3.read_unread, harg6.read_unread, View.ld_unit_zero (S := S512x2048) hz2,
    View.ld_unit_zero (S := S512x64) hz2]
  rfl

end Pieces

/-! ## The blocks the body reads, as entries of the arrays the pass finds -/

/-- The printed index maps, decided once over the grid: the matrix block and the copy's block are block `(t / 8, t % 8)`,
    the table is read whole, the output block is row block `t / 8`, and the body's row offset into the table is
    `2048 · (t % 8)`. -/
theorem idx_facts0 : ∀ t : Fin cfg0.N,
    win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = t.val % 8
    ∧ k0_off1 (grid0.coords t) (0 : Fin 2) = 2048 * (t.val % 8) ∧ k0_off1 (grid0.coords t) (1 : Fin 2) = 0 :=
  (by decide +kernel : ∀ t : Fin grid0.N, _)

section Values
variable (V : (c : Dev nD) → (b : Ref sig .tc) → Buf (Elt Ideal) ((c : Thread nD τ).loc b)) (c : Dev nD)

/-- The matrix as the pass finds it. -/
abbrev matA0 : Spec.Mat 16384 16384 := V c main_arg0
/-- The stacked table as the pass finds it. -/
abbrev tabS0 : Spec.Mat 16384 64 := V c main_v0

theorem row_lt0 (n : ℕ) (hn : n < cfg0.N) (p : Fin 512) : 512 * (n / 8) + p.val < 16384 := by
  have hN : cfg0.N = 256 := N_0
  have := p.isLt; omega

theorem col_lt0 (n : ℕ) (k : Fin 2048) : 2048 * (n % 8) + k.val < 16384 := by
  have := k.isLt; have := Nat.mod_lt n (show 0 < 8 by norm_num); omega

/-- Entry `(p, k)` of the matrix block at point `t`: the matrix at row `512 · (t / 8) + p`, column `2048 · (t % 8) + k`. -/
theorem iblk0_0_apply (t : Fin cfg0.N) (p : Fin 512) (k : Fin 2048) (j : (⟨2, ![16384, 16384]⟩ : Shape).Idx)
    (hj0 : (j 0).val = 512 * (t.val / 8) + p.val) (hj1 : (j 1).val = 2048 * (t.val % 8) + k.val) :
    (iblk0 V c 0 t : Vec Ideal S512x2048 .f32) (ix2 p k) = matA0 V c j := by
  obtain ⟨e0, e1, -⟩ := idx_facts0 t
  unfold iblk0
  rw [View.read_apply]
  show V c main_arg0 _ = V c main_arg0 j
  congr 1
  funext a
  apply Fin.ext
  match a with
  | ⟨0, _⟩ => show win0_0.index t 0 * 512 + 1 * p.val = (j 0).val; rw [e0, hj0]; omega
  | ⟨1, _⟩ => show win0_0.index t 1 * 2048 + 1 * k.val = (j 1).val; rw [e1, hj1]; omega

/-- The table's block at any point is the table. -/
theorem iblk0_1_apply (t : Fin cfg0.N) (j : (⟨2, ![16384, 64]⟩ : Shape).Idx) :
    (iblk0 V c 1 t : Vec Ideal S16384x64 .f32) j = tabS0 V c j := by
  obtain ⟨-, -, e2, e3, -⟩ := idx_facts0 t
  unfold iblk0
  rw [View.read_apply]
  show V c main_v0 _ = V c main_v0 j
  congr 1
  funext a
  apply Fin.ext
  match a with
  | ⟨0, _⟩ => show win0_1.index t 0 * 16384 + 1 * (j 0).val = (j 0).val; rw [e2]; omega
  | ⟨1, _⟩ => show win0_1.index t 1 * 64 + 1 * (j 1).val = (j 1).val; rw [e3]; omega

/-- Row `k` of the 2048 rows the body loads at point `t` is row `2048 · (t % 8) + k` of the table. -/
theorem rows0_apply (t : Fin cfg0.N) (k : Fin 2048) (q : Fin 64) (j : (⟨2, ![16384, 64]⟩ : Shape).Idx)
    (hj0 : (j 0).val = 2048 * (t.val % 8) + k.val) (hj1 : (j 1).val = q.val) :
    rows0 (grid0.coords t) (iblk0 V c 1 t : Vec Ideal S16384x64 .f32) (ix2 k q) = tabS0 V c j := by
  obtain ⟨-, -, -, -, -, -, -, -, e8, e9⟩ := idx_facts0 t
  show (iblk0 V c 1 t : Vec Ideal S16384x64 .f32) _ = _
  rw [iblk0_1_apply]
  congr 1
  funext a
  apply Fin.ext
  match a with
  | ⟨0, _⟩ => show k0_off1 (grid0.coords t) 0 + 1 * k.val = (j 0).val; rw [e8, hj0]; omega
  | ⟨1, _⟩ => show k0_off1 (grid0.coords t) 1 + 1 * q.val = (j 1).val; rw [e9, hj1]; omega

/-! ## The running total -/

open Cert.LibBlockRuns in
/-- What the body stores into its running total at point `t`, from the total `xs` it found: at entry `(p, q)`, `xs`
    there plus block `t % 8` of the contraction for row `512 · (t / 8) + p`. -/
theorem step0_apply (t : Fin cfg0.N) (xs : Vec Ideal S512x64 .f32) (p : Fin 512) (q : Fin 64) :
    k0_pay3 (F := Ideal) (iblk0 V c 0 t) (rows0 (grid0.coords t) (iblk0 V c 1 t)) xs (ix2 p q)
      = xs (ix2 p q) + block 8 2048 rfl (term (matA0 V c) (tabS0 V c) ⟨512 * (t.val / 8) + p.val, row_lt0 t.val t.isLt p⟩ q) (t.val % 8) := by
  have hlt : t.val % 8 < 8 := Nat.mod_lt _ (by norm_num)
  refine (accumulate0_apply (iblk0 V c 0 t) (rows0 (grid0.coords t) (iblk0 V c 1 t)) xs p q).trans ?_
  rw [block_of_lt 8 2048 rfl _ (t.val % 8) hlt]
  refine congrArg (xs (ix2 p q) + ·) (Finset.sum_congr rfl fun k _ => ?_)
  unfold term
  rw [iblk0_0_apply V c t p k (ix2 ⟨512 * (t.val / 8) + p.val, row_lt0 t.val t.isLt p⟩ ⟨2048 * (t.val % 8) + k.val, Cert.LibBlockSumGen.block_index_lt (⟨t.val % 8, hlt⟩ : Fin 8) k⟩) rfl rfl,
    rows0_apply V c t k q (ix2 ⟨2048 * (t.val % 8) + k.val, Cert.LibBlockSumGen.block_index_lt (⟨t.val % 8, hlt⟩ : Fin 8) k⟩ q) rfl rfl]

end Values

section Totals
variable (V : (c : Dev nD) → (b : Ref sig .tc) → Buf (Elt Ideal) ((c : Thread nD τ).loc b)) (c : Dev nD)

open Cert.LibBlockRuns Cert.LibBlockSumGen

/-- The running total after point `t`, at entry `(p, q)`: zero at the first column block, else what the point before
    left, plus block `t % 8` of the contraction for row `r = 512 · (t / 8) + p`. -/
theorem acc0_step (t : Fin cfg0.N) (p : Fin 512) (q : Fin 64) (r : Fin 16384) (hr : r.val = 512 * (t.val / 8) + p.val) :
    ((outsAt0 (F := Ideal) V c t.val t.isLt).2.2 : Vec Ideal S512x64 .f32) (ix2 p q)
      = (if t.val % 8 = 0 then (0 : EReal)
          else ((outsAt0 (F := Ideal) V c (t.val - 1) (Nat.lt_of_le_of_lt (Nat.sub_le _ _) t.isLt)).2.2 : Vec Ideal S512x64 .f32) (ix2 p q))
        + block 8 2048 rfl (term (matA0 V c) (tabS0 V c) r q) (t.val % 8) := by
  obtain rfl : r = ⟨512 * (t.val / 8) + p.val, row_lt0 t.val t.isLt p⟩ := Fin.ext hr
  by_cases h0 : t.val % 8 = 0
  · rw [if_pos h0, outsAt0_A V c t h0]
    unfold stepA0
    dsimp only
    rw [soutA0_eq]
    refine (step0_apply V c t (k0_pay2 (F := Ideal)) p q).trans ?_
    rw [reset0_zero]
  · rw [if_neg h0]
    by_cases h1 : t.val % 8 = 7
    · rw [outsAt0_C V c t h0 h1]
      unfold stepC0
      dsimp only
      rw [soutC0_eq]
      exact step0_apply V c t _ p q
    · rw [outsAt0_B V c t h0 h1]
      unfold stepB0
      dsimp only
      rw [soutB0_eq]
      exact step0_apply V c t _ p q

/-- After point `n` the running total at entry `(p, q)` is the first `n % 8 + 1` blocks of the contraction for row
    `512 · (n / 8) + p`, accumulated in order. -/
theorem acc0_eq : ∀ (n : ℕ) (hn : n < cfg0.N) (p : Fin 512) (q : Fin 64) (r : Fin 16384), r.val = 512 * (n / 8) + p.val →
    ((outsAt0 (F := Ideal) V c n hn).2.2 : Vec Ideal S512x64 .f32) (ix2 p q)
      = ∑ i ∈ Finset.range (n % 8 + 1), block 8 2048 rfl (term (matA0 V c) (tabS0 V c) r q) i := by
  intro n
  induction n with
  | zero =>
    intro hn p q r hr
    refine (acc0_step V c ⟨0, hn⟩ p q r hr).trans ?_
    dsimp only
    rw [if_pos (Nat.zero_mod 8), zero_add, Nat.zero_mod, Finset.sum_range_one]
  | succ n ih =>
    intro hn p q r hr
    refine (acc0_step V c ⟨n + 1, hn⟩ p q r hr).trans ?_
    dsimp only
    by_cases h0 : (n + 1) % 8 = 0
    · rw [if_pos h0, zero_add, h0, Finset.sum_range_one]
    · have e1 : (n + 1) % 8 = n % 8 + 1 := by omega
      have e2 : (n + 1) / 8 = n / 8 := by omega
      rw [if_neg h0]
      rw [show ((outsAt0 (F := Ideal) V c (n + 1 - 1) (Nat.lt_of_le_of_lt (Nat.sub_le _ _) hn)).2.2 : Vec Ideal S512x64 .f32) (ix2 p q)
          = _ from ih (Nat.lt_of_succ_lt hn) p q r (by rw [hr, e2])]
      rw [e1, Finset.sum_range_succ _ (n % 8 + 1)]

/-- At the last column block the value stored into the output block, at entry `(p, q)`, is the whole contraction:
    the first round's entry at row `r = 512 · (t / 8) + p`. -/
theorem out0_eq (t : Fin cfg0.N) (h1 : t.val % 8 = 7) (p : Fin 512) (q : Fin 64) (r : Fin 16384)
    (hr : r.val = 512 * (t.val / 8) + p.val) :
    ((outsAt0 (F := Ideal) V c t.val t.isLt).1 : Vec Ideal S512x64 .f32) (ix2 p q) = Spec.step (matA0 V c) (tabS0 V c) (ix2 r q) := by
  have h0 : ¬t.val % 8 = 0 := by omega
  have hp6 : (t.val - 1) % 8 = 6 := by omega
  have hpd : (t.val - 1) / 8 = t.val / 8 := by omega
  obtain rfl : r = ⟨512 * (t.val / 8) + p.val, row_lt0 t.val t.isLt p⟩ := Fin.ext hr
  rw [outsAt0_C V c t h0 h1]
  unfold stepC0
  dsimp only
  rw [outC0_eq]
  refine (step0_apply V c t _ p q).trans ?_
  rw [acc0_eq V c (t.val - 1) _ p q ⟨512 * (t.val / 8) + p.val, row_lt0 t.val t.isLt p⟩ (by rw [hpd]), hp6, h1, step_eq_sum,
    ← sum_range_block (K := 8) (B := 2048) rfl]
  exact (Finset.sum_range_succ _ 7).symm

/-- At every point the narrowed block stored into the copy's block is, entry for entry, the matrix block. -/
theorem nar0_eq (t : Fin cfg0.N) : ((outsAt0 (F := Ideal) V c t.val t.isLt).2.1 : Vec Ideal S512x2048 .bf16) = k0_pay1 (F := Ideal) (iblk0 V c 0 t) := by
  by_cases h0 : t.val % 8 = 0
  · rw [outsAt0_A V c t h0]
    unfold stepA0
    dsimp only
    rw [narA0_eq]
  · by_cases h1 : t.val % 8 = 7
    · rw [outsAt0_C V c t h0 h1]
      unfold stepC0
      dsimp only
      rw [narC0_eq]
    · rw [outsAt0_B V c t h0 h1]
      unfold stepB0
      dsimp only
      rw [narB0_eq]

/-! ## The first round's array -/

/-- What a flushing point writes back to the first round's array is its block of the matrix times the stacked table. -/
theorem flushed0_2_eq (t : Fin cfg0.N) (hf : (cfg0.win 2).flush t = true) :
    (dat0 (F := Ideal) V c).flushed 2 t = ((cfg0.win 2).blk t).view.read (Elt Ideal) (Spec.step (matA0 V c) (tabS0 V c)) := by
  have h1 : t.val % 8 = 7 := (flush0_2 t).mp hf
  obtain ⟨-, -, -, -, e4, e5, -⟩ := idx_facts0 t
  have key : ∀ (p : Fin 512) (q : Fin 64), ((outsAt0 (F := Ideal) V c t.val t.isLt).1 : Vec Ideal S512x64 .f32) (ix2 p q)
      = Spec.step (matA0 V c) (tabS0 V c) (ix2 ⟨512 * (t.val / 8) + p.val, row_lt0 t.val t.isLt p⟩ q) :=
    fun p q => out0_eq V c t h1 p q _ rfl
  generalize Spec.step (matA0 V c) (tabS0 V c) = G at key ⊢
  show (cfg0.win 2).cut (grid0.coords t) ((dat0 V c).after 2 t) = _
  rw [after0_2]
  funext j
  obtain ⟨p, q, rfl⟩ : ∃ (p : Fin 512) (q : Fin 64), j = ix2 p q := ⟨j 0, j 1, eq_ix2 j⟩
  rw [View.read_apply]
  refine (key p q).trans (congrArg G (funext fun a => Fin.ext ?_))
  match a with
  | ⟨0, _⟩ => show 512 * (t.val / 8) + p.val = win0_2.index t 0 * 512 + 1 * p.val; rw [e4]; omega
  | ⟨1, _⟩ => show q.val = win0_2.index t 1 * 64 + 1 * q.val; rw [e5]; omega

/-- Every row of the first round's array lies in the block of its row block's last point. -/
theorem cover0_2 (i : (⟨2, ![16384, 64]⟩ : Shape).Idx) :
    ∃ t : Fin cfg0.N, (cfg0.win 2).flush t = true ∧ i ∈ ((cfg0.win 2).blk t).view.set := by
  have hN : cfg0.N = 256 := N_0
  have hi0 : (i 0).val < 16384 := idx2_lt0 i
  have hi1 : (i 1).val < 64 := idx2_lt1 i
  have htN : 8 * ((i 0).val / 512) + 7 < cfg0.N := by omega
  refine ⟨⟨8 * ((i 0).val / 512) + 7, htN⟩, (flush0_2 _).mpr (by show (8 * ((i 0).val / 512) + 7) % 8 = 7; omega), ?_⟩
  obtain ⟨-, -, -, -, e4, e5, -⟩ := idx_facts0 ⟨8 * ((i 0).val / 512) + 7, htN⟩
  have e4' : win0_2.index ⟨8 * ((i 0).val / 512) + 7, htN⟩ 0 = (i 0).val / 512 := by rw [e4]; show (8 * ((i 0).val / 512) + 7) / 8 = _; omega
  show i ∈ ((View.whole main_v1_0).slice (win0_2.rect ⟨8 * ((i 0).val / 512) + 7, htN⟩)).set
  rw [View.set_slice_whole, Rect.mem_set_unit]
  intro a
  match a with
  | ⟨0, _⟩ =>
    show win0_2.index ⟨8 * ((i 0).val / 512) + 7, htN⟩ 0 * 512 ≤ (i 0).val ∧ (i 0).val < win0_2.index ⟨8 * ((i 0).val / 512) + 7, htN⟩ 0 * 512 + 512
    rw [e4']; omega
  | ⟨1, _⟩ =>
    show win0_2.index ⟨8 * ((i 0).val / 512) + 7, htN⟩ 1 * 64 ≤ (i 1).val ∧ (i 1).val < win0_2.index ⟨8 * ((i 0).val / 512) + 7, htN⟩ 1 * 64 + 64
    rw [e5]; omega

/-- The first round's array ends holding the matrix as the pass finds it times the stacked table as it finds it. -/
theorem final0_e1 : (dat0 (F := Ideal) V c).arrAt 2 cfg0.N = Spec.step (V c main_arg0) (V c main_v0) :=
  (dat0 (F := Ideal) V c).arrAt_eq_of_cover 2 (Spec.step (matA0 V c) (tabS0 V c)) (flushed0_2_eq V c) (cover0_2)

/-! ## The copy of the matrix -/

/-- What each point writes back to the copy is its block of the matrix. -/
theorem flushed0_3_eq (t : Fin cfg0.N) (hf : (cfg0.win 3).flush t = true) :
    (dat0 (F := Ideal) V c).flushed 3 t = ((cfg0.win 3).blk t).view.read (Elt Ideal) (matA0 V c) := by
  obtain ⟨-, -, -, -, -, -, e6, e7, -⟩ := idx_facts0 t
  have key : ∀ (p : Fin 512) (k : Fin 2048), ((outsAt0 (F := Ideal) V c t.val t.isLt).2.1 : Vec Ideal S512x2048 .bf16) (ix2 p k)
      = matA0 V c (ix2 ⟨512 * (t.val / 8) + p.val, row_lt0 t.val t.isLt p⟩ ⟨2048 * (t.val % 8) + k.val, col_lt0 t.val k⟩) := fun p k => by
    rw [nar0_eq V c t]
    exact (narrowed_apply (iblk0 V c 0 t) p k).trans (iblk0_0_apply V c t p k _ rfl rfl)
  generalize matA0 V c = G at key ⊢
  show (cfg0.win 3).cut (grid0.coords t) ((dat0 V c).after 3 t) = _
  rw [after0_3]
  funext j
  obtain ⟨p, k, rfl⟩ : ∃ (p : Fin 512) (k : Fin 2048), j = ix2 p k := ⟨j 0, j 1, eq_ix2 j⟩
  rw [View.read_apply]
  refine (key p k).trans (congrArg G (funext fun a => Fin.ext ?_))
  match a with
  | ⟨0, _⟩ => show 512 * (t.val / 8) + p.val = win0_3.index t 0 * 512 + 1 * p.val; rw [e6]; omega
  | ⟨1, _⟩ => show 2048 * (t.val % 8) + k.val = win0_3.index t 1 * 2048 + 1 * k.val; rw [e7]; omega

/-- Every entry of the copy lies in the block of the point of its row block and column block. -/
theorem cover0_3 (i : (⟨2, ![16384, 16384]⟩ : Shape).Idx) :
    ∃ t : Fin cfg0.N, (cfg0.win 3).flush t = true ∧ i ∈ ((cfg0.win 3).blk t).view.set := by
  have hN : cfg0.N = 256 := N_0
  have hi0 : (i 0).val < 16384 := idx2_lt0 i
  have hi1 : (i 1).val < 16384 := idx2_lt1 i
  have htN : 8 * ((i 0).val / 512) + (i 1).val / 2048 < cfg0.N := by omega
  refine ⟨⟨8 * ((i 0).val / 512) + (i 1).val / 2048, htN⟩, flush0_3 _, ?_⟩
  obtain ⟨-, -, -, -, -, -, e6, e7, -⟩ := idx_facts0 ⟨8 * ((i 0).val / 512) + (i 1).val / 2048, htN⟩
  have e6' : win0_3.index ⟨8 * ((i 0).val / 512) + (i 1).val / 2048, htN⟩ 0 = (i 0).val / 512 := by
    rw [e6]; show (8 * ((i 0).val / 512) + (i 1).val / 2048) / 8 = _; omega
  have e7' : win0_3.index ⟨8 * ((i 0).val / 512) + (i 1).val / 2048, htN⟩ 1 = (i 1).val / 2048 := by
    rw [e7]; show (8 * ((i 0).val / 512) + (i 1).val / 2048) % 8 = _; omega
  show i ∈ ((View.whole main_v1_1).slice (win0_3.rect ⟨8 * ((i 0).val / 512) + (i 1).val / 2048, htN⟩)).set
  rw [View.set_slice_whole, Rect.mem_set_unit]
  intro a
  match a with
  | ⟨0, _⟩ =>
    show win0_3.index ⟨8 * ((i 0).val / 512) + (i 1).val / 2048, htN⟩ 0 * 512 ≤ (i 0).val ∧ (i 0).val < win0_3.index ⟨8 * ((i 0).val / 512) + (i 1).val / 2048, htN⟩ 0 * 512 + 512
    rw [e6']; omega
  | ⟨1, _⟩ =>
    show win0_3.index ⟨8 * ((i 0).val / 512) + (i 1).val / 2048, htN⟩ 1 * 2048 ≤ (i 1).val ∧ (i 1).val < win0_3.index ⟨8 * ((i 0).val / 512) + (i 1).val / 2048, htN⟩ 1 * 2048 + 2048
    rw [e7']; omega

/-- The copy of the matrix ends equal to the matrix as the pass finds it, entry for entry. -/
theorem final0_a16_mat : (dat0 (F := Ideal) V c).arrAt 3 cfg0.N = matA0 V c :=
  (dat0 (F := Ideal) V c).arrAt_eq_of_cover 3 (matA0 V c) (flushed0_3_eq V c) (cover0_3)

/-- The same, stated on the array the pass finds. -/
theorem final0_a16 : (dat0 (F := Ideal) V c).arrAt 3 cfg0.N = V c main_arg0 := final0_a16_mat V c

end Totals

end Cert.KernelIdeal.HandValue

end
-- ==== Proof.KI.R2Value.lean ====
import proofs.«123882_g45509473468512_cont_8to1_c_438_2_alg».proof.Proof.KI.R2Frame
import proofs.«123882_g45509473468512_cont_8to1_c_438_2_alg».proof.Proof.KI.R1Value
import proofs.«123882_g45509473468512_cont_8to1_c_438_2_alg».proof.Proof.KI.Payloads
import proofs.«123882_g45509473468512_cont_8to1_c_438_2_alg».proof.Proof.Spec
import proofs.«123882_g45509473468512_cont_8to1_c_438_2_alg».proof.Proof.Algebra
import Idealize.ShloMosaic.Lib.Pipeline.Value
import Idealize.ShloMosaic.Lib.Tactic

/-!
# The third pass computes the mean of the four stages

Point `t` of the grid is row block `t / 8` and column block `t % 8`. As in the second pass, the running total after
point `t` is, at entry `(p, q)`, the first `t % 8 + 1` blocks of the contraction `∑ k, a (512 · (t / 8) + p, k) · e₂ (k, q)`.
At the last column block the body adds the row block's entries of the three tables it is given to the finished
contraction, `((e₀ + e₁) + e₂) + a · e₂`, multiplies by a quarter, and stores that into the result's rows
`512 · (t / 8) …`. The 32 row blocks tile the result.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Proof
open scoped BigOperators

/-! ## What each case leaves, as the body's arithmetic of what it loaded -/

section Pieces
variable {F : FTy → Type} [FloatOps F]

/-- The 2048 rows of the table the body loads at a point: those of the point's column block. -/
abbrev rows2 (i : grid2.Coords) (x1 : Vec F S16384x64 .f32) : Vec F S2048x64 .f32 :=
  View.ld x1 (Rect.unit (s := S16384x64) (k2_off1 i) S2048x64.size (k2_off1_inb i))

/-- The 512 rows of the table the body loads at the last column block: those of the point's row block. -/
abbrev trows2 (i : grid2.Coords) (h : k2_cond2 i = 1#1) (x1 : Vec F S16384x64 .f32) : Vec F S512x64 .f32 :=
  View.ld x1 (Rect.unit (s := S16384x64) (k2_off2 i) S512x64.size (k2_off2_inb i h))

/-- A middle column block: the running total found plus the block product. -/
theorem soutB2_eq (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x2048 .bf16) (x1 : Vec F S16384x64 .f32) (x2 : Vec F S512x64 .f32) (x3 : Vec F S512x64 .f32) (xs0 : Vec F S512x64 .f32) :
    sout2_B_0 c i arg2 harg2 arg3 harg3 arg4 harg4 arg5 harg5 arg6 harg6 arg7 harg7 hc0 hc1 x0 x1 x2 x3 xs0 = k2_pay2 (rows2 i x1) x0 xs0 := by
  unfold sout2_B_0
  rw [View.read_writes_eq_canon _ _ _ (scover2_B_0 c i arg2 harg2 arg3 harg3 arg4 harg4 arg5 harg5 arg6 harg6 arg7 harg7 hc0 hc1 x0 x1 x2 x3 xs0)]
  unfold kernelRun2_B
  dsimp only
  sl_unfold_words
  rw [View.canon_unit_zero hz2]
  simp only [View.readAt_eq_ld, harg2.read_unread, harg3.read_unread, harg7.read_unread, View.ld_unit_zero (S := S512x2048) hz2,
    View.ld_unit_zero (S := S512x64) hz2]
  rfl

/-- The first column block: zero plus the block product. -/
theorem soutA2_eq (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x2048 .bf16) (x1 : Vec F S16384x64 .f32) (x2 : Vec F S512x64 .f32) (x3 : Vec F S512x64 .f32) :
    sout2_A_0 c i arg2 harg2 arg3 harg3 arg4 harg4 arg5 harg5 arg6 harg6 arg7 harg7 hc0 hc1 x0 x1 x2 x3 = k2_pay2 (rows2 i x1) x0 k2_pay1 := by
  unfold sout2_A_0
  rw [View.read_writes_eq_canon _ _ _ (scover2_A_0 c i arg2 harg2 arg3 harg3 arg4 harg4 arg5 harg5 arg6 harg6 arg7 harg7 hc0 hc1 x0 x1 x2 x3)]
  unfold kernelRun2_A
  dsimp only
  sl_unfold_words
  rw [View.canon_cons_unit_zero (S := S512x64) hz2, View.readCov_unit_zero (S := S512x64) _ hz2]
  simp only [View.readAt_eq_ld, harg2.read_unread, harg3.read_unread, View.ld_unit_zero (S := S512x2048) hz2]
  rfl

/-- The last column block: the running total found plus the block product … -/
theorem soutC2_eq (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) :
    sout2_C_0 c i arg2 harg2 arg3 harg3 arg4 harg4 arg5 harg5 arg6 harg6 arg7 harg7 hc0 hc1 x0 x1 x2 x3 xs0 = k2_pay2 (rows2 i x1) x0 xs0 := by
  unfold sout2_C_0
  rw [View.read_writes_eq_canon _ _ _ (scover2_C_0 c i arg2 harg2 arg3 harg3 arg4 harg4 arg5 harg5 arg6 harg6 arg7 harg7 hc0 hc1 x0 x1 x2 x3 xs0)]
  unfold kernelRun2_C
  dsimp only
  sl_unfold_words
  rw [View.canon_unit_zero hz2]
  simp only [View.readAt_eq_ld, harg2.read_unread, harg3.read_unread, harg7.read_unread, View.ld_unit_zero (S := S512x2048) hz2,
    View.ld_unit_zero (S := S512x64) hz2]
  rfl

/-- … and what is stored into the output block: the mean's arithmetic of the three table blocks and that total. -/
theorem outC2_eq (c : Dev nD) (i : grid2.Coords) (arg2 : Memref sig .tc .vmem S512x2048 .bf16) (harg2 : arg2.IsWhole) (arg3 : Memref sig .tc .vmem S16384x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x2048 .bf16) (x1 : Vec F S16384x64 .f32) (x2 : Vec F S512x64 .f32) (x3 : Vec F S512x64 .f32) (xs0 : Vec F S512x64 .f32) :
    out2_C_4 c i arg2 harg2 arg3 harg3 arg4 harg4 arg5 harg5 arg6 harg6 arg7 harg7 hc0 hc1 x0 x1 x2 x3 xs0 = k2_pay3 (trows2 i hc1 x1) x2 x3 (k2_pay2 (rows2 i x1) x0 xs0) := by
  unfold out2_C_4
  rw [View.read_writes_eq_canon _ _ _ (cover2_C_4 c i arg2 harg2 arg3 harg3 arg4 harg4 arg5 harg5 arg6 harg6 arg7 harg7 hc0 hc1 x0 x1 x2 x3 xs0)]
  unfold kernelRun2_C
  dsimp only
  sl_unfold_words
  rw [View.canon_unit_zero hz2, View.readCov_unit_zero (S := S512x64) _ hz2]
  simp only [View.readAt_eq_ld, harg2.read_unread, harg3.read_unread, harg4.read_unread, harg5.read_unread, harg7.read_unread,
    View.ld_unit_zero (S := S512x2048) hz2, View.ld_unit_zero (S := S512x64) hz2]
  rfl

end Pieces

/-! ## The blocks the body reads, as entries of the arrays the pass finds -/

/-- The printed index maps, decided once over the grid: the matrix block is block `(t / 8, t % 8)`, the table is read
    whole, the two table blocks and the output block are row block `t / 8`, and the body's two row offsets into the
    table are `2048 · (t % 8)` and `512 · (t / 8)`. -/
theorem idx_facts2 : ∀ t : Fin cfg2.N,
    win2_0.index t (0 : Fin 2) = t.val / 8 ∧ win2_0.index t (1 : Fin 2) = t.val % 8
    ∧ win2_1.index t (0 : Fin 2) = 0 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0
    ∧ win2_4.index t (0 : Fin 2) = t.val / 8 ∧ win2_4.index t (1 : Fin 2) = 0
    ∧ k2_off1 (grid2.coords t) (0 : Fin 2) = 2048 * (t.val % 8) ∧ k2_off1 (grid2.coords t) (1 : Fin 2) = 0
    ∧ k2_off2 (grid2.coords t) (0 : Fin 2) = 512 * (t.val / 8) ∧ k2_off2 (grid2.coords t) (1 : Fin 2) = 0 :=
  (by decide +kernel : ∀ t : Fin grid2.N, _)

section Values
variable (V : (c : Dev nD) → (b : Ref sig .tc) → Buf (Elt Ideal) ((c : Thread nD τ).loc b)) (c : Dev nD)

/-- The matrix as the pass finds it. -/
abbrev matA2 : Spec.Mat 16384 16384 := V c main_v1_1
/-- The three tables as the pass finds them: the stacked table, the first round, the second round. -/
abbrev tabE0 : Spec.Mat 16384 64 := V c main_v0
abbrev tabE1 : Spec.Mat 16384 64 := V c main_v1_0
abbrev tabE2 : Spec.Mat 16384 64 := V c main_v2

theorem row_lt2 (n : ℕ) (hn : n < cfg2.N) (p : Fin 512) : 512 * (n / 8) + p.val < 16384 := by
  have hN : cfg2.N = 256 := N_2
  have := p.isLt; omega

/-- Entry `(p, k)` of the matrix block at point `t`: the matrix at row `512 · (t / 8) + p`, column `2048 · (t % 8) + k`. -/
theorem iblk2_0_apply (t : Fin cfg2.N) (p : Fin 512) (k : Fin 2048) (j : (⟨2, ![16384, 16384]⟩ : Shape).Idx)
    (hj0 : (j 0).val = 512 * (t.val / 8) + p.val) (hj1 : (j 1).val = 2048 * (t.val % 8) + k.val) :
    (iblk2 V c 0 t : Vec Ideal S512x2048 .bf16) (ix2 p k) = matA2 V c j := by
  obtain ⟨e0, e1, -⟩ := idx_facts2 t
  unfold iblk2
  rw [View.read_apply]
  show V c main_v1_1 _ = V c main_v1_1 j
  congr 1
  funext a
  apply Fin.ext
  match a with
  | ⟨0, _⟩ => show win2_0.index t 0 * 512 + 1 * p.val = (j 0).val; rw [e0, hj0]; omega
  | ⟨1, _⟩ => show win2_0.index t 1 * 2048 + 1 * k.val = (j 1).val; rw [e1, hj1]; omega

/-- The second round's table's block at any point is the table. -/
theorem iblk2_1_apply (t : Fin cfg2.N) (j : (⟨2, ![16384, 64]⟩ : Shape).Idx) :
    (iblk2 V c 1 t : Vec Ideal S16384x64 .f32) j = tabE2 V c j := by
  obtain ⟨-, -, e2, e3, -⟩ := idx_facts2 t
  unfold iblk2
  rw [View.read_apply]
  show V c main_v2 _ = V c main_v2 j
  congr 1
  funext a
  apply Fin.ext
  match a with
  | ⟨0, _⟩ => show win2_1.index t 0 * 16384 + 1 * (j 0).val = (j 0).val; rw [e2]; omega
  | ⟨1, _⟩ => show win2_1.index t 1 * 64 + 1 * (j 1).val = (j 1).val; rw [e3]; omega

/-- Entry `(p, q)` of the stacked table's block at point `t`: the stacked table at row `512 · (t / 8) + p`. -/
theorem iblk2_2_apply (t : Fin cfg2.N) (p : Fin 512) (q : Fin 64) (j : (⟨2, ![16384, 64]⟩ : Shape).Idx)
    (hj0 : (j 0).val = 512 * (t.val / 8) + p.val) (hj1 : (j 1).val = q.val) :
    (iblk2 V c 2 t : Vec Ideal S512x64 .f32) (ix2 p q) = tabE0 V c j := by
  obtain ⟨-, -, -, -, e4, e5, -⟩ := idx_facts2 t
  unfold iblk2
  rw [View.read_apply]
  show V c main_v0 _ = V c main_v0 j
  congr 1
  funext a
  apply Fin.ext
  match a with
  | ⟨0, _⟩ => show win2_2.index t 0 * 512 + 1 * p.val = (j 0).val; rw [e4, hj0]; omega
  | ⟨1, _⟩ => show win2_2.index t 1 * 64 + 1 * q.val = (j 1).val; rw [e5, hj1]; omega

/-- Entry `(p, q)` of the first round's block at point `t`: the first round at row `512 · (t / 8) + p`. -/
theorem iblk2_3_apply (t : Fin cfg2.N) (p : Fin 512) (q : Fin 64) (j : (⟨2, ![16384, 64]⟩ : Shape).Idx)
    (hj0 : (j 0).val = 512 * (t.val / 8) + p.val) (hj1 : (j 1).val = q.val) :
    (iblk2 V c 3 t : Vec Ideal S512x64 .f32) (ix2 p q) = tabE1 V c j := by
  obtain ⟨-, -, -, -, -, -, e6, e7, -⟩ := idx_facts2 t
  unfold iblk2
  rw [View.read_apply]
  show V c main_v1_0 _ = V c main_v1_0 j
  congr 1
  funext a
  apply Fin.ext
  match a with
  | ⟨0, _⟩ => show win2_3.index t 0 * 512 + 1 * p.val = (j 0).val; rw [e6, hj0]; omega
  | ⟨1, _⟩ => show win2_3.index t 1 * 64 + 1 * q.val = (j 1).val; rw [e7, hj1]; omega

/-- Row `k` of the 2048 rows the body loads at point `t` is row `2048 · (t % 8) + k` of the second round's table. -/
theorem rows2_apply (t : Fin cfg2.N) (k : Fin 2048) (q : Fin 64) (j : (⟨2, ![16384, 64]⟩ : Shape).Idx)
    (hj0 : (j 0).val = 2048 * (t.val % 8) + k.val) (hj1 : (j 1).val = q.val) :
    rows2 (grid2.coords t) (iblk2 V c 1 t : Vec Ideal S16384x64 .f32) (ix2 k q) = tabE2 V c j := by
  obtain ⟨-, -, -, -, -, -, -, -, -, -, e10, e11, -⟩ := idx_facts2 t
  show (iblk2 V c 1 t : Vec Ideal S16384x64 .f32) _ = _
  rw [iblk2_1_apply]
  congr 1
  funext a
  apply Fin.ext
  match a with
  | ⟨0, _⟩ => show k2_off1 (grid2.coords t) 0 + 1 * k.val = (j 0).val; rw [e10, hj0]; omega
  | ⟨1, _⟩ => show k2_off1 (grid2.coords t) 1 + 1 * q.val = (j 1).val; rw [e11, hj1]; omega

/-- Row `p` of the 512 rows the body loads at the last column block is row `512 · (t / 8) + p` of the second round's table. -/
theorem trows2_apply (t : Fin cfg2.N) (h : k2_cond2 (grid2.coords t) = 1#1) (p : Fin 512) (q : Fin 64) (j : (⟨2, ![16384, 64]⟩ : Shape).Idx)
    (hj0 : (j 0).val = 512 * (t.val / 8) + p.val) (hj1 : (j 1).val = q.val) :
    trows2 (grid2.coords t) h (iblk2 V c 1 t : Vec Ideal S16384x64 .f32) (ix2 p q) = tabE2 V c j := by
  obtain ⟨-, -, -, -, -, -, -, -, -, -, -, -, e12, e13⟩ := idx_facts2 t
  show (iblk2 V c 1 t : Vec Ideal S16384x64 .f32) _ = _
  rw [iblk2_1_apply]
  congr 1
  funext a
  apply Fin.ext
  match a with
  | ⟨0, _⟩ => show k2_off2 (grid2.coords t) 0 + 1 * p.val = (j 0).val; rw [e12, hj0]; omega
  | ⟨1, _⟩ => show k2_off2 (grid2.coords t) 1 + 1 * q.val = (j 1).val; rw [e13, hj1]; omega

/-! ## The running total -/

open Cert.LibBlockRuns in
/-- What the body stores into its running total at point `t`, from the total `xs` it found: at entry `(p, q)`, `xs`
    there plus block `t % 8` of the contraction for row `512 · (t / 8) + p`. -/
theorem step2_apply (t : Fin cfg2.N) (xs : Vec Ideal S512x64 .f32) (p : Fin 512) (q : Fin 64) :
    k2_pay2 (F := Ideal) (rows2 (grid2.coords t) (iblk2 V c 1 t)) (iblk2 V c 0 t) xs (ix2 p q)
      = xs (ix2 p q) + block 8 2048 rfl (term (matA2 V c) (tabE2 V c) ⟨512 * (t.val / 8) + p.val, row_lt2 t.val t.isLt p⟩ q) (t.val % 8) := by
  have hlt : t.val % 8 < 8 := Nat.mod_lt _ (by norm_num)
  refine (accumulate2_apply (rows2 (grid2.coords t) (iblk2 V c 1 t)) (iblk2 V c 0 t) xs p q).trans ?_
  rw [block_of_lt 8 2048 rfl _ (t.val % 8) hlt]
  refine congrArg (xs (ix2 p q) + ·) (Finset.sum_congr rfl fun k _ => ?_)
  unfold term
  rw [iblk2_0_apply V c t p k (ix2 ⟨512 * (t.val / 8) + p.val, row_lt2 t.val t.isLt p⟩ ⟨2048 * (t.val % 8) + k.val, Cert.LibBlockSumGen.block_index_lt (⟨t.val % 8, hlt⟩ : Fin 8) k⟩) rfl rfl,
    rows2_apply V c t k q (ix2 ⟨2048 * (t.val % 8) + k.val, Cert.LibBlockSumGen.block_index_lt (⟨t.val % 8, hlt⟩ : Fin 8) k⟩ q) rfl rfl]

end Values

section Totals
variable (V : (c : Dev nD) → (b : Ref sig .tc) → Buf (Elt Ideal) ((c : Thread nD τ).loc b)) (c : Dev nD)

open Cert.LibBlockRuns Cert.LibBlockSumGen

/-- The running total after point `t`, at entry `(p, q)`: zero at the first column block, else what the point before
    left, plus block `t % 8` of the contraction for row `r = 512 · (t / 8) + p`. -/
theorem acc2_step (t : Fin cfg2.N) (p : Fin 512) (q : Fin 64) (r : Fin 16384) (hr : r.val = 512 * (t.val / 8) + p.val) :
    ((outsAt2 (F := Ideal) V c t.val t.isLt).2 : Vec Ideal S512x64 .f32) (ix2 p q)
      = (if t.val % 8 = 0 then (0 : EReal)
          else ((outsAt2 (F := Ideal) V c (t.val - 1) (Nat.lt_of_le_of_lt (Nat.sub_le _ _) t.isLt)).2 : Vec Ideal S512x64 .f32) (ix2 p q))
        + block 8 2048 rfl (term (matA2 V c) (tabE2 V c) r q) (t.val % 8) := by
  obtain rfl : r = ⟨512 * (t.val / 8) + p.val, row_lt2 t.val t.isLt p⟩ := Fin.ext hr
  by_cases h0 : t.val % 8 = 0
  · rw [if_pos h0, outsAt2_A V c t h0]
    unfold stepA2
    dsimp only
    rw [soutA2_eq]
    refine (step2_apply V c t (k2_pay1 (F := Ideal)) p q).trans ?_
    rw [reset2_zero]
  · rw [if_neg h0]
    by_cases h1 : t.val % 8 = 7
    · rw [outsAt2_C V c t h0 h1]
      unfold stepC2
      dsimp only
      rw [soutC2_eq]
      exact step2_apply V c t _ p q
    · rw [outsAt2_B V c t h0 h1]
      unfold stepB2
      dsimp only
      rw [soutB2_eq]
      exact step2_apply V c t _ p q

/-- After point `n` the running total at entry `(p, q)` is the first `n % 8 + 1` blocks of the contraction for row
    `512 · (n / 8) + p`, accumulated in order. -/
theorem acc2_eq : ∀ (n : ℕ) (hn : n < cfg2.N) (p : Fin 512) (q : Fin 64) (r : Fin 16384), r.val = 512 * (n / 8) + p.val →
    ((outsAt2 (F := Ideal) V c n hn).2 : Vec Ideal S512x64 .f32) (ix2 p q)
      = ∑ i ∈ Finset.range (n % 8 + 1), block 8 2048 rfl (term (matA2 V c) (tabE2 V c) r q) i := by
  intro n
  induction n with
  | zero =>
    intro hn p q r hr
    refine (acc2_step V c ⟨0, hn⟩ p q r hr).trans ?_
    dsimp only
    rw [if_pos (Nat.zero_mod 8), zero_add, Nat.zero_mod, Finset.sum_range_one]
  | succ n ih =>
    intro hn p q r hr
    refine (acc2_step V c ⟨n + 1, hn⟩ p q r hr).trans ?_
    dsimp only
    by_cases h0 : (n + 1) % 8 = 0
    · rw [if_pos h0, zero_add, h0, Finset.sum_range_one]
    · have e1 : (n + 1) % 8 = n % 8 + 1 := by omega
      have e2 : (n + 1) / 8 = n / 8 := by omega
      rw [if_neg h0]
      rw [show ((outsAt2 (F := Ideal) V c (n + 1 - 1) (Nat.lt_of_le_of_lt (Nat.sub_le _ _) hn)).2 : Vec Ideal S512x64 .f32) (ix2 p q)
          = _ from ih (Nat.lt_of_succ_lt hn) p q r (by rw [hr, e2])]
      rw [e1, Finset.sum_range_succ _ (n % 8 + 1)]

/-- The mean of the four stages as the pass finds its three tables and the matrix. -/
def mean2 : Spec.Mat 16384 64 := fun i =>
  (tabE0 V c i + tabE1 V c i + tabE2 V c i + Spec.step (matA2 V c) (tabE2 V c) i) * ((1 / 4 : ℝ) : EReal)

/-- At the last column block the value stored into the output block, at entry `(p, q)`, is the mean at row
    `r = 512 · (t / 8) + p`. -/
theorem out2_eq (t : Fin cfg2.N) (h1 : t.val % 8 = 7) (p : Fin 512) (q : Fin 64) (r : Fin 16384)
    (hr : r.val = 512 * (t.val / 8) + p.val) :
    ((outsAt2 (F := Ideal) V c t.val t.isLt).1 : Vec Ideal S512x64 .f32) (ix2 p q) = mean2 V c (ix2 r q) := by
  have h0 : ¬t.val % 8 = 0 := by omega
  have hp6 : (t.val - 1) % 8 = 6 := by omega
  have hpd : (t.val - 1) / 8 = t.val / 8 := by omega
  obtain rfl : r = ⟨512 * (t.val / 8) + p.val, row_lt2 t.val t.isLt p⟩ := Fin.ext hr
  rw [outsAt2_C V c t h0 h1]
  unfold stepC2
  dsimp only
  rw [outC2_eq]
  refine (mean_payload_quarter (trows2 (grid2.coords t) ((hcond2_1 t).mpr h1) (iblk2 V c 1 t)) (iblk2 V c 2 t) (iblk2 V c 3 t)
    (k2_pay2 (F := Ideal) (rows2 (grid2.coords t) (iblk2 V c 1 t)) (iblk2 V c 0 t) _) p q).trans ?_
  unfold mean2
  rw [iblk2_2_apply V c t p q (ix2 ⟨512 * (t.val / 8) + p.val, row_lt2 t.val t.isLt p⟩ q) rfl rfl,
    iblk2_3_apply V c t p q (ix2 ⟨512 * (t.val / 8) + p.val, row_lt2 t.val t.isLt p⟩ q) rfl rfl,
    trows2_apply V c t _ p q (ix2 ⟨512 * (t.val / 8) + p.val, row_lt2 t.val t.isLt p⟩ q) rfl rfl,
    step2_apply V c t _ p q,
    acc2_eq V c (t.val - 1) _ p q ⟨512 * (t.val / 8) + p.val, row_lt2 t.val t.isLt p⟩ (by rw [hpd]), hp6, h1, step_eq_sum,
    ← sum_range_block (K := 8) (B := 2048) rfl]
  exact congrArg (fun x => (tabE0 V c _ + tabE1 V c _ + tabE2 V c _ + x) * ((1 / 4 : ℝ) : EReal)) (Finset.sum_range_succ _ 7).symm

/-! ## The result array -/

/-- What a flushing point writes back is its block of the mean. -/
theorem flushed2_eq (t : Fin cfg2.N) (hf : (cfg2.win 4).flush t = true) :
    (dat2 (F := Ideal) V c).flushed 4 t = ((cfg2.win 4).blk t).view.read (Elt Ideal) (mean2 V c) := by
  have h1 : t.val % 8 = 7 := (flush2_4 t).mp hf
  obtain ⟨-, -, -, -, -, -, -, -, e8, e9, -⟩ := idx_facts2 t
  have key : ∀ (p : Fin 512) (q : Fin 64), ((outsAt2 (F := Ideal) V c t.val t.isLt).1 : Vec Ideal S512x64 .f32) (ix2 p q)
      = mean2 V c (ix2 ⟨512 * (t.val / 8) + p.val, row_lt2 t.val t.isLt p⟩ q) :=
    fun p q => out2_eq V c t h1 p q _ rfl
  generalize mean2 V c = G at key ⊢
  show (cfg2.win 4).cut (grid2.coords t) ((dat2 V c).after 4 t) = _
  rw [after2_4]
  funext j
  obtain ⟨p, q, rfl⟩ : ∃ (p : Fin 512) (q : Fin 64), j = ix2 p q := ⟨j 0, j 1, eq_ix2 j⟩
  rw [View.read_apply]
  refine (key p q).trans (congrArg G (funext fun a => Fin.ext ?_))
  match a with
  | ⟨0, _⟩ => show 512 * (t.val / 8) + p.val = win2_4.index t 0 * 512 + 1 * p.val; rw [e8]; omega
  | ⟨1, _⟩ => show q.val = win2_4.index t 1 * 64 + 1 * q.val; rw [e9]; omega

/-- Every row of the result lies in the block of its row block's last point. -/
theorem cover2 (i : (⟨2, ![16384, 64]⟩ : Shape).Idx) :
    ∃ t : Fin cfg2.N, (cfg2.win 4).flush t = true ∧ i ∈ ((cfg2.win 4).blk t).view.set := by
  have hN : cfg2.N = 256 := N_2
  have hi0 : (i 0).val < 16384 := idx2_lt0 i
  have hi1 : (i 1).val < 64 := idx2_lt1 i
  have htN : 8 * ((i 0).val / 512) + 7 < cfg2.N := by omega
  refine ⟨⟨8 * ((i 0).val / 512) + 7, htN⟩, (flush2_4 _).mpr (by show (8 * ((i 0).val / 512) + 7) % 8 = 7; omega), ?_⟩
  obtain ⟨-, -, -, -, -, -, -, -, e8, e9, -⟩ := idx_facts2 ⟨8 * ((i 0).val / 512) + 7, htN⟩
  have e8' : win2_4.index ⟨8 * ((i 0).val / 512) + 7, htN⟩ 0 = (i 0).val / 512 := by rw [e8]; show (8 * ((i 0).val / 512) + 7) / 8 = _; omega
  show i ∈ ((View.whole main_v3).slice (win2_4.rect ⟨8 * ((i 0).val / 512) + 7, htN⟩)).set
  rw [View.set_slice_whole, Rect.mem_set_unit]
  intro a
  match a with
  | ⟨0, _⟩ =>
    show win2_4.index ⟨8 * ((i 0).val / 512) + 7, htN⟩ 0 * 512 ≤ (i 0).val ∧ (i 0).val < win2_4.index ⟨8 * ((i 0).val / 512) + 7, htN⟩ 0 * 512 + 512
    rw [e8']; omega
  | ⟨1, _⟩ =>
    show win2_4.index ⟨8 * ((i 0).val / 512) + 7, htN⟩ 1 * 64 ≤ (i 1).val ∧ (i 1).val < win2_4.index ⟨8 * ((i 0).val / 512) + 7, htN⟩ 1 * 64 + 64
    rw [e9]; omega

/-- The pass's result array ends holding the mean of the three tables it finds and one more round of the matrix on the
    last of them. -/
theorem final2_mean : (dat2 (F := Ideal) V c).arrAt 4 cfg2.N = mean2 V c :=
  (dat2 (F := Ideal) V c).arrAt_eq_of_cover 4 (mean2 V c) (flushed2_eq V c) (cover2)

/-- The same, the mean written out over the arrays the pass finds. -/
theorem final2 : (dat2 (F := Ideal) V c).arrAt 4 cfg2.N
    = fun i => (tabE0 V c i + tabE1 V c i + tabE2 V c i + Spec.step (V c main_v1_1) (V c main_v2) i) * ((1 / 4 : ℝ) : EReal) :=
  final2_mean V c

end Totals

end Cert.KernelIdeal.HandValue

end
-- ==== Proof.KI.Value.lean ====
import proofs.«123882_g45509473468512_cont_8to1_c_438_2_alg».proof.Proof.KI.Ends
import proofs.«123882_g45509473468512_cont_8to1_c_438_2_alg».proof.Proof.KI.HostEnds
import proofs.«123882_g45509473468512_cont_8to1_c_438_2_alg».proof.Proof.KI.R0Value
import proofs.«123882_g45509473468512_cont_8to1_c_438_2_alg».proof.Proof.KI.R1Value
import proofs.«123882_g45509473468512_cont_8to1_c_438_2_alg».proof.Proof.KI.R2Value

/-!
# What the program's two results hold

Followed through the five segments at the ideal values: the stacking leaves the stacked table `e₀`; the first pass
leaves `e₁ = a · e₀` and a copy of the matrix `a` (the narrow format is the identity on extended reals); the second
pass leaves `e₂ = a · e₁`; the third leaves `(e₀ + e₁ + e₂ + a · e₂) · ¼`, the mean of the four stages; the two cuts
are its users' rows and its items' rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Proof

variable (m : (ℓ : Loc nD τ sig) → Buf (Elt Ideal) ℓ) (c : Dev nD)

/-- The three arguments on core `c`: the matrix, the users' table, the items' table. -/
abbrev argA : Spec.Mat 16384 16384 := m ((c : Thread nD τ).loc main_arg0)
abbrev argU : Spec.Mat 4096 64 := m ((c : Thread nD τ).loc main_arg1)
abbrev argV : Spec.Mat 12288 64 := m ((c : Thread nD τ).loc main_arg2)

/-! ## After the stacking -/

theorem W1_v0 : W1 m c main_v0 = Spec.e0 (argU m c) (argV m c) := stack_after (W0 m c)
theorem W1_arg0 : W1 m c main_arg0 = argA m c := (W1_keep m c main_arg0 (by decide)).trans rfl

/-! ## After the first pass -/

theorem W2_v1_0 : W2 m c main_v1_0 = Spec.e1 (argA m c) (argU m c) (argV m c) :=
  (W2_arr m c 2).trans ((final0_e1 (Hand.V1 m) c).trans (by rw [show Hand.V1 m c main_arg0 = argA m c from W1_arg0 m c, show Hand.V1 m c main_v0 = _ from W1_v0 m c]; rfl))
theorem W2_v1_1 : W2 m c main_v1_1 = argA m c :=
  (W2_arr m c 3).trans ((final0_a16 (Hand.V1 m) c).trans (W1_arg0 m c))
theorem W2_v0 : W2 m c main_v0 = Spec.e0 (argU m c) (argV m c) :=
  (W2_arr m c 1).trans (((dat0 (Hand.V1 m) c).arrAt_in 1 rfl _).trans ((A_eq0 (Hand.V1 m) c 1).trans (W1_v0 m c)))

/-! ## After the second pass -/

theorem W3_v2 : W3 m c main_v2 = Spec.e2 (argA m c) (argU m c) (argV m c) :=
  (W3_arr m c 2).trans ((final1 (Hand.V2 m) c).trans (by rw [show Hand.V2 m c main_v1_1 = argA m c from W2_v1_1 m c, show Hand.V2 m c main_v1_0 = _ from W2_v1_0 m c]; rfl))
theorem W3_v1_1 : W3 m c main_v1_1 = argA m c :=
  (W3_arr m c 0).trans (((dat1 (Hand.V2 m) c).arrAt_in 0 rfl _).trans ((A_eq1 (Hand.V2 m) c 0).trans (W2_v1_1 m c)))
theorem W3_v1_0 : W3 m c main_v1_0 = Spec.e1 (argA m c) (argU m c) (argV m c) :=
  (W3_arr m c 1).trans (((dat1 (Hand.V2 m) c).arrAt_in 1 rfl _).trans ((A_eq1 (Hand.V2 m) c 1).trans (W2_v1_0 m c)))
theorem W3_v0 : W3 m c main_v0 = Spec.e0 (argU m c) (argV m c) :=
  (W3_of_ne m c main_v0 (by decide)).trans (W2_v0 m c)

/-! ## After the third pass -/

theorem W4_v3 : W4 m c main_v3 = Spec.mean (argA m c) (argU m c) (argV m c) :=
  (W4_arr m c 4).trans ((final2_mean (Hand.V3 m) c).trans (by
    unfold mean2 tabE0 tabE1 tabE2 matA2
    rw [show Hand.V3 m c main_v0 = _ from W3_v0 m c, show Hand.V3 m c main_v1_0 = _ from W3_v1_0 m c,
      show Hand.V3 m c main_v2 = _ from W3_v2 m c, show Hand.V3 m c main_v1_1 = argA m c from W3_v1_1 m c]; rfl))

/-! ## After the cuts -/

theorem W5_v4 : W5 m c main_v4 = Spec.outU (argA m c) (argU m c) (argV m c) := by
  funext i
  refine (cutU_after (W4 m c) i).trans ?_
  rw [show W4 m c (Proc.devRef .tc main_v3) = _ from W4_v3 m c]; rfl
theorem W5_v5 : W5 m c main_v5 = Spec.outI (argA m c) (argU m c) (argV m c) := by
  funext i
  refine (cutI_after (W4 m c) i).trans ?_
  rw [show W4 m c (Proc.devRef .tc main_v3) = _ from W4_v3 m c]; rfl

/-- THE VALUE RUN: at the ideal values the program runs to the end and its two results are the users' rows and the
    items' rows of the mean of the four stages of its arguments; the arguments end as launched. -/
theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v4) = Spec.outU (argA m c) (argU m c) (argV m c)
      ∧ r.2.mem ((c.tc : Thread nD τ).loc main_v5) = Spec.outI (argA m c) (argU m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v4 (by decide))).trans (W5_v4 m c),
     (h c _ (mem_uc main_v5 (by decide))).trans (W5_v5 m c),
     (h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all (F := Ideal) m ρ)

end Cert.KernelIdeal.HandValue

end
-- ==== Proof.RefValue.lean ====
import proofs.«123882_g45509473468512_cont_8to1_c_438_2_alg».proof.Proof.Gen.ReferenceIdeal.Read
import proofs.«123882_g45509473468512_cont_8to1_c_438_2_alg».proof.Proof.Gen.Pre_finite_inputs
import proofs.«123882_g45509473468512_cont_8to1_c_438_2_alg».proof.Defs
import proofs.«123882_g45509473468512_cont_8to1_c_438_2_alg».proof.Proof.Spec
import proofs.«123882_g45509473468512_cont_8to1_c_438_2_alg».proof.Proof.Algebra

/-!
# The reference computes the mean of the four propagation stages

The reference stacks the two tables, multiplies three times by the matrix, lays the four stages side by side along a
new middle axis, sums over that axis from zero and divides by `4.0`, then cuts the result into the users' rows and
the items' rows. Read index by index over the extended reals this is the specification: the stacked table is
`Spec.stack`, each product is `Spec.step` (entry `(r, c)` the sum over `k` of `a (r, k) · e (k, c)`), the sum over
the middle axis from zero is the plain sum of the four stages, and the quotient by `4` is the product with `1/4`.
-/

noncomputable section

namespace Cert.Proof.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

variable (x0 : (⟨S16384x16384, .f32⟩ : BufTy).Contents (Elt Ideal))
  (x1 : (⟨S4096x64, .f32⟩ : BufTy).Contents (Elt Ideal)) (x2 : (⟨S12288x64, .f32⟩ : BufTy).Contents (Elt Ideal))

/-! ## The stacked table -/

/-- The concatenation of the users' rows and the items' rows along the row axis is the stacked table: a row below
    4096 is the users' row, a row from 4096 on is the items' row 4096 earlier. -/
theorem v0_eq : val_main_v0 (F := Ideal) x1 x2 = Spec.e0 x1 x2 := by
  funext i
  unfold val_main_v0 Spec.e0 Spec.stack
  by_cases h : (i 0).val < 4096
  · rw [dif_pos h]
    exact concatenate_pair_apply_left (t := S16384x64) (s₁ := S4096x64) (s₂ := S12288x64) 0 x1 x2 _ i rfl
      (ix2 ⟨(i 0).val, h⟩ (i 1)) (fun b => by match b with | ⟨0, _⟩ => rfl | ⟨1, _⟩ => rfl)
  · rw [dif_neg h]
    exact concatenate_pair_apply_right (t := S16384x64) (s₁ := S4096x64) (s₂ := S12288x64) 0 x1 x2 _ i rfl rfl
      (ix2 ⟨(i 0).val - 4096, by have := idx2_lt0 i; omega⟩ (i 1))
      (fun b hb => by match b with | ⟨0, _⟩ => exact absurd rfl hb | ⟨1, _⟩ => rfl)
      (by show (i 0).val - 4096 + 4096 = (i 0).val; omega)

/-! ## The three products -/

/-- The index the product reads the matrix at: row of the result, column `k`. -/
theorem lidx_eq (i : S16384x64.Idx) (k : Fin 16384) : lidx_main_v1 i k = ix2 (i 0) k := by
  funext a; match a with | ⟨0, _⟩ => rfl | ⟨1, _⟩ => rfl

/-- The index the product reads the table at: row `k`, column of the result. -/
theorem ridx_eq (i : S16384x64.Idx) (k : Fin 16384) : ridx_main_v1 i k = ix2 k (i 1) := by
  funext a; match a with | ⟨0, _⟩ => rfl | ⟨1, _⟩ => rfl

/-- The first product is the first round. -/
theorem v1_eq : val_main_v1 (F := Ideal) x0 x1 x2 = Spec.e1 x0 x1 x2 := by
  funext i
  unfold Spec.e1 Spec.step
  rw [val_main_v1_apply, v0_eq]
  refine Finset.sum_congr rfl fun k _ => ?_
  rw [lidx_eq, ridx_eq]; rfl

/-- The second product is the second round. -/
theorem v2_eq : val_main_v2 (F := Ideal) x0 x1 x2 = Spec.e2 x0 x1 x2 := by
  funext i
  unfold Spec.e2 Spec.step
  rw [val_main_v2_apply, v1_eq]
  refine Finset.sum_congr rfl fun k _ => ?_
  rw [show lidx_main_v2 i k = ix2 (i 0) k from lidx_eq i k, show ridx_main_v2 i k = ix2 k (i 1) from ridx_eq i k]; rfl

/-- The third product is the third round. -/
theorem v3_eq : val_main_v3 (F := Ideal) x0 x1 x2 = Spec.e3 x0 x1 x2 := by
  funext i
  unfold Spec.e3 Spec.step
  rw [val_main_v3_apply, v2_eq]
  refine Finset.sum_congr rfl fun k _ => ?_
  rw [show lidx_main_v3 i k = ix2 (i 0) k from lidx_eq i k, show ridx_main_v3 i k = ix2 k (i 1) from ridx_eq i k]; rfl

/-! ## The four stages side by side -/

/-- Four arrays with one middle slot each, laid side by side along the middle axis, read at middle coordinate `k`:
    the `k`-th array, at the same row and column. -/
theorem cat4_apply (y0 y1 y2 y3 : S16384x1x64.Idx → EReal) (i : S16384x64.Idx) :
    concatenate S16384x4x64 1 [⟨S16384x1x64, y0⟩, ⟨S16384x1x64, y1⟩, ⟨S16384x1x64, y2⟩, ⟨S16384x1x64, y3⟩]
        concatenates_S16384x1x64_S16384x1x64_S16384x1x64_S16384x1x64_S16384x4x64_d1 (idx_main_v9 i 0)
      = y0 (ix3 (i 0) (0 : Fin 1) (i 1))
    ∧ concatenate S16384x4x64 1 [⟨S16384x1x64, y0⟩, ⟨S16384x1x64, y1⟩, ⟨S16384x1x64, y2⟩, ⟨S16384x1x64, y3⟩]
        concatenates_S16384x1x64_S16384x1x64_S16384x1x64_S16384x1x64_S16384x4x64_d1 (idx_main_v9 i 1)
      = y1 (ix3 (i 0) (0 : Fin 1) (i 1))
    ∧ concatenate S16384x4x64 1 [⟨S16384x1x64, y0⟩, ⟨S16384x1x64, y1⟩, ⟨S16384x1x64, y2⟩, ⟨S16384x1x64, y3⟩]
        concatenates_S16384x1x64_S16384x1x64_S16384x1x64_S16384x1x64_S16384x4x64_d1 (idx_main_v9 i 2)
      = y2 (ix3 (i 0) (0 : Fin 1) (i 1))
    ∧ concatenate S16384x4x64 1 [⟨S16384x1x64, y0⟩, ⟨S16384x1x64, y1⟩, ⟨S16384x1x64, y2⟩, ⟨S16384x1x64, y3⟩]
        concatenates_S16384x1x64_S16384x1x64_S16384x1x64_S16384x1x64_S16384x4x64_d1 (idx_main_v9 i 3)
      = y3 (ix3 (i 0) (0 : Fin 1) (i 1)) := by
  have hi : ∀ b : Fin S16384x1x64.rank, b.cast (rfl : S16384x1x64.rank = S16384x4x64.rank) ≠ (1 : Fin S16384x4x64.rank) →
      ∀ k : Fin 4, ((ix3 (i 0) (0 : Fin 1) (i 1) : S16384x1x64.Idx) b).val = (idx_main_v9 i k (b.cast rfl)).val :=
    fun b hb k => by match b with | ⟨0, _⟩ => rfl | ⟨1, _⟩ => exact absurd rfl hb | ⟨2, _⟩ => rfl
  refine ⟨?_, ?_, ?_, ?_⟩
  · exact concatenate_apply_piece (t := S16384x4x64) 1 _ _ (idx_main_v9 i 0) 0 (by simp) S16384x1x64 y0 rfl rfl 0 rfl
      (ix3 (i 0) (0 : Fin 1) (i 1)) (fun b hb => hi b hb 0) rfl
  · exact concatenate_apply_piece (t := S16384x4x64) 1 _ _ (idx_main_v9 i 1) 1 (by simp) S16384x1x64 y1 rfl rfl 1 rfl
      (ix3 (i 0) (0 : Fin 1) (i 1)) (fun b hb => hi b hb 1) rfl
  · exact concatenate_apply_piece (t := S16384x4x64) 1 _ _ (idx_main_v9 i 2) 2 (by simp) S16384x1x64 y2 rfl rfl 2 rfl
      (ix3 (i 0) (0 : Fin 1) (i 1)) (fun b hb => hi b hb 2) rfl
  · exact concatenate_apply_piece (t := S16384x4x64) 1 _ _ (idx_main_v9 i 3) 3 (by simp) S16384x1x64 y3 rfl rfl 3 rfl
      (ix3 (i 0) (0 : Fin 1) (i 1)) (fun b hb => hi b hb 3) rfl

/-- A stage given a middle slot, read at that slot, is the stage at the same row and column. -/
theorem slot_idx (i : S16384x64.Idx) : idx_main_v4 (ix3 (i 0) (0 : Fin 1) (i 1)) = i := by
  funext a; match a with | ⟨0, _⟩ => rfl | ⟨1, _⟩ => rfl

/-- The four stages side by side, at middle coordinates 0 to 3: the stacked table and the three rounds. -/
theorem v8_apply (i : S16384x64.Idx) :
    val_main_v8 (F := Ideal) x0 x1 x2 (idx_main_v9 i 0) = Spec.e0 x1 x2 i
    ∧ val_main_v8 (F := Ideal) x0 x1 x2 (idx_main_v9 i 1) = Spec.e1 x0 x1 x2 i
    ∧ val_main_v8 (F := Ideal) x0 x1 x2 (idx_main_v9 i 2) = Spec.e2 x0 x1 x2 i
    ∧ val_main_v8 (F := Ideal) x0 x1 x2 (idx_main_v9 i 3) = Spec.e3 x0 x1 x2 i := by
  obtain ⟨h0, h1, h2, h3⟩ := cat4_apply (val_main_v4 (F := Ideal) x1 x2) (val_main_v5 (F := Ideal) x0 x1 x2)
    (val_main_v6 (F := Ideal) x0 x1 x2) (val_main_v7 (F := Ideal) x0 x1 x2) i
  refine ⟨?_, ?_, ?_, ?_⟩
  · refine h0.trans ?_
    rw [val_main_v4_apply, slot_idx, v0_eq]
  · refine h1.trans ?_
    rw [val_main_v5_apply, show idx_main_v5 (ix3 (i 0) (0 : Fin 1) (i 1)) = i from slot_idx i, v1_eq]
  · refine h2.trans ?_
    rw [val_main_v6_apply, show idx_main_v6 (ix3 (i 0) (0 : Fin 1) (i 1)) = i from slot_idx i, v2_eq]
  · refine h3.trans ?_
    rw [val_main_v7_apply, show idx_main_v7 (ix3 (i 0) (0 : Fin 1) (i 1)) = i from slot_idx i, v3_eq]

/-! ## The mean -/

/-- The sum over the middle axis from zero, divided by `4.0`, is the mean of the four stages. -/
theorem v11_apply (i : S16384x64.Idx) : val_main_v11 (F := Ideal) x0 x1 x2 i = Spec.mean x0 x1 x2 i := by
  obtain ⟨h0, h1, h2, h3⟩ := v8_apply x0 x1 x2 i
  rw [val_main_v11_apply, val_main_v9_apply, val_main_v10_apply, val_main_cst_0_apply, val_main_cst_apply,
    Fin.sum_univ_four, h0, h1, h2, h3]
  simp only [Ideal.hostDivf_def, Ideal.ofBits_def]
  exact Algebra.mean_reference _ _ _ _

/-! ## The two cuts -/

/-- The first 4096 rows of the mean are the users' rows. -/
theorem v12_eq : val_main_v12 (F := Ideal) x0 x1 x2 = Spec.outU x0 x1 x2 := by
  funext i
  rw [val_main_v12_apply, v11_apply]
  unfold Spec.outU
  exact congrArg (Spec.mean x0 x1 x2) (funext fun a => by match a with | ⟨0, _⟩ => rfl | ⟨1, _⟩ => rfl)

/-- The rows from 4096 on of the mean are the items' rows. -/
theorem v13_eq : val_main_v13 (F := Ideal) x0 x1 x2 = Spec.outI x0 x1 x2 := by
  funext i
  rw [val_main_v13_apply, v11_apply]
  unfold Spec.outI
  exact congrArg (Spec.mean x0 x1 x2) (funext fun a => by
    match a with
    | ⟨0, _⟩ => exact Fin.ext (Nat.add_comm 4096 (i 0).val)
    | ⟨1, _⟩ => rfl)

/-! ## The run -/

/-- Every weakly fair execution of the reference terminates with its two results at the specification's users' rows
    and items' rows of the mean, as functions of the three argument arrays, and the arguments unchanged. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v12)
          = Spec.outU (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_v13)
          = Spec.outI (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m' ((c.tc : Thread Cert.ReferenceIdeal.nD Cert.ReferenceIdeal.τ).loc Cert.ReferenceIdeal.main_arg2)) :=
  (θ_run Cert.ReferenceIdeal.defs _ _).mono (fun _ h c =>
      ⟨(h c).1.trans ((val_main_v12_eq (F := Ideal) _ _ _).trans (v12_eq _ _ _)),
       (h c).2.1.trans ((val_main_v13_eq (F := Ideal) _ _ _).trans (v13_eq _ _ _)),
       (h c).2.2⟩)
    (Cert.ReferenceIdeal.Value.run (F := Ideal) m' ρ')

/-- The reference runs to the end and leaves its arguments unchanged. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefValue

end
-- ==== Proof.lean ====
/-
  Three rounds of graph propagation and the mean of the four stages.

  The kernel stacks the users' table on the items' table into `e₀` (16384 × 64) and makes three passes over the
  16384 × 16384 matrix `a`, each a matrix product accumulated over eight column blocks of 2048 into a 512 × 64
  running total per row block: the first pass leaves `e₁ = a · e₀` and a copy of the matrix in the short float
  format, the second `e₂ = a · e₁`, the third `(e₀ + e₁ + e₂ + a · e₂) · ¼`; the result is cut into its users' rows and
  its items' rows. The reference computes the three products whole, lays the four stages side by side, sums them
  from zero and divides by four. On the extended reals the change of float format is the identity, a contraction
  over 16384 indices is the sum of its eight blocks of 2048 in order, addition is commutative and associative, and
  the quotient by `4` is the product with `¼`: both programs compute `Spec.outU` and `Spec.outI` of their
  arguments (Proof/Spec.lean). No finiteness is used.

  The frames: each pass is a pipeline over a 32 × 8 grid whose body keeps its running total in a scratch buffer
  between grid points; the invariant between points holds that buffer at what the point before left
  (Proof/K/ for the program read at machine words, Proof/KI/ for the program read at the ideal values — the same
  text in the two namespaces). The whole program is five segments — the stacking, the three passes, the two cuts —
  chained through the contents of every unscoped buffer; its run ends with every such buffer at a named valuation,
  from which the arguments (the frames) and the results (the values, Proof/KI/Value.lean) are read. The idealized
  program is the program's own text read at the ideal values: nothing was rewritten, so `preserves` is `True`.
-/
import proofs.«123882_g45509473468512_cont_8to1_c_438_2_alg».proof.Defs
import proofs.«123882_g45509473468512_cont_8to1_c_438_2_alg».proof.Proof.Gen.Kernel
import proofs.«123882_g45509473468512_cont_8to1_c_438_2_alg».proof.Proof.Gen.KernelIdeal
import proofs.«123882_g45509473468512_cont_8to1_c_438_2_alg».proof.Proof.Gen.ReferenceIdeal
import proofs.«123882_g45509473468512_cont_8to1_c_438_2_alg».proof.Proof.Gen.Pre_finite_inputs
import proofs.«123882_g45509473468512_cont_8to1_c_438_2_alg».proof.Proof.K.Ends
import proofs.«123882_g45509473468512_cont_8to1_c_438_2_alg».proof.Proof.KI.Value
import proofs.«123882_g45509473468512_cont_8to1_c_438_2_alg».proof.Proof.RefValue
import Idealize.ShloMosaic.Adequacy
import Idealize.ShloMosaic.Init

noncomputable section

namespace Cert.Proof

open Idealize.ShloMosaic Idealize.SL.Sem

/-- The program read at machine words runs to the end, nothing faulting, its arguments unchanged. -/
theorem frame_p : Cert.frame_Kernel := fun m ρ _ => Cert.Kernel.Hand.frame (F := Bits) m ρ

/-- The same program read at the ideal values. -/
theorem frame_pi : Cert.frame_KernelIdeal := fun m ρ _ => Cert.KernelIdeal.Hand.frame (F := Ideal) m ρ

/-- Nothing was rewritten between the two readings. -/
theorem preserves : Cert.preserves_Kernel_KernelIdeal := trivial

/-- From memories agreeing on the arguments both programs end with the users' rows and the items' rows of the mean of
    the four stages: the kernel by its value run, the reference by its own run read index by index. -/
theorem algebraic : Cert.algebraic_KernelIdeal_ReferenceIdeal := by
  intro m ρ m' ρ' _ hagree
  refine ⟨_, _, Cert.KernelIdeal.HandValue.run_value m ρ, ?_⟩
  refine (θ_run Cert.ReferenceIdeal.defs _ _).mono (fun r h c => ?_) (Cert.Proof.RefValue.run_spec m' ρ')
  obtain ⟨h12, h13, ha0, ha1, ha2⟩ := h c
  obtain ⟨e0, e1, e2⟩ := hagree c
  exact ⟨h12.trans (by rw [e0, e1, e2]), h13.trans (by rw [e0, e1, e2]), ha0, ha1, ha2⟩

theorem claim : Cert.Claim :=
  ⟨Cert.Kernel.Gen.facts, Cert.KernelIdeal.Gen.facts, Cert.ReferenceIdeal.Gen.facts, Cert.Pre_finite_inputs.Gen.facts,
    frame_p, frame_pi, Cert.Proof.RefValue.frame_ri, preserves, algebraic⟩

end Cert.Proof

end
